-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x1 : Shape := ⟨2, ![16777216, 1]⟩
abbrev S100000x1 : Shape := ⟨2, ![100000, 1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S16777216x1 : S_.BroadcastsInDim S16777216x1 (![] : Fin 0 → Fin S16777216x1.rank)
  reducesTo_S16777216x1_S_d0_1 : S16777216x1.ReducesTo [0, 1] S_

variable [Facts]

def fn {F : FTy → Type} [FloatOps F] (main_arg0 : IVec S16777216x1 32) (main_arg1 : FVec F S100000x1 .f32) : IVec S_ 1 :=
  let main_v0 : FVec F S100000x1 .f32 := Host.absf main_arg1
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_c_0 : IVec S_ 32 := constantI S_ 32 0#32
  let main_v4 : IVec S16777216x1 32 := broadcastInDim S16777216x1 ![] bcast_S_S16777216x1 main_c_0
  let main_v5 : IVec S16777216x1 1 := cmpi .sge main_arg0 main_v4
  let main_c_1 : IVec S_ 32 := constantI S_ 32 100000#32
  let main_v6 : IVec S16777216x1 32 := broadcastInDim S16777216x1 ![] bcast_S_S16777216x1 main_c_1
  let main_v7 : IVec S16777216x1 1 := cmpi .slt main_arg0 main_v6
  let main_v8 : IVec S16777216x1 1 := andi main_v5 main_v7
  let main_c_2 : IVec S_ 1 := constantI S_ 1 1#1
  let main_v9 : IVec S_ 1 := (fun x v => Host.reduce IntOp.andi x v reducesTo_S16777216x1_S_d0_1 h_S_) main_v8 main_c_2
  let main_v10 : IVec S_ 1 := andi main_v3 main_v9
  main_v10
-- ==== Kernel.lean ====
abbrev S16777216x1 : Shape := ⟨2, ![16777216, 1]⟩
abbrev S100000x1 : Shape := ⟨2, ![100000, 1]⟩
abbrev S16777216 : Shape := ⟨1, ![16777216]⟩
abbrev S_ : Shape := ⟨0, ![]⟩
abbrev S1 : Shape := ⟨1, ![1]⟩
abbrev S1x1 : Shape := ⟨2, ![1, 1]⟩
abbrev S4096x4096 : Shape := ⟨2, ![4096, 4096]⟩
abbrev S512x4096 : Shape := ⟨2, ![512, 4096]⟩
abbrev S512 : Shape := ⟨1, ![512]⟩
abbrev S512x1 : Shape := ⟨2, ![512, 1]⟩

abbrev nBuf : Space → Nat
  | .hbm => 31
  | .vmem => 12
  | .smem => 0
  | _ => 0

abbrev bufTy : (tb : Table) → Fin (tcTables nBuf tb) → BufTy
  | .hbm, ⟨0, _⟩ => ⟨S16777216x1, .i32⟩
  | .hbm, ⟨1, _⟩ => ⟨S100000x1, .f32⟩
  | .hbm, ⟨2, _⟩ => ⟨S16777216, .i32⟩
  | .hbm, ⟨3, _⟩ => ⟨S_, .i32⟩
  | .hbm, ⟨4, _⟩ => ⟨S16777216, .i32⟩
  | .hbm, ⟨5, _⟩ => ⟨S16777216, .i1⟩
  | .hbm, ⟨6, _⟩ => ⟨S_, .i32⟩
  | .hbm, ⟨7, _⟩ => ⟨S16777216, .i32⟩
  | .hbm, ⟨8, _⟩ => ⟨S16777216, .i32⟩
  | .hbm, ⟨9, _⟩ => ⟨S16777216, .i32⟩
  | .hbm, ⟨10, _⟩ => ⟨S16777216x1, .i32⟩
  | .hbm, ⟨11, _⟩ => ⟨S1, .i32⟩
  | .hbm, ⟨12, _⟩ => ⟨S_, .i32⟩
  | .hbm, ⟨13, _⟩ => ⟨S16777216x1, .i32⟩
  | .hbm, ⟨14, _⟩ => ⟨S16777216x1, .i1⟩
  | .hbm, ⟨15, _⟩ => ⟨S1x1, .i32⟩
  | .hbm, ⟨16, _⟩ => ⟨S16777216x1, .i32⟩
  | .hbm, ⟨17, _⟩ => ⟨S16777216x1, .i1⟩
  | .hbm, ⟨18, _⟩ => ⟨S16777216x1, .i1⟩
  | .hbm, ⟨19, _⟩ => ⟨S_, .i1⟩
  | .hbm, ⟨20, _⟩ => ⟨S16777216, .i1⟩
  | .hbm, ⟨21, _⟩ => ⟨S16777216x1, .f32⟩
  | .hbm, ⟨22, _⟩ => ⟨S16777216x1, .i1⟩
  | .hbm, ⟨23, _⟩ => ⟨S_, .f32⟩
  | .hbm, ⟨24, _⟩ => ⟨S16777216x1, .f32⟩
  | .hbm, ⟨25, _⟩ => ⟨S16777216x1, .f32⟩
  | .hbm, ⟨26, _⟩ => ⟨S4096x4096, .f32⟩
  | .hbm, ⟨27, _⟩ => ⟨S1x1, .f32⟩
  | .hbm, ⟨28, _⟩ => ⟨S1x1, .f32⟩
  | .hbm, ⟨29, _⟩ => ⟨S4096x4096, .f32⟩
  | .hbm, ⟨30, _⟩ => ⟨S16777216x1, .f32⟩
  | .local _ .vmem, ⟨0, _⟩ => ⟨S512x4096, .f32⟩
  | .local _ .vmem, ⟨1, _⟩ => ⟨S512x4096, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S512x4096, .f32⟩
  | .local _ .vmem, ⟨7, _⟩ => ⟨S512x4096, .f32⟩
  | .local _ .vmem, ⟨8, _⟩ => ⟨S1x1, .f32⟩
  | .local _ .vmem, ⟨9, _⟩ => ⟨S1x1, .f32⟩
  | .local _ .vmem, ⟨10, _⟩ => ⟨S512x4096, .f32⟩
  | .local _ .vmem, ⟨11, _⟩ => ⟨S512x4096, .f32⟩
  | _, _ => ⟨S16777216x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3_0 : Ref sig .tc := ⟨.hbm, 27, rfl⟩
abbrev main_v3_1 : Ref sig .tc := ⟨.hbm, 28, rfl⟩
abbrev main_v4 : Ref sig .tc := ⟨.hbm, 29, rfl⟩
abbrev main_v5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v24 : BitVec 1 := Scalar.cmpi .eq arg0 c7_i32
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S16777216x1_S16777216 : S16777216x1.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S16777216x1 : S_.BroadcastsInDim S16777216x1 (![] : Fin 0 → Fin S16777216x1.rank)
  bcast_S1_S1x1_1 : S1.BroadcastsInDim S1x1 (![1] : Fin 1 → Fin S1x1.rank)
  bcast_S1x1_S16777216x1_0_1 : S1x1.BroadcastsInDim S16777216x1 (![0, 1] : Fin 2 → Fin S16777216x1.rank)
  reducesTo_S16777216x1_S16777216_d1 : S16777216x1.ReducesTo [1] S16777216
  h_S_ : 0 < S_.numel
  shapeCasts_S16777216x1_S4096x4096 : S16777216x1.ShapeCasts S4096x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  reduces_S512x1_S1 : S512x1.Reduces [0] S1
  shapeCasts_S1_S1x1 : S1.ShapeCasts S1x1
  broadcasts_S1x1_S512x4096 : S1x1.Broadcasts S512x4096
  shapeCasts_S4096x4096_S16777216x1 : S4096x4096.ShapeCasts S16777216x1
  gather_S100000x1_S16777216x1_S16777216x1_1_0_n_n_0_1_11_wf : GatherDims.WF S100000x1 S16777216x1 S16777216x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S4096x4096.size a
  hwx1_3 : ∀ i : grid1.Coords, EltTy.bits .f32 = 32 ∨ (Rect.block (s := S4096x4096) S512x4096.size (cc1_transform_3 i) (hinb1_3 i)).WholeWords (EltTy.packing .f32)

variable [Facts₀]

def gather_S100000x1_S16777216x1_S16777216x1_1_0_n_n_0_1_11 : GatherDims S100000x1 S16777216x1 S16777216x1 where
  offsetDims := [1]
  collapsedSliceDims := [0]
  operandBatchingDims := []
  startIndicesBatchingDims := []
  startIndexMap := [0]
  indexVectorDim := 1
  sliceSizes := ![1, 1]
  wf := gather_S100000x1_S16777216x1_S16777216x1_1_0_n_n_0_1_11_wf

abbrev win0_0 : Pipeline.Window sig grid0 :=
  Pipeline.Window.ofSpec (Memref.whole main_v2) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16777216x1 : Shape := ⟨2, ![16777216, 1]⟩
abbrev S100000x1 : Shape := ⟨2, ![100000, 1]⟩
abbrev S16777216 : Shape := ⟨1, ![16777216]⟩
abbrev S_ : Shape := ⟨0, ![]⟩
abbrev S1 : Shape := ⟨1, ![1]⟩
abbrev S1x1 : Shape := ⟨2, ![1, 1]⟩

abbrev nBuf : Space → Nat
  | .hbm => 50
  | .vmem => 0
  | .smem => 0
  | _ => 0

abbrev bufTy : (tb : Table) → Fin (tcTables nBuf tb) → BufTy
  | .hbm, ⟨0, _⟩ => ⟨S16777216x1, .i32⟩
  | .hbm, ⟨1, _⟩ => ⟨S100000x1, .f32⟩
  | .hbm, ⟨2, _⟩ => ⟨S16777216, .i32⟩
  | .hbm, ⟨3, _⟩ => ⟨S_, .i32⟩
  | .hbm, ⟨4, _⟩ => ⟨S16777216, .i32⟩
  | .hbm, ⟨5, _⟩ => ⟨S16777216, .i1⟩
  | .hbm, ⟨6, _⟩ => ⟨S_, .i32⟩
  | .hbm, ⟨7, _⟩ => ⟨S16777216, .i32⟩
  | .hbm, ⟨8, _⟩ => ⟨S16777216, .i32⟩
  | .hbm, ⟨9, _⟩ => ⟨S16777216, .i32⟩
  | .hbm, ⟨10, _⟩ => ⟨S16777216x1, .i32⟩
  | .hbm, ⟨11, _⟩ => ⟨S1, .i32⟩
  | .hbm, ⟨12, _⟩ => ⟨S_, .i32⟩
  | .hbm, ⟨13, _⟩ => ⟨S16777216x1, .i32⟩
  | .hbm, ⟨14, _⟩ => ⟨S16777216x1, .i1⟩
  | .hbm, ⟨15, _⟩ => ⟨S1x1, .i32⟩
  | .hbm, ⟨16, _⟩ => ⟨S16777216x1, .i32⟩
  | .hbm, ⟨17, _⟩ => ⟨S16777216x1, .i1⟩
  | .hbm, ⟨18, _⟩ => ⟨S16777216x1, .i1⟩
  | .hbm, ⟨19, _⟩ => ⟨S_, .i1⟩
  | .hbm, ⟨20, _⟩ => ⟨S16777216, .i1⟩
  | .hbm, ⟨21, _⟩ => ⟨S16777216x1, .f32⟩
  | .hbm, ⟨22, _⟩ => ⟨S16777216x1, .i1⟩
  | .hbm, ⟨23, _⟩ => ⟨S_, .f32⟩
  | .hbm, ⟨24, _⟩ => ⟨S16777216x1, .f32⟩
  | .hbm, ⟨25, _⟩ => ⟨S16777216x1, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S1x1, .f32⟩
  | .hbm, ⟨32, _⟩ => ⟨S16777216x1, .f32⟩
  | .hbm, ⟨33, _⟩ => ⟨S16777216x1, .f32⟩
  | .hbm, ⟨34, _⟩ => ⟨S16777216x1, .f32⟩
  | .hbm, ⟨35, _⟩ => ⟨S_, .f32⟩
  | .hbm, ⟨36, _⟩ => ⟨S1, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S1, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S1x1, .f32⟩
  | .hbm, ⟨45, _⟩ => ⟨S16777216x1, .f32⟩
  | .hbm, ⟨46, _⟩ => ⟨S16777216x1, .f32⟩
  | .hbm, ⟨47, _⟩ => ⟨S1x1, .f32⟩
  | .hbm, ⟨48, _⟩ => ⟨S16777216x1, .f32⟩
  | .hbm, ⟨49, _⟩ => ⟨S16777216x1, .f32⟩
  | _, _ => ⟨S16777216x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_cst_0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_cst_2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_3 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩

abbrev nD : Nat := 1
abbrev τ : Topo := Topo.v7x

variable {F : FTy → Type} [FloatOps F]

class Facts₀ : Prop where
  shapeCasts_S16777216x1_S16777216 : S16777216x1.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S16777216x1 : S_.BroadcastsInDim S16777216x1 (![] : Fin 0 → Fin S16777216x1.rank)
  bcast_S1_S1x1_1 : S1.BroadcastsInDim S1x1 (![1] : Fin 1 → Fin S1x1.rank)
  bcast_S1x1_S16777216x1_0_1 : S1x1.BroadcastsInDim S16777216x1 (![0, 1] : Fin 2 → Fin S16777216x1.rank)
  reducesTo_S16777216x1_S16777216_d1 : S16777216x1.ReducesTo [1] S16777216
  h_S_ : 0 < S_.numel
  reducesTo_S16777216x1_S1_d0 : S16777216x1.ReducesTo [0] S1
  bcast_S_S1 : S_.BroadcastsInDim S1 (![] : Fin 0 → Fin S1.rank)
  gather_S100000x1_S16777216x1_S16777216x1_1_0_n_n_0_1_11_wf : GatherDims.WF S100000x1 S16777216x1 S16777216x1 [1] [0] [] [0] [] 1 ![1, 1]

variable [Facts₀]

def gather_S100000x1_S16777216x1_S16777216x1_1_0_n_n_0_1_11 : GatherDims S100000x1 S16777216x1 S16777216x1 where
  offsetDims := [1]
  collapsedSliceDims := [0]
  operandBatchingDims := []
  startIndicesBatchingDims := []
  startIndexMap := [0]
  indexVectorDim := 1
  sliceSizes := ![1, 1]
  wf := gather_S100000x1_S16777216x1_S16777216x1_1_0_n_n_0_1_11_wf

class Facts : Prop extends Facts₀ where

variable [Facts]
-- ==== Proof.RunI.lean ====
/-
  The whole program as a run, for any reading F of the floats: three stretches of host operations (the index column
  laid out as a vector; the table looked up; the looked-up column laid out as the 4096 x 4096 array), the reduction
  region, the normalization region, and a last host operation laying the result out as a column again.

  Between two items a core holds every unscoped buffer whole, at contents that are a function of the launch memory:
  each host stretch applies its operations to what the item before it left; a kernel region leaves every buffer as it
  found it except its windows' arrays, which end at what its write-backs leave. A region's own proof (what the body does
  at a grid point, and the invariant it keeps between points) enters here only through the small record below, so the
  run is stated once for any two such records. Every weakly fair execution terminates, nothing faults, and every
  unscoped buffer ends at the last boundary's contents; in particular the two argument arrays end as launched.
-/
import proofs.«136790_j4312147165694_2_alg».proof.Proof.Gen.KernelIdeal.Launch
import proofs.«136790_j4312147165694_2_alg».proof.Proof.Gen.KernelIdeal.Skeleton
import proofs.«136790_j4312147165694_2_alg».proof.Proof.Gen.KernelIdeal.Points
import proofs.«136790_j4312147165694_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What a region's own proof supplies -/

/-- The reduction region on core `c`, entered at contents `V`: its proof data reading its arrays off `V`, holding
    them outright and owing nothing; the body's obligation at every grid point; and the invariant entered from, and
    returned to, "the scoped buffers no window stages at some contents, the generator register at some state". -/
structure Reg0 (V : (c : Dev nD) → (b : Ref sig .tc) → Buf (Elt F) ((c : Thread nD τ).loc b)) (c : Dev nD) where
  dat : Dat τ (Elt F) Unit ℕ (UR sig nD τ) ℕ cfg0 c
  hA : ∀ w, dat.A w = V c (Pipeline.arrRef spec0 w)
  hq : ∀ w, dat.q w = fullShare
  howed : ∀ t, dat.owed t = 0
  hrec : ∀ t, dat.recorded t = Set.univ
  hbody : BodyObligation dat (defs₀ (F := F)) Variants.none () Set.univ
  hin : (iprop((∃ r, prngReg c r) ∗ Pipeline.scopedRest (Ix := Unit) (Name := ℕ) (U := UR sig nD τ) (Lvl := ℕ) (Val := Elt F) spec0 c) : sProp 𝕄) ⊢ dat.Φ 0
  hout : dat.Φ (Fin.last cfg0.N) ⊢ (iprop((∃ r, prngReg c r) ∗ Pipeline.scopedRest (Ix := Unit) (Name := ℕ) (U := UR sig nD τ) (Lvl := ℕ) (Val := Elt F) spec0 c) : sProp 𝕄)

/-- The same for the normalization region. -/
structure Reg1 (V : (c : Dev nD) → (b : Ref sig .tc) → Buf (Elt F) ((c : Thread nD τ).loc b)) (c : Dev nD) where
  dat : Dat τ (Elt F) Unit ℕ (UR sig nD τ) ℕ cfg1 c
  hA : ∀ w, dat.A w = V c (Pipeline.arrRef spec1 w)
  hq : ∀ w, dat.q w = fullShare
  howed : ∀ t, dat.owed t = 0
  hrec : ∀ t, dat.recorded t = Set.univ
  hbody : BodyObligation dat (defs₀ (F := F)) Variants.none () Set.univ
  hin : (iprop((∃ r, prngReg c r) ∗ Pipeline.scopedRest (Ix := Unit) (Name := ℕ) (U := UR sig nD τ) (Lvl := ℕ) (Val := Elt F) spec1 c) : sProp 𝕄) ⊢ dat.Φ 0
  hout : dat.Φ (Fin.last cfg1.N) ⊢ (iprop((∃ r, prngReg c r) ∗ Pipeline.scopedRest (Ix := Unit) (Name := ℕ) (U := UR sig nD τ) (Lvl := ℕ) (Val := Elt F) spec1 c) : sProp 𝕄)

variable (R0 : ∀ (V : (c : Dev nD) → (b : Ref sig .tc) → Buf (Elt F) ((c : Thread nD τ).loc b)) (c : Dev nD), Reg0 (F := F) V c)
variable (R1 : ∀ (V : (c : Dev nD) → (b : Ref sig .tc) → Buf (Elt F) ((c : Thread nD τ).loc b)) (c : Dev nD), Reg1 (F := F) V c)
variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the index column is laid out as a vector. -/
abbrev W1 : Dev nD → Valuation τ sig (Elt F) := fun c => StableHlo.after hostOps0 (W0 m ρ c)
/-- After the table is looked up. -/
abbrev W2 : Dev nD → Valuation τ sig (Elt F) := fun c => StableHlo.after hostOps0_1 (W1 m ρ c)
/-- After the looked-up column is laid out as the square array: the reduction region's entry. -/
abbrev W3 : Dev nD → Valuation τ sig (Elt F) := fun c => StableHlo.after hostOps0_2 (W2 m ρ c)
/-- The same read at the core's references. -/
abbrev V3 : (c : Dev nD) → (b : Ref sig .tc) → Buf (Elt F) ((c : Thread nD τ).loc b) := fun c b => W3 m ρ c b
/-- After the reduction region: its arrays at what its write-backs leave, every other buffer as entered. -/
def W4 (c : Dev nD) : Valuation τ sig (Elt F) :=
  Pipeline.withArrays spec0 c (W3 m ρ c) fun w => (R0 (V3 m ρ) c).dat.arrAt w cfg0.N
abbrev V4 : (c : Dev nD) → (b : Ref sig .tc) → Buf (Elt F) ((c : Thread nD τ).loc b) := fun c b => W4 R0 m ρ c b
/-- After the normalization region. -/
def W5 (c : Dev nD) : Valuation τ sig (Elt F) :=
  Pipeline.withArrays spec1 c (W4 R0 m ρ c) fun w => (R1 (V4 R0 m ρ) c).dat.arrAt w cfg1.N
abbrev V5 : (c : Dev nD) → (b : Ref sig .tc) → Buf (Elt F) ((c : Thread nD τ).loc b) := fun c b => W5 R0 R1 m ρ c b
/-- After the result is laid out as a column: the end. -/
abbrev W6 : Dev nD → Valuation τ sig (Elt F) := fun c => StableHlo.after hostOps2 (W5 R0 R1 m ρ c)

theorem W4_arr (c : Dev nD) (w : Fin cfg0.W) :
    W4 R0 m ρ c (Proc.devRef .tc (Pipeline.arrRef spec0 w)) = (R0 (V3 m ρ) c).dat.arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 R0 m ρ c (Proc.devRef .tc b) = W3 m ρ c (Proc.devRef .tc b) := by
  unfold W4; exact Pipeline.withArrays_of_ne spec0 c _ _ b hb
theorem W5_arr (c : Dev nD) (w : Fin cfg1.W) :
    W5 R0 R1 m ρ c (Proc.devRef .tc (Pipeline.arrRef spec1 w)) = (R1 (V4 R0 m ρ) c).dat.arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 R0 R1 m ρ c (Proc.devRef .tc b) = W4 R0 m ρ c (Proc.devRef .tc b) := by
  unfold W5; exact Pipeline.withArrays_of_ne spec1 c _ _ b hb

/-- At a region's exit each of its arrays holds what the pipeline leaves and every other buffer what it held at entry. -/
theorem hF0 (c : Dev nD) (w : Fin cfg0.W) : (R0 (V3 m ρ) c).dat.arrAt w cfg0.N = V4 R0 m ρ c (Pipeline.arrRef spec0 w) :=
  (W4_arr R0 m ρ c w).symm
theorem hrest0 (c : Dev nD) : ∀ b, b ∉ Finset.univ.image (Pipeline.arrRef spec0) → V4 R0 m ρ c b = V3 m ρ c b :=
  fun b hb => W4_of_ne R0 m ρ c b fun w e => hb (Finset.mem_image.mpr ⟨w, Finset.mem_univ _, e⟩)
theorem hF1 (c : Dev nD) (w : Fin cfg1.W) : (R1 (V4 R0 m ρ) c).dat.arrAt w cfg1.N = V5 R0 R1 m ρ c (Pipeline.arrRef spec1 w) :=
  (W5_arr R0 R1 m ρ c w).symm
theorem hrest1 (c : Dev nD) : ∀ b, b ∉ Finset.univ.image (Pipeline.arrRef spec1) → V5 R0 R1 m ρ c b = V4 R0 m ρ c b :=
  fun b hb => W5_of_ne R0 R1 m ρ c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => (R0 (V3 m ρ) c).dat
  | ⟨1, _⟩ => fun c => (R1 (V4 R0 m ρ) c).dat

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rd (c : Dev nD) : sProp 𝕄 := iprop((∃ r, prngReg c r) ∗ ∃ W, owes (c : Thread nD τ) (0 : CellTallies nD τ sig Unit) W)

/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The reduction region over the thread state: entered from every unscoped buffer at `W3`, left at `W4`. -/
def reg0 : Pipeline.RegionSeg (pcfgs (F := F)) adm (pdats R0 R1 m ρ) () defs₀ 𝒱₀ L lv 0 where
  win := launch0.win.to₀
  block_pos := launch0.block_pos
  stage_whole := launch0.stage_whole
  K := PEmpty
  osem k := k.elim
  ho := Pipeline.OwnSemFacts.none _
  hbody c := ((R0 (V3 m ρ) c).hbody).loose
  hwaits := Pipeline.hwaits_of_owed_zero _ _ _ _ L lv 0 fun c t => (R0 (V3 m ρ) c).howed t
  pre c := iprop(StableHlo.held (c : Thread nD τ) (Pipeline.ucRefs τ sig) (W3 m ρ c) ∗ Rd c)
  post c := iprop(StableHlo.held (c : Thread nD τ) (Pipeline.ucRefs τ sig) (W4 R0 m ρ c) ∗ Rd c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats R0 R1 m ρ) launch0.win launch0.arr_whole c
      ((pdats R0 R1 m ρ 0 c).share_full fun w => (R0 (V3 m ρ) c).hq w) (V3 m ρ c) fun w => (R0 (V3 m ρ) c).hA w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats R0 R1 m ρ 0 c).recorded 0 = Set.univ from (R0 (V3 m ρ) c).hrec 0]; trivial)
      rw [show (pdats R0 R1 m ρ 0 c).owed 0 = 0 from (R0 (V3 m ρ) c).howed 0]
      iexact HO
    isplitl [Hp]; · iexact Hp
    iexact Hrest
  hin c := by
    have h := (R0 (V3 m ρ) c).hin
    rw [show (pdats R0 R1 m ρ 0 c).Φ 0 = (R0 (V3 m ρ) c).dat.Φ 0 from rfl]
    iintro ⟨Hp, -, Hr⟩
    iapply h
    isplitl [Hp]; · iexact Hp
    iexact Hr
  hout c := by
    rw [Pipeline.ownSems0_none]
    have h := (R0 (V3 m ρ) c).hout
    rw [show (pdats R0 R1 m ρ 0 c).Φ (Fin.last _) = (R0 (V3 m ρ) c).dat.Φ (Fin.last cfg0.N) from rfl]
    iintro HPhi
    ihave H := h $$ HPhi
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R0 R1 m ρ) ((pdats R0 R1 m ρ 0 c).share_full fun w => (R0 (V3 m ρ) c).hq w)
      (V3 m ρ c) (V4 R0 m ρ c) ((pdats R0 R1 m ρ 0 c).arrAt · cfg0.N) (hF0 R0 m ρ c) (hrest0 R0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats R0 R1 m ρ 0 c).owed (Fin.last _) = 0 from (R0 (V3 m ρ) c).howed _]
    iexact HO

set_option backward.isDefEq.respectTransparency.types false in
/-- The normalization region over the thread state: entered from every unscoped buffer at `W4`, left at `W5`. -/
def reg1 : Pipeline.RegionSeg (pcfgs (F := F)) adm (pdats R0 R1 m ρ) () defs₀ 𝒱₀ L lv 1 where
  win := launch1.win.to₀
  block_pos := launch1.block_pos
  stage_whole := launch1.stage_whole
  K := PEmpty
  osem k := k.elim
  ho := Pipeline.OwnSemFacts.none _
  hbody c := ((R1 (V4 R0 m ρ) c).hbody).loose
  hwaits := Pipeline.hwaits_of_owed_zero _ _ _ _ L lv 1 fun c t => (R1 (V4 R0 m ρ) c).howed t
  pre c := iprop(StableHlo.held (c : Thread nD τ) (Pipeline.ucRefs τ sig) (W4 R0 m ρ c) ∗ Rd c)
  post c := iprop(StableHlo.held (c : Thread nD τ) (Pipeline.ucRefs τ sig) (W5 R0 R1 m ρ c) ∗ Rd c)
  X c := iprop(∃ r, prngReg c r)
  Y c := iprop(∃ r, prngReg c r)
  Z c := Pipeline.unscopedRest (Ix := Unit) (Name := ℕ) (U := UR sig nD τ) (Lvl := ℕ) spec1 c (V4 R0 m ρ c)
  hentry c := by
    rw [Pipeline.ownSems0_none]
    have hsplit := Pipeline.arrays_of_unscopedBufs (p := 1) (pcfgs (F := F)) adm (pdats R0 R1 m ρ) launch1.win launch1.arr_whole c
      ((pdats R0 R1 m ρ 1 c).share_full fun w => (R1 (V4 R0 m ρ) c).hq w) (V4 R0 m ρ c) fun w => (R1 (V4 R0 m ρ) c).hA w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats R0 R1 m ρ 1 c).recorded 0 = Set.univ from (R1 (V4 R0 m ρ) c).hrec 0]; trivial)
      rw [show (pdats R0 R1 m ρ 1 c).owed 0 = 0 from (R1 (V4 R0 m ρ) c).howed 0]
      iexact HO
    isplitl [Hp]; · iexact Hp
    iexact Hrest
  hin c := by
    have h := (R1 (V4 R0 m ρ) c).hin
    rw [show (pdats R0 R1 m ρ 1 c).Φ 0 = (R1 (V4 R0 m ρ) c).dat.Φ 0 from rfl]
    iintro ⟨Hp, -, Hr⟩
    iapply h
    isplitl [Hp]; · iexact Hp
    iexact Hr
  hout c := by
    rw [Pipeline.ownSems0_none]
    have h := (R1 (V4 R0 m ρ) c).hout
    rw [show (pdats R0 R1 m ρ 1 c).Φ (Fin.last _) = (R1 (V4 R0 m ρ) c).dat.Φ (Fin.last cfg1.N) from rfl]
    iintro HPhi
    ihave H := h $$ HPhi
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R0 R1 m ρ) ((pdats R0 R1 m ρ 1 c).share_full fun w => (R1 (V4 R0 m ρ) c).hq w)
      (V4 R0 m ρ c) (V5 R0 R1 m ρ c) ((pdats R0 R1 m ρ 1 c).arrAt · cfg1.N) (hF1 R0 R1 m ρ c) (hrest1 R0 R1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats R0 R1 m ρ 1 c).owed (Fin.last _) = 0 from (R1 (V4 R0 m ρ) c).howed _]
    iexact HO

/-! ## The program as its items, and the launch -/

/-- The six items in order. -/
abbrev segs : List (Pipeline.Seg (pcfgs (F := F)) adm (pdats R0 R1 m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 R0 R1 m ρ),
    .region (reg1 R0 R1 m ρ),
    .host (hseg hostOps2 hostOps2_sub hostOps2_fresh (W5 R0 R1 m ρ)) ]

/-- The last thread state without the `owes`. -/
abbrev Tₙ (c : Dev nD) : sProp 𝕄 := iprop(StableHlo.held (c : Thread nD τ) (Pipeline.ucRefs τ sig) (W6 R0 R1 m ρ c) ∗ ∃ r, prngReg c r)

set_option backward.isDefEq.respectTransparency.types false in
/-- THE RUN: every weakly fair execution terminates, nothing faults, and every unscoped buffer ends at `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 R0 R1 m ρ c b) :=
  Pipeline.θ_run_regions_kit (pcfgs (F := F)) adm (pdats R0 R1 m ρ) () cellOf_inj emb₁ defs₀ 𝒱₀ L lv m ρ main (segs R0 R1 m ρ)
    (fun c Q => by
      rewrite [main_chain c, Pipeline.Seg.run_eq_chain,
        show (segs R0 R1 m ρ).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rd c)) (Tₙ := Tₙ R0 R1 m ρ)
    (hch := ⟨fun _ => .rfl, fun _ => .rfl, fun _ => .rfl, fun _ => .rfl, fun _ => .rfl, fun _ => .rfl, fun c => by
      show (iprop(StableHlo.held (c : Thread nD τ) (Pipeline.ucRefs τ sig) (W6 R0 R1 m ρ c) ∗ Rd c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 R0 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 R0 R1 m ρ c) s')
      isplitl [Hh] <;> iassumption)
    (hQ := fun s h c => h c)

end Cert.KernelIdeal.Hand

end
-- ==== Proof.RunPostI.lean ====
/-
  What the run leaves where the claims look: the two argument arrays, which no host operation writes and no region
  may change, end as launched; and the result column is the last region's output array laid out as a column, that
  array being what the normalization region's write-backs leave, computed from the arrays the reduction region left.
-/
import proofs.«136790_j4312147165694_2_alg».proof.Proof.RunI

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F]

variable (R0 : ∀ (V : (c : Dev nD) → (b : Ref sig .tc) → Buf (Elt F) ((c : Thread nD τ).loc b)) (c : Dev nD), Reg0 (F := F) V c)
variable (R1 : ∀ (V : (c : Dev nD) → (b : Ref sig .tc) → Buf (Elt F) ((c : Thread nD τ).loc b)) (c : Dev nD), Reg1 (F := F) V c)
variable (m : (ℓ : Loc nD τ sig) → Buf (Elt F) ℓ) (ρ : Dev nD → PrngReg)

/-- A buffer that is no window's array of either region and that no host operation writes ends as launched. -/
theorem W6_of_untouched (c : Dev nD) (r : Ref sig .tc) (h0 : r ∉ hostOps0_W) (h1 : r ∉ hostOps0_1_W) (h2 : r ∉ hostOps0_2_W)
    (h3 : ∀ w, Pipeline.arrRef spec0 w ≠ r) (h4 : ∀ w, Pipeline.arrRef spec1 w ≠ r) (h5 : r ∉ hostOps2_W) :
    W6 R0 R1 m ρ c (Proc.devRef .tc r) = m ((c : Thread nD τ).loc r) :=
  calc W6 R0 R1 m ρ c (Proc.devRef .tc r)
    _ = W5 R0 R1 m ρ c (Proc.devRef .tc r) := StableHlo.after_of_writes_sub hostOps2 _ hostOps2_writes h5
    _ = W4 R0 m ρ c (Proc.devRef .tc r) := W5_of_ne R0 R1 m ρ c r h4
    _ = W3 m ρ c (Proc.devRef .tc r) := W4_of_ne R0 m ρ c r h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

theorem W6_main_arg0 (c : Dev nD) : W6 R0 R1 m ρ c (Proc.devRef .tc main_arg0) = m ((c : Thread nD τ).loc main_arg0) :=
  W6_of_untouched R0 R1 m ρ c main_arg0 (by decide) (by decide) (by decide) (by decide) (by decide) (by decide)
theorem W6_main_arg1 (c : Dev nD) : W6 R0 R1 m ρ c (Proc.devRef .tc main_arg1) = m ((c : Thread nD τ).loc main_arg1) :=
  W6_of_untouched R0 R1 m ρ c main_arg1 (by decide) (by decide) (by decide) (by decide) (by decide) (by decide)

/-- The result column is the normalization region's output array laid out as a column. -/
theorem W6_main_v5 (c : Dev nD) :
    (W6 R0 R1 m ρ c (Proc.devRef .tc main_v5) : S16777216x1.Idx → F .f32)
      = shapeCast S16777216x1 ((R1 (V4 R0 m ρ) c).dat.arrAt 3 cfg1.N : S4096x4096.Idx → F .f32) shapeCasts_S4096x4096_S16777216x1 := by
  rw [← W5_arr R0 R1 m ρ c 3]
  show StableHlo.after hostOps2 (W5 R0 R1 m ρ c) (Proc.devRef .tc main_v5) = _
  after_results
  rfl

include R0 R1 in
/-- The frame: the run, read at the two argument arrays. -/
theorem frame_of : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W6_main_arg0 R0 R1 m ρ c),
     (h c _ (mem_uc main_arg1 (by decide))).trans (W6_main_arg1 R0 R1 m ρ c)⟩) (run_all R0 R1 m ρ)

/-- The run read at the result and the two arguments. -/
theorem run_result : θ_run defs (onTc (τ := τ) (main (F := F))) ⟨m, fun _ => 0, ρ⟩ (fun r => ∀ c : Dev nD,
      r.2.mem ((c.tc : Thread nD τ).loc main_v5) = W6 R0 R1 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v5 (by decide)),
     (h c _ (mem_uc main_arg0 (by decide))).trans (W6_main_arg0 R0 R1 m ρ c),
     (h c _ (mem_uc main_arg1 (by decide))).trans (W6_main_arg1 R0 R1 m ρ c)⟩) (run_all R0 R1 m ρ)

/-! ### What the regions find -/

/-- The looked-up column and the square array the regions read, as the host stretches leave them. -/
theorem V3_main_v2 (c : Dev nD) :
    (V3 m ρ c main_v2 : S4096x4096.Idx → F .f32)
      = shapeCast S4096x4096 (W2 m ρ c (Proc.devRef .tc main_v1) : S16777216x1.Idx → F .f32) shapeCasts_S16777216x1_S4096x4096 := by
  show StableHlo.after hostOps0_2 (W2 m ρ c) (Proc.devRef .tc main_v2) = _
  after_results
  rfl

/-- The normalization region finds the square array as the reduction region found it (an input array is never written),
    and the two one-entry arrays as the reduction region's write-backs left them. -/
theorem V4_main_v2 (c : Dev nD) (h : ∀ n, (R0 (V3 m ρ) c).dat.arrAt 0 n = V3 m ρ c (Pipeline.arrRef spec0 0)) :
    V4 R0 m ρ c main_v2 = V3 m ρ c main_v2 :=
  (W4_arr R0 m ρ c 0).trans (h cfg0.N)
theorem V4_main_v3_0 (c : Dev nD) : V4 R0 m ρ c main_v3_0 = (R0 (V3 m ρ) c).dat.arrAt 1 cfg0.N := W4_arr R0 m ρ c 1
theorem V4_main_v3_1 (c : Dev nD) : V4 R0 m ρ c main_v3_1 = (R0 (V3 m ρ) c).dat.arrAt 2 cfg0.N := W4_arr R0 m ρ c 2

end Cert.KernelIdeal.Hand

end
-- ==== Proof.NormI.lean ====
/-
  The normalising call of the kernel, as a pipeline over eight row blocks of the 4096 x 4096 matrix X.

  At grid point t the body sees four staging buffers: the block of 512 rows of X numbered t, the one
  entry holding the mean, the one entry holding the standard deviation, and the block of the result
  for the same 512 rows. It reads the first three whole, and overwrites the fourth whole with
      (x - mean) / std        entry by entry,
  the two scalars spread over the block. Nothing is carried from one point to the next.

  This file fixes, for contents V of the core's arrays as the call finds them:
    * the block of each windowed array at a point (iblk1),
    * what the body leaves in the result's staging buffer, as a function of the three input blocks
      (out1_3: the one store laid over the buffer),
    * the proof data of the pipeline (dat1) and the statement that the body, run at any point on the
      buffers the pipeline hands it, leaves them as dat1 says (body_obligation1),
    * that the three input arrays are never written (arrAt1_in).
  Everything is stated for an arbitrary carrier F of floats, so that the same text reads at machine
  words and at extended reals.
-/
import proofs.«136790_j4312147165694_2_alg».proof.Proof.Gen.KernelIdeal.Launch
import proofs.«136790_j4312147165694_2_alg».proof.Proof.Gen.KernelIdeal.Skeleton
import proofs.«136790_j4312147165694_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ
-- the buffer contents when the region is entered, per core: the parameter everything is stated at
variable (V : (c : Dev nD) → (b : Ref sig .tc) → Buf (Elt F) ((c : Thread nD τ).loc b))

/-! ## The blocks of the four arrays -/

/-- The block of window w's array that belongs to point t, read off the array as the call finds it. For X and
    for the result it is rows 512 t .. 512 t + 511; for the mean and the standard deviation it is the whole
    one-entry array at every point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds that input's block at every point, whether the pipeline copied it in at
    that point or not: where it did not, the block's position has not moved since the last copy, and the body
    leaves an input buffer as it found it. Stated for any proof data over the arrays V whose body leaves the
    block of window 0 in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the mean (window 1): copied in at the first point only, and still there at every later one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the standard deviation (window 2). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

/-- All of a 512 x 4096 buffer: offset (0,0), full extent. -/
abbrev rBlk : Rect S512x4096 := Rect.unit (s := S512x4096) ![0, 0] S512x4096.size inb_S512x4096_S512x4096_0_0
/-- All of a one-entry buffer. -/
abbrev rOne : Rect S1x1 := Rect.unit (s := S1x1) ![0, 0] S1x1.size inb_S1x1_S1x1_0_0

/-! ## What the body leaves in the result's staging buffer -/

/-- The result's staging buffer after the body, from the three input blocks: the single store, whose payload is
    (x0 - x1) / x2 with the one-entry vectors x1, x2 spread over the block, laid over the buffer. -/
def out1_3 (x0 : Vec F S512x4096 .f32) (x1 x2 : Vec F S1x1 .f32) : Vec F S512x4096 .f32 :=
  View.canon [⟨rBlk, k1_pay1 (View.ld x0 rBlk) (View.ld x1 rOne) (View.ld x2 rOne)⟩]

/-- That store is through the whole buffer, so every index of the buffer lies under it. -/
theorem cover1_3 (p0 : Vec F S512x4096 .f32) (y : S512x4096.Idx) :
    ∃ pc ∈ ([⟨rBlk, p0⟩] : List (View.Piece (Elt F) S512x4096 .f32)), y ∈ pc.1.set :=
  View.cover_of_tiled [⟨rBlk, p0⟩] S512x4096.size (by rfl) y

/-! ## The body on any four whole buffers -/

set_option maxHeartbeats 1000000 in
/-- Run on whole buffers holding x0, x1, x2 and anything, the body returns the three inputs as they were and the
    fourth buffer at out1_3 x0 x1 x2. (It also reads the fourth buffer before storing into it; what it reads there
    is not used.) -/
theorem sound_kernel1 (c : Dev nD) (E : Set ℕ) (i : grid1.Coords)
    (arg1 : Memref sig .tc .vmem S512x4096 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S512x4096 .f32) (harg4 : arg4.IsWhole)
    (x0 : Vec F S512x4096 .f32) (x1 x2 : Vec F S1x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__normalize_kernel i arg1 harg1 arg2 harg2 arg3 harg3 arg4 harg4) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the normalising pipeline on core c. The arrays are as the call finds them (V). After the
    body at point t each input buffer still holds its block and the result's buffer holds out1_3 of the three
    input blocks. The invariant is the rest of the core's memory, untouched; the core owes nothing; every share is
    whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the contents at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- What the body finds in each input buffer at point t: that input's block. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body at a point of the grid -/

/-- What the body is handed at point t: the invariant, what the core owes, and the four current staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks, so sound_kernel1 applies with those blocks;
    the invariant and the core's debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation on the body, at every point. -/
theorem body_obligation1 (c : Dev nD) : BodyObligation (dat1 (F := F) V c) (defs₀ (F := F)) Variants.none () Set.univ := fun t => by
  rw [bigSep_W1, bigSep_W1]
  exact sound_body1 V c t

/-! ## The input arrays are never written -/

/-- Windows 0, 1, 2 are inputs: after any number of points their arrays are as the call found them. -/
theorem arrAt1_in (c : Dev nD) (w : Fin cfg1.W) (hw : w.val < 3) (n : Nat) : (dat1 V c).arrAt w n = V c (Pipeline.arrRef spec1 w) := by
  have hin : (cfg1.win w).isOut = false := by
    match w, hw with
    | ⟨0, _⟩, _ => rfl
    | ⟨1, _⟩, _ => rfl
    | ⟨2, _⟩, _ => rfl
  rw [(dat1 V c).arrAt_in w hin n]
  exact A_eq1 V c w

end Cert.KernelIdeal.Hand

end
-- ==== Proof.RedDefI.lean ====
/-
  The reduction region (the first kernel launch): what its input window's block is at a grid point, and the two
  running sums the kernel keeps in its scratch cells. The grid has 8 points; point t reads rows 512 t .. 512 t + 511
  of the 4096 x 4096 array. Before any point the two cells hold zero (the kernel stores zero at point 0, then adds);
  after point n - 1 they hold the sum, and the sum of squares, of the first n blocks, folded block by block.
-/
import proofs.«136790_j4312147165694_2_alg».proof.Proof.Gen.KernelIdeal.Launch
import proofs.«136790_j4312147165694_2_alg».proof.Proof.Gen.KernelIdeal.Skeleton
import proofs.«136790_j4312147165694_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- the buffer contents when the region is entered, per core: the parameter everything here is stated at
variable (V : (c : Dev nD) → (b : Ref sig .tc) → Buf (Elt F) ((c : Thread nD τ).loc b))

/-- Window `w`'s block at grid point `t` of the reduction region, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum and the running sum of squares after the first `n` grid points: zero and zero before any point,
    then each point adds its block's sum (its block's sum of squares) to what the cell held. -/
def acc0 (c : Dev nD) : Nat → Vec F S1x1 .f32 × Vec F S1x1 .f32
  | 0 => (k0_pay1, k0_pay2)
  | n + 1 =>
    if h : n < cfg0.N then
      (k0_pay4 (iblk0 V c 0 ⟨n, h⟩) (acc0 c n).1, k0_pay5 (iblk0 V c 0 ⟨n, h⟩) (acc0 c n).2)
    else acc0 c n

theorem acc0_zero (c : Dev nD) : acc0 V c 0 = (k0_pay1, k0_pay2) := rfl

theorem acc0_succ (c : Dev nD) (n : Nat) (h : n < cfg0.N) :
    acc0 V c (n + 1) = (k0_pay4 (iblk0 V c 0 ⟨n, h⟩) (acc0 V c n).1, k0_pay5 (iblk0 V c 0 ⟨n, h⟩) (acc0 V c n).2) := by
  rw [acc0, dif_pos h]

/-- The mean the last point stores: the running sum over all 8 blocks divided by the count. -/
def mean0 (c : Dev nD) : Vec F S1x1 .f32 := k0_pay6 (acc0 V c 8).1
/-- The deviation the last point stores: the larger of the root of (mean of squares minus squared mean) and the floor. -/
def std0 (c : Dev nD) : Vec F S1x1 .f32 := k0_pay7 (acc0 V c 8).1 (acc0 V c 8).2

end Cert.KernelIdeal.Hand

end
-- ==== Proof.ReduceI.lean ====
/-
  The reduction region (the first kernel launch) on one core, as the pipeline's rule sees it.

  The launch walks 8 grid points; point t brings rows 512 t .. 512 t + 511 of the 4096 x 4096 array into a staging
  buffer and runs the body on it. The body keeps two one-by-one cells of its own between the points: at point 0 it
  stores zero into both, at every point it adds the block's sum to the first and the block's sum of squares to the
  second, and at point 7 it reads both back and stores the mean (the first cell over the count) and the deviation (the
  larger of the root of (second cell over the count, less the squared mean) and the floor) into the two one-by-one
  output buffers, which the pipeline writes back to their arrays after that point and at no other.

  So the invariant between points says what the two cells hold: before point n > 0, the running sum and the running sum
  of squares of the first n blocks, folded block by block from zero. Before point 0 it says nothing of them, because the
  body overwrites them with zero there before it reads them. The output buffers are not the body's business before the last
  point: it is handed them and hands them back as they were. After the region the input array is as it was, and each output
  array, being one block written once, holds what point 7 stored: the mean and the deviation of all 8 blocks.
-/
import proofs.«136790_j4312147165694_2_alg».proof.Proof.Gen.KernelIdeal.Launch
import proofs.«136790_j4312147165694_2_alg».proof.Proof.Gen.KernelIdeal.Skeleton
import proofs.«136790_j4312147165694_2_alg».proof.Proof.Gen.KernelIdeal.Points
import proofs.«136790_j4312147165694_2_alg».proof.Proof.RedDefI
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ
-- the buffer contents when the region is entered, per core: the parameter everything is stated at
variable (V : (c : Dev nD) → (b : Ref sig .tc) → Buf (Elt F) ((c : Thread nD τ).loc b))

/-! ## Loads and stores of a whole buffer -/

/-- The zero offsets of a load or a store of a whole rank-two buffer, however they are spelt. -/
theorem hz2 : (![0, 0] : Fin 2 → Nat) = fun _ => 0 := funext fun a => by fin_cases a <;> rfl

section Whole

variable {κ : Kind} {sp : Space} {S : Shape} {e : EltTy}

/-- A store over a whole buffer, made last, leaves its payload there, whatever was stored before and whatever
    the buffer held. -/
theorem read_store_whole (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon v f _ (fun y => ⟨⟨Rect.unit off S.size inb, w⟩, List.mem_cons_self .., View.mem_set_unit_zero h inb y⟩),
    View.canon_cons_unit_zero h]

/-- A load of a whole buffer held at contents `x` reads `x`. -/
theorem load_whole (m : Memref sig κ sp S e) (hm : m.IsWhole) {off : Fin S.rank → Nat} (h : off = fun _ => 0)
    (inb : ∀ a, off a + S.size a ≤ S.size a) (x : S.Idx → Elt F e) :
    View.readAt (Elt F) m.view (Rect.unit off S.size inb).toLoadRect (hm.unread x) = x := by
  rw [View.readAt_eq_ld, hm.read_unread, View.ld_unit_zero h]

end Whole

/-! ## The kernel body on any whole buffers, in its three control cases

The body branches twice on the grid coordinate: "this is the first point" (then both cells are zeroed before anything
else) and "this is the last point" (then the mean and the deviation are computed from the cells and stored). Between
the two it loads the block, and adds the block's sum to the first cell and the block's sum of squares to the second. -/

/-- The first branch's condition over the grid coordinate: "this is the first point". -/
abbrev cond0_1 (i : grid0.Coords) : Prop := (Scalar.cmpi .ne (Scalar.extui (Scalar.cmpi .eq (BitVec.ofNat 32 (i 0).val) 0#32)) 0#32) = 1#1

/-- At a point strictly inside the grid (neither branch taken) each cell, holding `a` (`b`), ends holding `a` plus the
    block's sum (`b` plus the block's sum of squares); the block and the two output buffers are left as found. -/
theorem run0_mid (c : Dev nD) (i : grid0.Coords)
    (arg1 : Memref sig .tc .vmem S512x4096 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc1 : ¬cond0_1 i) (hc2 : ¬k0_cond2 i = 1#1)
    (x0 : Vec F S512x4096 .f32) (xi1 xi2 a b : Vec F S1x1 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare a ∗ owns (c : Thread nD τ) arg5 fullShare b
        ∗ (iprop(owns (c : Thread nD τ) arg1 fullShare x0 ∗ owns (c : Thread nD τ) arg2 fullShare (xi1) ∗ owns (c : Thread nD τ) arg3 fullShare (xi2)
            ∗ owns (c : Thread nD τ) arg4 fullShare (k0_pay4 x0 a) ∗ owns (c : Thread nD τ) arg5 fullShare (k0_pay5 x0 b)) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [read_store_whole _ _ hz2, load_whole arg1 harg1 hz2, load_whole arg4 harg4 hz2]
  · iexists _; isplitr
    swap; · iexact H5
    ipureintro
    rw [read_store_whole _ _ hz2, load_whole arg1 harg1 hz2, load_whole arg5 harg5 hz2]

/-- At the first point the cells, whatever they held, are zeroed and then added to: they end holding the sum and the sum of
    squares of the first block, each added to zero. -/
theorem run0_first (c : Dev nD) (i : grid0.Coords)
    (arg1 : Memref sig .tc .vmem S512x4096 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc1 : cond0_1 i) (hc2 : ¬k0_cond2 i = 1#1)
    (x0 : Vec F S512x4096 .f32) (xi1 xi2 a b : Vec F S1x1 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare a ∗ owns (c : Thread nD τ) arg5 fullShare b
        ∗ (iprop(owns (c : Thread nD τ) arg1 fullShare x0 ∗ owns (c : Thread nD τ) arg2 fullShare (xi1) ∗ owns (c : Thread nD τ) arg3 fullShare (xi2)
            ∗ owns (c : Thread nD τ) arg4 fullShare (k0_pay4 x0 k0_pay1) ∗ owns (c : Thread nD τ) arg5 fullShare (k0_pay5 x0 k0_pay2)) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [read_store_whole _ _ hz2, load_whole arg1 harg1 hz2, View.readCov_unit_zero _ hz2]
  · iexists _; isplitr
    swap; · iexact H5
    ipureintro
    sl_unfold_run_names
    rw [read_store_whole _ _ hz2, load_whole arg1 harg1 hz2, View.readCov_unit_zero _ hz2]

/-- At the last point the cells are added to as at any other, and then read back: the mean's buffer ends holding the first
    cell divided by the count, the deviation's the root formed from both cells. -/
theorem run0_last (c : Dev nD) (i : grid0.Coords)
    (arg1 : Memref sig .tc .vmem S512x4096 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc1 : ¬cond0_1 i) (hc2 : k0_cond2 i = 1#1)
    (x0 : Vec F S512x4096 .f32) (xi1 xi2 a b : Vec F S1x1 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare a ∗ owns (c : Thread nD τ) arg5 fullShare b
        ∗ (iprop(owns (c : Thread nD τ) arg1 fullShare x0 ∗ owns (c : Thread nD τ) arg2 fullShare (k0_pay6 (k0_pay4 x0 a)) ∗ owns (c : Thread nD τ) arg3 fullShare (k0_pay7 (k0_pay4 x0 a) (k0_pay5 x0 b))
            ∗ owns (c : Thread nD τ) arg4 fullShare (k0_pay4 x0 a) ∗ owns (c : Thread nD τ) arg5 fullShare (k0_pay5 x0 b)) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H1]
  · iexists _; isplitr; · ipureintro; exact harg1.read_unread _
    iexact H1
  isplitl [H2]
  · iexists _; isplitr
    swap; · iexact H2
    ipureintro
    sl_unfold_run_names
    rw [read_store_whole _ _ hz2, View.readCov_unit_zero _ hz2, load_whole arg1 harg1 hz2, load_whole arg4 harg4 hz2]
  isplitl [H3]
  · iexists _; isplitr
    swap; · iexact H3
    ipureintro
    sl_unfold_run_names
    rw [read_store_whole _ _ hz2, View.readCov_unit_zero _ hz2, View.readCov_unit_zero _ hz2, load_whole arg1 harg1 hz2, load_whole arg4 harg4 hz2, load_whole arg5 harg5 hz2]
  isplitl [H4]
  · iexists _; isplitr
    swap; · iexact H4
    ipureintro
    sl_unfold_run_names
    rw [read_store_whole _ _ hz2, load_whole arg1 harg1 hz2, load_whole arg4 harg4 hz2]
  · iexists _; isplitr
    swap; · iexact H5
    ipureintro
    sl_unfold_run_names
    rw [read_store_whole _ _ hz2, load_whole arg1 harg1 hz2, load_whole arg5 harg5 hz2]

/-! ## Which case a point is in, and where the output windows are idle -/

/-- The first branch is taken at point 0 only. -/
theorem hcond0_1 : ∀ t : Fin cfg0.N, cond0_1 (grid0.coords t) ↔ t.val = 0 :=
  (by decide +kernel : ∀ t : Fin grid0.N, cond0_1 (grid0.coords t) ↔ t.val = 0)
/-- The second branch is taken at point 7 only. -/
theorem hcond0_2 : ∀ t : Fin cfg0.N, k0_cond2 (grid0.coords t) = 1#1 ↔ t.val = 7 :=
  (by decide +kernel : ∀ t : Fin grid0.N, k0_cond2 (grid0.coords t) = 1#1 ↔ t.val = 7)
/-- The input window is never idle. -/
theorem live0_0 : ∀ t : Fin cfg0.N, cfg0.idle 0 (grid0.coords t) = false := by decide +kernel
/-- Before the last point the two output windows are idle and are not written back; at the last point they are live. -/
theorem idle0_1 : ∀ t : Fin cfg0.N, t.val ≠ 7 → cfg0.idle 1 (grid0.coords t) = true := by decide +kernel
theorem idle0_2 : ∀ t : Fin cfg0.N, t.val ≠ 7 → cfg0.idle 2 (grid0.coords t) = true := by decide +kernel
theorem noflush0_1 : ∀ t : Fin cfg0.N, t.val ≠ 7 → (cfg0.win 1).flush t = false := by decide +kernel
theorem noflush0_2 : ∀ t : Fin cfg0.N, t.val ≠ 7 → (cfg0.win 2).flush t = false := by decide +kernel
theorem live0_1 : ∀ t : Fin cfg0.N, t.val = 7 → cfg0.idle 1 (grid0.coords t) = false := by decide +kernel
theorem live0_2 : ∀ t : Fin cfg0.N, t.val = 7 → cfg0.idle 2 (grid0.coords t) = false := by decide +kernel

/-! ## The proof data: the invariant follows the two cells from point to point -/

/-- The two scratch cells, as whole buffers. -/
abbrev cell0 : Memref sig .tc .vmem S1x1 .f32 := Memref.whole cc0_scratch0
abbrev cell1 : Memref sig .tc .vmem S1x1 .f32 := Memref.whole cc0_scratch1

/-- The core's other scoped buffers (the second launch's staging buffers), each at some contents: the body does not
    touch them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant before the point at position `n` (after the first `n` points): the two cells hold the running sum and the
    running sum of squares of the first `n` blocks — before the first point, anything, since the body zeroes them there
    before it reads them —; the other scoped buffers and the random-number generator's register are held at whatever they are. -/
def Phi0 (c : Dev nD) (n : ℕ) : sProp 𝕄 :=
  iprop((∃ a b : Vec F S1x1 .f32, ⌜n ≠ 0 → (a, b) = acc0 V c n⌝ ∗ owns (c : Thread nD τ) cell0 fullShare a ∗ owns (c : Thread nD τ) cell1 fullShare b)
    ∗ others0 c ∗ (∃ r, prngReg c r))

/-- The region's proof data on core `c`: the arrays as the region finds them; after the body the input's buffer still at
    its block, the mean's and the deviation's buffers (consulted at the last point only, where they are stored) at the mean
    and the deviation of all 8 blocks; the invariant that follows the cells; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => mean0 V c
    | ⟨2, _⟩ => std0 V c
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = mean0 V c := by dsimp only [dat0]
theorem after0_2 (c : Dev nD) (t : Fin cfg0.N) : (dat0 V c).after 2 t = std0 V c := by dsimp only [dat0]

/-- The input's current staging buffer holds the point's block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The cells after point `t`, from what they held before it. -/
theorem acc0_step (c : Dev nD) (t : Fin cfg0.N) :
    acc0 V c (t.val + 1) = (k0_pay4 (iblk0 V c 0 t) (acc0 V c t.val).1, k0_pay5 (iblk0 V c 0 t) (acc0 V c t.val).2) :=
  acc0_succ V c t.val t.isLt

set_option maxHeartbeats 1600000 in
/-- The body at any point. The input's buffer holds the point's block; the point's position says which of the three cases
    it is in. At the first point the cells are zeroed and added to, so they end at the running sums after one block whatever
    they held; at a later point the invariant says what they hold, and they end at the running sums after one block more; at
    the last point the outputs' buffers also receive the mean and the deviation computed from the running sums after all 8
    blocks. At every other point the outputs' buffers are handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) from rfl, show (dat0 V c).Φ t.castSucc = Phi0 V c t.val from rfl]
  rw [show (dat0 V c).leavesExact 0 t = owns (c : Thread nD τ) (st0_0 t) fullShare ((dat0 V c).after 0 t) from by
    unfold Dat.leavesExact; rw [live0_0 t], after0_0]
  have hN : t.val < 8 := lt_of_lt_of_eq t.isLt (show cfg0.N = 8 from N_0)
  unfold Phi0
  by_cases h7 : t.val = 7
  · -- the last point
    have h0 : t.val ≠ 0 := by omega
    have hc1 : ¬cond0_1 (grid0.coords t) := fun h => h0 ((hcond0_1 t).mp h)
    have hc2 : k0_cond2 (grid0.coords t) = 1#1 := (hcond0_2 t).mpr h7
    rw [show (dat0 V c).leavesExact 1 t = owns (c : Thread nD τ) (st0_1 t) fullShare ((dat0 V c).after 1 t) from by
      unfold Dat.leavesExact; rw [live0_1 t h7], after0_1]
    rw [show (dat0 V c).leavesExact 2 t = owns (c : Thread nD τ) (st0_2 t) fullShare ((dat0 V c).after 2 t) from by
      unfold Dat.leavesExact; rw [live0_2 t h7], after0_2]
    iintro ⟨⟨⟨%a, %b, %hab, HS0, HS1⟩, Hoth, Hg⟩, Ho, ⟨%d0, H0⟩, ⟨%d1, H1⟩, ⟨%d2, H2⟩⟩
    have e := hab h0
    have ea : a = (acc0 V c t.val).1 := congrArg Prod.fst e
    have eb : b = (acc0 V c t.val).2 := congrArg Prod.snd e
    have e8 : acc0 V c 8 = (k0_pay4 (iblk0 V c 0 t) a, k0_pay5 (iblk0 V c 0 t) b) := by
      rw [ea, eb, ← acc0_step V c t, h7]
    iapply (run0_last c (grid0.coords t) _ _ _ _ _ _ _ _ _ _ hc1 hc2 (iblk0 V c 0 t) _ _ a b Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hoth Hg]
    · isplitl [HS0 HS1]
      · iexists (k0_pay4 (iblk0 V c 0 t) a), (k0_pay5 (iblk0 V c 0 t) b); isplitr
        · ipureintro; intro _; rw [ea, eb, ← acc0_step V c t]
        isplitl [HS0]; · iexact HS0
        iexact HS1
      isplitl [Hoth]; · iexact Hoth
      iexact Hg
    isplitl [Ho]; · iexact Ho
    isplitl [H0]; · iexact H0
    isplitl [H1]
    · unfold mean0; rw [e8]; iexact H1
    · unfold std0; rw [e8]; iexact H2
  · rw [Dat.leavesExact_idle (dat0 V c) 1 t (idle0_1 t h7) (noflush0_1 t h7)]
    rw [Dat.leavesExact_idle (dat0 V c) 2 t (idle0_2 t h7) (noflush0_2 t h7)]
    have hc2 : ¬k0_cond2 (grid0.coords t) = 1#1 := fun h => h7 ((hcond0_2 t).mp h)
    by_cases h0 : t.val = 0
    · -- the first point
      have hc1 : cond0_1 (grid0.coords t) := (hcond0_1 t).mpr h0
      have ez : acc0 V c t.val = (k0_pay1, k0_pay2) := by rw [h0]; rfl
      iintro ⟨⟨⟨%a, %b, %hab, HS0, HS1⟩, Hoth, Hg⟩, Ho, ⟨%d0, H0⟩, ⟨%d1, H1⟩, ⟨%d2, H2⟩⟩
      iapply (run0_first c (grid0.coords t) _ _ _ _ _ _ _ _ _ _ hc1 hc2 (iblk0 V c 0 t) _ _ a b Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hoth Hg]
      · isplitl [HS0 HS1]
        · iexists (k0_pay4 (iblk0 V c 0 t) k0_pay1), (k0_pay5 (iblk0 V c 0 t) k0_pay2); isplitr
          · ipureintro; intro _; rw [acc0_step V c t, ez]
          isplitl [HS0]; · iexact HS0
          iexact HS1
        isplitl [Hoth]; · iexact Hoth
        iexact Hg
      isplitl [Ho]; · iexact Ho
      isplitl [H0]; · iexact H0
      isplitl [H1]; · iexists _; iexact H1
      iexists _; iexact H2
    · -- a point strictly inside
      have hc1 : ¬cond0_1 (grid0.coords t) := fun h => h0 ((hcond0_1 t).mp h)
      iintro ⟨⟨⟨%a, %b, %hab, HS0, HS1⟩, Hoth, Hg⟩, Ho, ⟨%d0, H0⟩, ⟨%d1, H1⟩, ⟨%d2, H2⟩⟩
      have e := hab h0
      have ea : a = (acc0 V c t.val).1 := congrArg Prod.fst e
      have eb : b = (acc0 V c t.val).2 := congrArg Prod.snd e
      iapply (run0_mid c (grid0.coords t) _ _ _ _ _ _ _ _ _ _ hc1 hc2 (iblk0 V c 0 t) _ _ a b Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hoth Hg]
      · isplitl [HS0 HS1]
        · iexists (k0_pay4 (iblk0 V c 0 t) a), (k0_pay5 (iblk0 V c 0 t) b); isplitr
          · ipureintro; intro _; rw [ea, eb, ← acc0_step V c t]
          isplitl [HS0]; · iexact HS0
          iexact HS1
        isplitl [Hoth]; · iexact Hoth
        iexact Hg
      isplitl [Ho]; · iexact Ho
      isplitl [H0]; · iexact H0
      isplitl [H1]; · iexists _; iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the region, and the arrays after it -/

/-- What the launch hands the region is the invariant before the first point: the cells may hold anything there. -/
theorem hin0 (c : Dev nD) : (iprop((∃ r, prngReg c r) ∗ Pipeline.scopedRest (Ix := Unit) (Name := ℕ) (U := UR sig nD τ) (Lvl := ℕ) (Val := Elt F) spec0 c) : sProp 𝕄) ⊢ (dat0 V c).Φ 0 := by
  rw [show (dat0 V c).Φ 0 = Phi0 V c 0 from rfl, scopedRest0_eq]
  unfold Phi0 others0
  simp only [cell0, cell1, owns_whole]
  iintro ⟨Hg, ⟨%f0, H0⟩, ⟨%f1, H1⟩, Hoth⟩
  isplitl [H0 H1]
  · iexists f0, f1; isplitr
    · ipureintro; intro h; exact absurd rfl h
    isplitl [H0]; · iexact H0
    iexact H1
  isplitl [Hoth]; · iexact Hoth
  iexact Hg

/-- After the last point the invariant gives the launch back what it lent: what the cells hold is forgotten. -/
theorem hout0 (c : Dev nD) : (dat0 V c).Φ (Fin.last cfg0.N) ⊢ (iprop((∃ r, prngReg c r) ∗ Pipeline.scopedRest (Ix := Unit) (Name := ℕ) (U := UR sig nD τ) (Lvl := ℕ) (Val := Elt F) spec0 c) : sProp 𝕄) := by
  rw [show (dat0 V c).Φ (Fin.last cfg0.N) = Phi0 V c (Fin.last cfg0.N).val from rfl, scopedRest0_eq]
  unfold Phi0 others0
  simp only [cell0, cell1, owns_whole]
  iintro ⟨⟨%a, %b, -, H0, H1⟩, Hoth, Hg⟩
  isplitl [Hg]; · iexact Hg
  isplitl [H0]; · iexists a; iexact H0
  isplitl [H1]; · iexists b; iexact H1
  iexact Hoth

/-- The input array is never written. -/
theorem arrAt0_in (c : Dev nD) (n : Nat) : (dat0 V c).arrAt 0 n = V c (Pipeline.arrRef spec0 0) :=
  ((dat0 V c).arrAt_in 0 rfl n).trans (A_eq0 V c 0)

/-- A one-by-one array has one index. -/
instance subsingleton_S1x1 : Subsingleton S1x1.Idx :=
  ⟨fun a b => funext fun d => by fin_cases d <;> exact Subsingleton.elim (α := Fin 1) _ _⟩

/-- The mean's array after the region: written back once, at the last point, whole. -/
theorem final0_1 (c : Dev nD) (u : S1x1.Idx) : ((dat0 V c).arrAt 1 cfg0.N : S1x1.Idx → F .f32) u = mean0 V c u := by
  have h : (dat0 V c).arrAt 1 cfg0.N = mean0 V c :=
    (dat0 V c).arrAt_eq_of_cover 1 (mean0 V c)
      (fun t _ => by
        show (cfg0.win 1).cut (grid0.coords t) ((dat0 V c).after 1 t) = _
        rw [after0_1]
        funext y
        rw [View.read_apply]
        exact congrArg (mean0 V c) (Subsingleton.elim (α := S1x1.Idx) _ _))
      (fun i => ⟨t0_7, (flush0_1 t0_7).mpr rfl, by
        have e : ((cfg0.win 1).blk t0_7).view.emb i = i := Subsingleton.elim (α := S1x1.Idx) _ _
        rw [← e]; exact View.emb_mem_set _ _⟩)
  exact congrFun h u

/-- The deviation's array after the region: written back once, at the last point, whole. -/
theorem final0_2 (c : Dev nD) (u : S1x1.Idx) : ((dat0 V c).arrAt 2 cfg0.N : S1x1.Idx → F .f32) u = std0 V c u := by
  have h : (dat0 V c).arrAt 2 cfg0.N = std0 V c :=
    (dat0 V c).arrAt_eq_of_cover 2 (std0 V c)
      (fun t _ => by
        show (cfg0.win 2).cut (grid0.coords t) ((dat0 V c).after 2 t) = _
        rw [after0_2]
        funext y
        rw [View.read_apply]
        exact congrArg (std0 V c) (Subsingleton.elim (α := S1x1.Idx) _ _))
      (fun i => ⟨t0_7, (flush0_2 t0_7).mpr rfl, by
        have e : ((cfg0.win 2).blk t0_7).view.emb i = i := Subsingleton.elim (α := S1x1.Idx) _ _
        rw [← e]; exact View.emb_mem_set _ _⟩)
  exact congrFun h u

end Cert.KernelIdeal.Hand

end
-- ==== Proof.RegsI.lean ====
/-
  The two regions' records for the run: the reduction region's proof data with the invariant that tracks its two
  running sums, and the normalization region's, whose invariant is just "the scoped buffers no window stages hold
  something, the generator register is in some state". With them the program's frame: it runs to the end, nothing
  faults, and the two argument arrays end as launched.
-/
import proofs.«136790_j4312147165694_2_alg».proof.Proof.RunPostI
import proofs.«136790_j4312147165694_2_alg».proof.Proof.NormI
import proofs.«136790_j4312147165694_2_alg».proof.Proof.ReduceI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reduction region's record. -/
def regs0 (V : (c : Dev nD) → (b : Ref sig .tc) → Buf (Elt F) ((c : Thread nD τ).loc b)) (c : Dev nD) : Reg0 (F := F) V c where
  dat := dat0 V c
  hA := A_eq0 V c
  hq _ := rfl
  howed _ := rfl
  hrec _ := rfl
  hbody := body_obligation0 V c
  hin := hin0 V c
  hout := hout0 V c

/-- The normalization region's record: its invariant is the two conjuncts in the other order. -/
def regs1 (V : (c : Dev nD) → (b : Ref sig .tc) → Buf (Elt F) ((c : Thread nD τ).loc b)) (c : Dev nD) : Reg1 (F := F) V c where
  dat := dat1 V c
  hA := A_eq1 V c
  hq _ := rfl
  howed _ := rfl
  hrec _ := rfl
  hbody := body_obligation1 V c
  hin := by
    rw [show (dat1 V c).Φ 0 = Pipeline.ΦA spec1 c from rfl]; unfold Pipeline.ΦA
    iintro ⟨Hp, Hr⟩
    isplitl [Hr]; · iexact Hr
    iexact Hp
  hout := by
    rw [show (dat1 V c).Φ (Fin.last cfg1.N) = Pipeline.ΦA spec1 c from rfl]; unfold Pipeline.ΦA
    iintro ⟨Hr, Hp⟩
    isplitl [Hp]; · iexact Hp
    iexact Hr

/-- THE FRAME of the program, for any reading of the floats. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of (regs0 (F := F)) (regs1 (F := F)) m ρ

end Cert.KernelIdeal.Hand

end
-- ==== Proof.RunB.lean ====
/-
  The whole program as a run, for any reading F of the floats: three stretches of host operations (the index column
  laid out as a vector; the table looked up; the looked-up column laid out as the 4096 x 4096 array), the reduction
  region, the normalization region, and a last host operation laying the result out as a column again.

  Between two items a core holds every unscoped buffer whole, at contents that are a function of the launch memory:
  each host stretch applies its operations to what the item before it left; a kernel region leaves every buffer as it
  found it except its windows' arrays, which end at what its write-backs leave. A region's own proof (what the body does
  at a grid point, and the invariant it keeps between points) enters here only through the small record below, so the
  run is stated once for any two such records. Every weakly fair execution terminates, nothing faults, and every
  unscoped buffer ends at the last boundary's contents; in particular the two argument arrays end as launched.
-/
import proofs.«136790_j4312147165694_2_alg».proof.Proof.Gen.Kernel.Launch
import proofs.«136790_j4312147165694_2_alg».proof.Proof.Gen.Kernel.Skeleton
import proofs.«136790_j4312147165694_2_alg».proof.Proof.Gen.Kernel.Points
import proofs.«136790_j4312147165694_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What a region's own proof supplies -/

/-- The reduction region on core `c`, entered at contents `V`: its proof data reading its arrays off `V`, holding
    them outright and owing nothing; the body's obligation at every grid point; and the invariant entered from, and
    returned to, "the scoped buffers no window stages at some contents, the generator register at some state". -/
structure Reg0 (V : (c : Dev nD) → (b : Ref sig .tc) → Buf (Elt F) ((c : Thread nD τ).loc b)) (c : Dev nD) where
  dat : Dat τ (Elt F) Unit ℕ (UR sig nD τ) ℕ cfg0 c
  hA : ∀ w, dat.A w = V c (Pipeline.arrRef spec0 w)
  hq : ∀ w, dat.q w = fullShare
  howed : ∀ t, dat.owed t = 0
  hrec : ∀ t, dat.recorded t = Set.univ
  hbody : BodyObligation dat (defs₀ (F := F)) Variants.none () Set.univ
  hin : (iprop((∃ r, prngReg c r) ∗ Pipeline.scopedRest (Ix := Unit) (Name := ℕ) (U := UR sig nD τ) (Lvl := ℕ) (Val := Elt F) spec0 c) : sProp 𝕄) ⊢ dat.Φ 0
  hout : dat.Φ (Fin.last cfg0.N) ⊢ (iprop((∃ r, prngReg c r) ∗ Pipeline.scopedRest (Ix := Unit) (Name := ℕ) (U := UR sig nD τ) (Lvl := ℕ) (Val := Elt F) spec0 c) : sProp 𝕄)

/-- The same for the normalization region. -/
structure Reg1 (V : (c : Dev nD) → (b : Ref sig .tc) → Buf (Elt F) ((c : Thread nD τ).loc b)) (c : Dev nD) where
  dat : Dat τ (Elt F) Unit ℕ (UR sig nD τ) ℕ cfg1 c
  hA : ∀ w, dat.A w = V c (Pipeline.arrRef spec1 w)
  hq : ∀ w, dat.q w = fullShare
  howed : ∀ t, dat.owed t = 0
  hrec : ∀ t, dat.recorded t = Set.univ
  hbody : BodyObligation dat (defs₀ (F := F)) Variants.none () Set.univ
  hin : (iprop((∃ r, prngReg c r) ∗ Pipeline.scopedRest (Ix := Unit) (Name := ℕ) (U := UR sig nD τ) (Lvl := ℕ) (Val := Elt F) spec1 c) : sProp 𝕄) ⊢ dat.Φ 0
  hout : dat.Φ (Fin.last cfg1.N) ⊢ (iprop((∃ r, prngReg c r) ∗ Pipeline.scopedRest (Ix := Unit) (Name := ℕ) (U := UR sig nD τ) (Lvl := ℕ) (Val := Elt F) spec1 c) : sProp 𝕄)

variable (R0 : ∀ (V : (c : Dev nD) → (b : Ref sig .tc) → Buf (Elt F) ((c : Thread nD τ).loc b)) (c : Dev nD), Reg0 (F := F) V c)
variable (R1 : ∀ (V : (c : Dev nD) → (b : Ref sig .tc) → Buf (Elt F) ((c : Thread nD τ).loc b)) (c : Dev nD), Reg1 (F := F) V c)
variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the index column is laid out as a vector. -/
abbrev W1 : Dev nD → Valuation τ sig (Elt F) := fun c => StableHlo.after hostOps0 (W0 m ρ c)
/-- After the table is looked up. -/
abbrev W2 : Dev nD → Valuation τ sig (Elt F) := fun c => StableHlo.after hostOps0_1 (W1 m ρ c)
/-- After the looked-up column is laid out as the square array: the reduction region's entry. -/
abbrev W3 : Dev nD → Valuation τ sig (Elt F) := fun c => StableHlo.after hostOps0_2 (W2 m ρ c)
/-- The same read at the core's references. -/
abbrev V3 : (c : Dev nD) → (b : Ref sig .tc) → Buf (Elt F) ((c : Thread nD τ).loc b) := fun c b => W3 m ρ c b
/-- After the reduction region: its arrays at what its write-backs leave, every other buffer as entered. -/
def W4 (c : Dev nD) : Valuation τ sig (Elt F) :=
  Pipeline.withArrays spec0 c (W3 m ρ c) fun w => (R0 (V3 m ρ) c).dat.arrAt w cfg0.N
abbrev V4 : (c : Dev nD) → (b : Ref sig .tc) → Buf (Elt F) ((c : Thread nD τ).loc b) := fun c b => W4 R0 m ρ c b
/-- After the normalization region. -/
def W5 (c : Dev nD) : Valuation τ sig (Elt F) :=
  Pipeline.withArrays spec1 c (W4 R0 m ρ c) fun w => (R1 (V4 R0 m ρ) c).dat.arrAt w cfg1.N
abbrev V5 : (c : Dev nD) → (b : Ref sig .tc) → Buf (Elt F) ((c : Thread nD τ).loc b) := fun c b => W5 R0 R1 m ρ c b
/-- After the result is laid out as a column: the end. -/
abbrev W6 : Dev nD → Valuation τ sig (Elt F) := fun c => StableHlo.after hostOps2 (W5 R0 R1 m ρ c)

theorem W4_arr (c : Dev nD) (w : Fin cfg0.W) :
    W4 R0 m ρ c (Proc.devRef .tc (Pipeline.arrRef spec0 w)) = (R0 (V3 m ρ) c).dat.arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 R0 m ρ c (Proc.devRef .tc b) = W3 m ρ c (Proc.devRef .tc b) := by
  unfold W4; exact Pipeline.withArrays_of_ne spec0 c _ _ b hb
theorem W5_arr (c : Dev nD) (w : Fin cfg1.W) :
    W5 R0 R1 m ρ c (Proc.devRef .tc (Pipeline.arrRef spec1 w)) = (R1 (V4 R0 m ρ) c).dat.arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 R0 R1 m ρ c (Proc.devRef .tc b) = W4 R0 m ρ c (Proc.devRef .tc b) := by
  unfold W5; exact Pipeline.withArrays_of_ne spec1 c _ _ b hb

/-- At a region's exit each of its arrays holds what the pipeline leaves and every other buffer what it held at entry. -/
theorem hF0 (c : Dev nD) (w : Fin cfg0.W) : (R0 (V3 m ρ) c).dat.arrAt w cfg0.N = V4 R0 m ρ c (Pipeline.arrRef spec0 w) :=
  (W4_arr R0 m ρ c w).symm
theorem hrest0 (c : Dev nD) : ∀ b, b ∉ Finset.univ.image (Pipeline.arrRef spec0) → V4 R0 m ρ c b = V3 m ρ c b :=
  fun b hb => W4_of_ne R0 m ρ c b fun w e => hb (Finset.mem_image.mpr ⟨w, Finset.mem_univ _, e⟩)
theorem hF1 (c : Dev nD) (w : Fin cfg1.W) : (R1 (V4 R0 m ρ) c).dat.arrAt w cfg1.N = V5 R0 R1 m ρ c (Pipeline.arrRef spec1 w) :=
  (W5_arr R0 R1 m ρ c w).symm
theorem hrest1 (c : Dev nD) : ∀ b, b ∉ Finset.univ.image (Pipeline.arrRef spec1) → V5 R0 R1 m ρ c b = V4 R0 m ρ c b :=
  fun b hb => W5_of_ne R0 R1 m ρ c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => (R0 (V3 m ρ) c).dat
  | ⟨1, _⟩ => fun c => (R1 (V4 R0 m ρ) c).dat

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rd (c : Dev nD) : sProp 𝕄 := iprop((∃ r, prngReg c r) ∗ ∃ W, owes (c : Thread nD τ) (0 : CellTallies nD τ sig Unit) W)

/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The reduction region over the thread state: entered from every unscoped buffer at `W3`, left at `W4`. -/
def reg0 : Pipeline.RegionSeg (pcfgs (F := F)) adm (pdats R0 R1 m ρ) () defs₀ 𝒱₀ L lv 0 where
  win := launch0.win.to₀
  block_pos := launch0.block_pos
  stage_whole := launch0.stage_whole
  K := PEmpty
  osem k := k.elim
  ho := Pipeline.OwnSemFacts.none _
  hbody c := ((R0 (V3 m ρ) c).hbody).loose
  hwaits := Pipeline.hwaits_of_owed_zero _ _ _ _ L lv 0 fun c t => (R0 (V3 m ρ) c).howed t
  pre c := iprop(StableHlo.held (c : Thread nD τ) (Pipeline.ucRefs τ sig) (W3 m ρ c) ∗ Rd c)
  post c := iprop(StableHlo.held (c : Thread nD τ) (Pipeline.ucRefs τ sig) (W4 R0 m ρ c) ∗ Rd c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats R0 R1 m ρ) launch0.win launch0.arr_whole c
      ((pdats R0 R1 m ρ 0 c).share_full fun w => (R0 (V3 m ρ) c).hq w) (V3 m ρ c) fun w => (R0 (V3 m ρ) c).hA w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats R0 R1 m ρ 0 c).recorded 0 = Set.univ from (R0 (V3 m ρ) c).hrec 0]; trivial)
      rw [show (pdats R0 R1 m ρ 0 c).owed 0 = 0 from (R0 (V3 m ρ) c).howed 0]
      iexact HO
    isplitl [Hp]; · iexact Hp
    iexact Hrest
  hin c := by
    have h := (R0 (V3 m ρ) c).hin
    rw [show (pdats R0 R1 m ρ 0 c).Φ 0 = (R0 (V3 m ρ) c).dat.Φ 0 from rfl]
    iintro ⟨Hp, -, Hr⟩
    iapply h
    isplitl [Hp]; · iexact Hp
    iexact Hr
  hout c := by
    rw [Pipeline.ownSems0_none]
    have h := (R0 (V3 m ρ) c).hout
    rw [show (pdats R0 R1 m ρ 0 c).Φ (Fin.last _) = (R0 (V3 m ρ) c).dat.Φ (Fin.last cfg0.N) from rfl]
    iintro HPhi
    ihave H := h $$ HPhi
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R0 R1 m ρ) ((pdats R0 R1 m ρ 0 c).share_full fun w => (R0 (V3 m ρ) c).hq w)
      (V3 m ρ c) (V4 R0 m ρ c) ((pdats R0 R1 m ρ 0 c).arrAt · cfg0.N) (hF0 R0 m ρ c) (hrest0 R0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats R0 R1 m ρ 0 c).owed (Fin.last _) = 0 from (R0 (V3 m ρ) c).howed _]
    iexact HO

set_option backward.isDefEq.respectTransparency.types false in
/-- The normalization region over the thread state: entered from every unscoped buffer at `W4`, left at `W5`. -/
def reg1 : Pipeline.RegionSeg (pcfgs (F := F)) adm (pdats R0 R1 m ρ) () defs₀ 𝒱₀ L lv 1 where
  win := launch1.win.to₀
  block_pos := launch1.block_pos
  stage_whole := launch1.stage_whole
  K := PEmpty
  osem k := k.elim
  ho := Pipeline.OwnSemFacts.none _
  hbody c := ((R1 (V4 R0 m ρ) c).hbody).loose
  hwaits := Pipeline.hwaits_of_owed_zero _ _ _ _ L lv 1 fun c t => (R1 (V4 R0 m ρ) c).howed t
  pre c := iprop(StableHlo.held (c : Thread nD τ) (Pipeline.ucRefs τ sig) (W4 R0 m ρ c) ∗ Rd c)
  post c := iprop(StableHlo.held (c : Thread nD τ) (Pipeline.ucRefs τ sig) (W5 R0 R1 m ρ c) ∗ Rd c)
  X c := iprop(∃ r, prngReg c r)
  Y c := iprop(∃ r, prngReg c r)
  Z c := Pipeline.unscopedRest (Ix := Unit) (Name := ℕ) (U := UR sig nD τ) (Lvl := ℕ) spec1 c (V4 R0 m ρ c)
  hentry c := by
    rw [Pipeline.ownSems0_none]
    have hsplit := Pipeline.arrays_of_unscopedBufs (p := 1) (pcfgs (F := F)) adm (pdats R0 R1 m ρ) launch1.win launch1.arr_whole c
      ((pdats R0 R1 m ρ 1 c).share_full fun w => (R1 (V4 R0 m ρ) c).hq w) (V4 R0 m ρ c) fun w => (R1 (V4 R0 m ρ) c).hA w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats R0 R1 m ρ 1 c).recorded 0 = Set.univ from (R1 (V4 R0 m ρ) c).hrec 0]; trivial)
      rw [show (pdats R0 R1 m ρ 1 c).owed 0 = 0 from (R1 (V4 R0 m ρ) c).howed 0]
      iexact HO
    isplitl [Hp]; · iexact Hp
    iexact Hrest
  hin c := by
    have h := (R1 (V4 R0 m ρ) c).hin
    rw [show (pdats R0 R1 m ρ 1 c).Φ 0 = (R1 (V4 R0 m ρ) c).dat.Φ 0 from rfl]
    iintro ⟨Hp, -, Hr⟩
    iapply h
    isplitl [Hp]; · iexact Hp
    iexact Hr
  hout c := by
    rw [Pipeline.ownSems0_none]
    have h := (R1 (V4 R0 m ρ) c).hout
    rw [show (pdats R0 R1 m ρ 1 c).Φ (Fin.last _) = (R1 (V4 R0 m ρ) c).dat.Φ (Fin.last cfg1.N) from rfl]
    iintro HPhi
    ihave H := h $$ HPhi
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats R0 R1 m ρ) ((pdats R0 R1 m ρ 1 c).share_full fun w => (R1 (V4 R0 m ρ) c).hq w)
      (V4 R0 m ρ c) (V5 R0 R1 m ρ c) ((pdats R0 R1 m ρ 1 c).arrAt · cfg1.N) (hF1 R0 R1 m ρ c) (hrest1 R0 R1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats R0 R1 m ρ 1 c).owed (Fin.last _) = 0 from (R1 (V4 R0 m ρ) c).howed _]
    iexact HO

/-! ## The program as its items, and the launch -/

/-- The six items in order. -/
abbrev segs : List (Pipeline.Seg (pcfgs (F := F)) adm (pdats R0 R1 m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 R0 R1 m ρ),
    .region (reg1 R0 R1 m ρ),
    .host (hseg hostOps2 hostOps2_sub hostOps2_fresh (W5 R0 R1 m ρ)) ]

/-- The last thread state without the `owes`. -/
abbrev Tₙ (c : Dev nD) : sProp 𝕄 := iprop(StableHlo.held (c : Thread nD τ) (Pipeline.ucRefs τ sig) (W6 R0 R1 m ρ c) ∗ ∃ r, prngReg c r)

set_option backward.isDefEq.respectTransparency.types false in
/-- THE RUN: every weakly fair execution terminates, nothing faults, and every unscoped buffer ends at `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 R0 R1 m ρ c b) :=
  Pipeline.θ_run_regions_kit (pcfgs (F := F)) adm (pdats R0 R1 m ρ) () cellOf_inj emb₁ defs₀ 𝒱₀ L lv m ρ main (segs R0 R1 m ρ)
    (fun c Q => by
      rewrite [main_chain c, Pipeline.Seg.run_eq_chain,
        show (segs R0 R1 m ρ).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rd c)) (Tₙ := Tₙ R0 R1 m ρ)
    (hch := ⟨fun _ => .rfl, fun _ => .rfl, fun _ => .rfl, fun _ => .rfl, fun _ => .rfl, fun _ => .rfl, fun c => by
      show (iprop(StableHlo.held (c : Thread nD τ) (Pipeline.ucRefs τ sig) (W6 R0 R1 m ρ c) ∗ Rd c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 R0 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 R0 R1 m ρ c) s')
      isplitl [Hh] <;> iassumption)
    (hQ := fun s h c => h c)

end Cert.Kernel.Hand

end
-- ==== Proof.RunPostB.lean ====
/-
  What the run leaves where the claims look: the two argument arrays, which no host operation writes and no region
  may change, end as launched; and the result column is the last region's output array laid out as a column, that
  array being what the normalization region's write-backs leave, computed from the arrays the reduction region left.
-/
import proofs.«136790_j4312147165694_2_alg».proof.Proof.RunB

set_option maxRecDepth 16384

noncomputable section

namespace Cert.Kernel.Hand

open Idealize.ShloMosaic Idealize.ShloMosaic.TcCoe Idealize.ShloMosaic.Tactic
open Idealize.SL Idealize.SL.Sem
open Idealize.ShloMosaic.Pipeline (Dat)
open Cert.Kernel Cert.Kernel.Gen

variable {F : FTy → Type} [FloatOps F]

variable (R0 : ∀ (V : (c : Dev nD) → (b : Ref sig .tc) → Buf (Elt F) ((c : Thread nD τ).loc b)) (c : Dev nD), Reg0 (F := F) V c)
variable (R1 : ∀ (V : (c : Dev nD) → (b : Ref sig .tc) → Buf (Elt F) ((c : Thread nD τ).loc b)) (c : Dev nD), Reg1 (F := F) V c)
variable (m : (ℓ : Loc nD τ sig) → Buf (Elt F) ℓ) (ρ : Dev nD → PrngReg)

/-- A buffer that is no window's array of either region and that no host operation writes ends as launched. -/
theorem W6_of_untouched (c : Dev nD) (r : Ref sig .tc) (h0 : r ∉ hostOps0_W) (h1 : r ∉ hostOps0_1_W) (h2 : r ∉ hostOps0_2_W)
    (h3 : ∀ w, Pipeline.arrRef spec0 w ≠ r) (h4 : ∀ w, Pipeline.arrRef spec1 w ≠ r) (h5 : r ∉ hostOps2_W) :
    W6 R0 R1 m ρ c (Proc.devRef .tc r) = m ((c : Thread nD τ).loc r) :=
  calc W6 R0 R1 m ρ c (Proc.devRef .tc r)
    _ = W5 R0 R1 m ρ c (Proc.devRef .tc r) := StableHlo.after_of_writes_sub hostOps2 _ hostOps2_writes h5
    _ = W4 R0 m ρ c (Proc.devRef .tc r) := W5_of_ne R0 R1 m ρ c r h4
    _ = W3 m ρ c (Proc.devRef .tc r) := W4_of_ne R0 m ρ c r h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

theorem W6_main_arg0 (c : Dev nD) : W6 R0 R1 m ρ c (Proc.devRef .tc main_arg0) = m ((c : Thread nD τ).loc main_arg0) :=
  W6_of_untouched R0 R1 m ρ c main_arg0 (by decide) (by decide) (by decide) (by decide) (by decide) (by decide)
theorem W6_main_arg1 (c : Dev nD) : W6 R0 R1 m ρ c (Proc.devRef .tc main_arg1) = m ((c : Thread nD τ).loc main_arg1) :=
  W6_of_untouched R0 R1 m ρ c main_arg1 (by decide) (by decide) (by decide) (by decide) (by decide) (by decide)

/-- The result column is the normalization region's output array laid out as a column. -/
theorem W6_main_v5 (c : Dev nD) :
    (W6 R0 R1 m ρ c (Proc.devRef .tc main_v5) : S16777216x1.Idx → F .f32)
      = shapeCast S16777216x1 ((R1 (V4 R0 m ρ) c).dat.arrAt 3 cfg1.N : S4096x4096.Idx → F .f32) shapeCasts_S4096x4096_S16777216x1 := by
  rw [← W5_arr R0 R1 m ρ c 3]
  show StableHlo.after hostOps2 (W5 R0 R1 m ρ c) (Proc.devRef .tc main_v5) = _
  after_results
  rfl

include R0 R1 in
/-- The frame: the run, read at the two argument arrays. -/
theorem frame_of : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W6_main_arg0 R0 R1 m ρ c),
     (h c _ (mem_uc main_arg1 (by decide))).trans (W6_main_arg1 R0 R1 m ρ c)⟩) (run_all R0 R1 m ρ)

/-- The run read at the result and the two arguments. -/
theorem run_result : θ_run defs (onTc (τ := τ) (main (F := F))) ⟨m, fun _ => 0, ρ⟩ (fun r => ∀ c : Dev nD,
      r.2.mem ((c.tc : Thread nD τ).loc main_v5) = W6 R0 R1 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v5 (by decide)),
     (h c _ (mem_uc main_arg0 (by decide))).trans (W6_main_arg0 R0 R1 m ρ c),
     (h c _ (mem_uc main_arg1 (by decide))).trans (W6_main_arg1 R0 R1 m ρ c)⟩) (run_all R0 R1 m ρ)

/-! ### What the regions find -/

/-- The looked-up column and the square array the regions read, as the host stretches leave them. -/
theorem V3_main_v2 (c : Dev nD) :
    (V3 m ρ c main_v2 : S4096x4096.Idx → F .f32)
      = shapeCast S4096x4096 (W2 m ρ c (Proc.devRef .tc main_v1) : S16777216x1.Idx → F .f32) shapeCasts_S16777216x1_S4096x4096 := by
  show StableHlo.after hostOps0_2 (W2 m ρ c) (Proc.devRef .tc main_v2) = _
  after_results
  rfl

/-- The normalization region finds the square array as the reduction region found it (an input array is never written),
    and the two one-entry arrays as the reduction region's write-backs left them. -/
theorem V4_main_v2 (c : Dev nD) (h : ∀ n, (R0 (V3 m ρ) c).dat.arrAt 0 n = V3 m ρ c (Pipeline.arrRef spec0 0)) :
    V4 R0 m ρ c main_v2 = V3 m ρ c main_v2 :=
  (W4_arr R0 m ρ c 0).trans (h cfg0.N)
theorem V4_main_v3_0 (c : Dev nD) : V4 R0 m ρ c main_v3_0 = (R0 (V3 m ρ) c).dat.arrAt 1 cfg0.N := W4_arr R0 m ρ c 1
theorem V4_main_v3_1 (c : Dev nD) : V4 R0 m ρ c main_v3_1 = (R0 (V3 m ρ) c).dat.arrAt 2 cfg0.N := W4_arr R0 m ρ c 2

end Cert.Kernel.Hand

end
-- ==== Proof.NormB.lean ====
/-
  The normalising call of the kernel, as a pipeline over eight row blocks of the 4096 x 4096 matrix X.

  At grid point t the body sees four staging buffers: the block of 512 rows of X numbered t, the one
  entry holding the mean, the one entry holding the standard deviation, and the block of the result
  for the same 512 rows. It reads the first three whole, and overwrites the fourth whole with
      (x - mean) / std        entry by entry,
  the two scalars spread over the block. Nothing is carried from one point to the next.

  This file fixes, for contents V of the core's arrays as the call finds them:
    * the block of each windowed array at a point (iblk1),
    * what the body leaves in the result's staging buffer, as a function of the three input blocks
      (out1_3: the one store laid over the buffer),
    * the proof data of the pipeline (dat1) and the statement that the body, run at any point on the
      buffers the pipeline hands it, leaves them as dat1 says (body_obligation1),
    * that the three input arrays are never written (arrAt1_in).
  Everything is stated for an arbitrary carrier F of floats, so that the same text reads at machine
  words and at extended reals.
-/
import proofs.«136790_j4312147165694_2_alg».proof.Proof.Gen.Kernel.Launch
import proofs.«136790_j4312147165694_2_alg».proof.Proof.Gen.Kernel.Skeleton
import proofs.«136790_j4312147165694_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ
-- the buffer contents when the region is entered, per core: the parameter everything is stated at
variable (V : (c : Dev nD) → (b : Ref sig .tc) → Buf (Elt F) ((c : Thread nD τ).loc b))

/-! ## The blocks of the four arrays -/

/-- The block of window w's array that belongs to point t, read off the array as the call finds it. For X and
    for the result it is rows 512 t .. 512 t + 511; for the mean and the standard deviation it is the whole
    one-entry array at every point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds that input's block at every point, whether the pipeline copied it in at
    that point or not: where it did not, the block's position has not moved since the last copy, and the body
    leaves an input buffer as it found it. Stated for any proof data over the arrays V whose body leaves the
    block of window 0 in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the mean (window 1): copied in at the first point only, and still there at every later one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the standard deviation (window 2). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes through -/

/-- All of a 512 x 4096 buffer: offset (0,0), full extent. -/
abbrev rBlk : Rect S512x4096 := Rect.unit (s := S512x4096) ![0, 0] S512x4096.size inb_S512x4096_S512x4096_0_0
/-- All of a one-entry buffer. -/
abbrev rOne : Rect S1x1 := Rect.unit (s := S1x1) ![0, 0] S1x1.size inb_S1x1_S1x1_0_0

/-! ## What the body leaves in the result's staging buffer -/

/-- The result's staging buffer after the body, from the three input blocks: the single store, whose payload is
    (x0 - x1) / x2 with the one-entry vectors x1, x2 spread over the block, laid over the buffer. -/
def out1_3 (x0 : Vec F S512x4096 .f32) (x1 x2 : Vec F S1x1 .f32) : Vec F S512x4096 .f32 :=
  View.canon [⟨rBlk, k1_pay1 (View.ld x0 rBlk) (View.ld x1 rOne) (View.ld x2 rOne)⟩]

/-- That store is through the whole buffer, so every index of the buffer lies under it. -/
theorem cover1_3 (p0 : Vec F S512x4096 .f32) (y : S512x4096.Idx) :
    ∃ pc ∈ ([⟨rBlk, p0⟩] : List (View.Piece (Elt F) S512x4096 .f32)), y ∈ pc.1.set :=
  View.cover_of_tiled [⟨rBlk, p0⟩] S512x4096.size (by rfl) y

/-! ## The body on any four whole buffers -/

set_option maxHeartbeats 1000000 in
/-- Run on whole buffers holding x0, x1, x2 and anything, the body returns the three inputs as they were and the
    fourth buffer at out1_3 x0 x1 x2. (It also reads the fourth buffer before storing into it; what it reads there
    is not used.) -/
theorem sound_kernel1 (c : Dev nD) (E : Set ℕ) (i : grid1.Coords)
    (arg1 : Memref sig .tc .vmem S512x4096 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S512x4096 .f32) (harg4 : arg4.IsWhole)
    (x0 : Vec F S512x4096 .f32) (x1 x2 : Vec F S1x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__normalize_kernel i arg1 harg1 arg2 harg2 arg3 harg3 arg4 harg4) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the normalising pipeline on core c. The arrays are as the call finds them (V). After the
    body at point t each input buffer still holds its block and the result's buffer holds out1_3 of the three
    input blocks. The invariant is the rest of the core's memory, untouched; the core owes nothing; every share is
    whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the contents at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- What the body finds in each input buffer at point t: that input's block. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body at a point of the grid -/

/-- What the body is handed at point t: the invariant, what the core owes, and the four current staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks, so sound_kernel1 applies with those blocks;
    the invariant and the core's debts pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation on the body, at every point. -/
theorem body_obligation1 (c : Dev nD) : BodyObligation (dat1 (F := F) V c) (defs₀ (F := F)) Variants.none () Set.univ := fun t => by
  rw [bigSep_W1, bigSep_W1]
  exact sound_body1 V c t

/-! ## The input arrays are never written -/

/-- Windows 0, 1, 2 are inputs: after any number of points their arrays are as the call found them. -/
theorem arrAt1_in (c : Dev nD) (w : Fin cfg1.W) (hw : w.val < 3) (n : Nat) : (dat1 V c).arrAt w n = V c (Pipeline.arrRef spec1 w) := by
  have hin : (cfg1.win w).isOut = false := by
    match w, hw with
    | ⟨0, _⟩, _ => rfl
    | ⟨1, _⟩, _ => rfl
    | ⟨2, _⟩, _ => rfl
  rw [(dat1 V c).arrAt_in w hin n]
  exact A_eq1 V c w

end Cert.Kernel.Hand

end
-- ==== Proof.RedDefB.lean ====
/-
  The reduction region (the first kernel launch): what its input window's block is at a grid point, and the two
  running sums the kernel keeps in its scratch cells. The grid has 8 points; point t reads rows 512 t .. 512 t + 511
  of the 4096 x 4096 array. Before any point the two cells hold zero (the kernel stores zero at point 0, then adds);
  after point n - 1 they hold the sum, and the sum of squares, of the first n blocks, folded block by block.
-/
import proofs.«136790_j4312147165694_2_alg».proof.Proof.Gen.Kernel.Launch
import proofs.«136790_j4312147165694_2_alg».proof.Proof.Gen.Kernel.Skeleton
import proofs.«136790_j4312147165694_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- the buffer contents when the region is entered, per core: the parameter everything here is stated at
variable (V : (c : Dev nD) → (b : Ref sig .tc) → Buf (Elt F) ((c : Thread nD τ).loc b))

/-- Window `w`'s block at grid point `t` of the reduction region, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum and the running sum of squares after the first `n` grid points: zero and zero before any point,
    then each point adds its block's sum (its block's sum of squares) to what the cell held. -/
def acc0 (c : Dev nD) : Nat → Vec F S1x1 .f32 × Vec F S1x1 .f32
  | 0 => (k0_pay1, k0_pay2)
  | n + 1 =>
    if h : n < cfg0.N then
      (k0_pay4 (iblk0 V c 0 ⟨n, h⟩) (acc0 c n).1, k0_pay5 (iblk0 V c 0 ⟨n, h⟩) (acc0 c n).2)
    else acc0 c n

theorem acc0_zero (c : Dev nD) : acc0 V c 0 = (k0_pay1, k0_pay2) := rfl

theorem acc0_succ (c : Dev nD) (n : Nat) (h : n < cfg0.N) :
    acc0 V c (n + 1) = (k0_pay4 (iblk0 V c 0 ⟨n, h⟩) (acc0 V c n).1, k0_pay5 (iblk0 V c 0 ⟨n, h⟩) (acc0 V c n).2) := by
  rw [acc0, dif_pos h]

/-- The mean the last point stores: the running sum over all 8 blocks divided by the count. -/
def mean0 (c : Dev nD) : Vec F S1x1 .f32 := k0_pay6 (acc0 V c 8).1
/-- The deviation the last point stores: the larger of the root of (mean of squares minus squared mean) and the floor. -/
def std0 (c : Dev nD) : Vec F S1x1 .f32 := k0_pay7 (acc0 V c 8).1 (acc0 V c 8).2

end Cert.Kernel.Hand

end
-- ==== Proof.ReduceB.lean ====
/-
  The reduction region (the first kernel launch) on one core, as the pipeline's rule sees it.

  The launch walks 8 grid points; point t brings rows 512 t .. 512 t + 511 of the 4096 x 4096 array into a staging
  buffer and runs the body on it. The body keeps two one-by-one cells of its own between the points: at point 0 it
  stores zero into both, at every point it adds the block's sum to the first and the block's sum of squares to the
  second, and at point 7 it reads both back and stores the mean (the first cell over the count) and the deviation (the
  larger of the root of (second cell over the count, less the squared mean) and the floor) into the two one-by-one
  output buffers, which the pipeline writes back to their arrays after that point and at no other.

  So the invariant between points says what the two cells hold: before point n > 0, the running sum and the running sum
  of squares of the first n blocks, folded block by block from zero. Before point 0 it says nothing of them, because the
  body overwrites them with zero there before it reads them. The output buffers are not the body's business before the last
  point: it is handed them and hands them back as they were. After the region the input array is as it was, and each output
  array, being one block written once, holds what point 7 stored: the mean and the deviation of all 8 blocks.
-/
import proofs.«136790_j4312147165694_2_alg».proof.Proof.Gen.Kernel.Launch
import proofs.«136790_j4312147165694_2_alg».proof.Proof.Gen.Kernel.Skeleton
import proofs.«136790_j4312147165694_2_alg».proof.Proof.Gen.Kernel.Points
import proofs.«136790_j4312147165694_2_alg».proof.Proof.RedDefB
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
local notation "𝕄" => MT nD τ sig Unit (Elt F) ℕ (UR sig nD τ) ℕ
-- the buffer contents when the region is entered, per core: the parameter everything is stated at
variable (V : (c : Dev nD) → (b : Ref sig .tc) → Buf (Elt F) ((c : Thread nD τ).loc b))

/-! ## Loads and stores of a whole buffer -/

/-- The zero offsets of a load or a store of a whole rank-two buffer, however they are spelt. -/
theorem hz2 : (![0, 0] : Fin 2 → Nat) = fun _ => 0 := funext fun a => by fin_cases a <;> rfl

section Whole

variable {κ : Kind} {sp : Space} {S : Shape} {e : EltTy}

/-- A store over a whole buffer, made last, leaves its payload there, whatever was stored before and whatever
    the buffer held. -/
theorem read_store_whole (v : View sig κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon v f _ (fun y => ⟨⟨Rect.unit off S.size inb, w⟩, List.mem_cons_self .., View.mem_set_unit_zero h inb y⟩),
    View.canon_cons_unit_zero h]

/-- A load of a whole buffer held at contents `x` reads `x`. -/
theorem load_whole (m : Memref sig κ sp S e) (hm : m.IsWhole) {off : Fin S.rank → Nat} (h : off = fun _ => 0)
    (inb : ∀ a, off a + S.size a ≤ S.size a) (x : S.Idx → Elt F e) :
    View.readAt (Elt F) m.view (Rect.unit off S.size inb).toLoadRect (hm.unread x) = x := by
  rw [View.readAt_eq_ld, hm.read_unread, View.ld_unit_zero h]

end Whole

/-! ## The kernel body on any whole buffers, in its three control cases

The body branches twice on the grid coordinate: "this is the first point" (then both cells are zeroed before anything
else) and "this is the last point" (then the mean and the deviation are computed from the cells and stored). Between
the two it loads the block, and adds the block's sum to the first cell and the block's sum of squares to the second. -/

/-- The first branch's condition over the grid coordinate: "this is the first point". -/
abbrev cond0_1 (i : grid0.Coords) : Prop := (Scalar.cmpi .ne (Scalar.extui (Scalar.cmpi .eq (BitVec.ofNat 32 (i 0).val) 0#32)) 0#32) = 1#1

/-- At a point strictly inside the grid (neither branch taken) each cell, holding `a` (`b`), ends holding `a` plus the
    block's sum (`b` plus the block's sum of squares); the block and the two output buffers are left as found. -/
theorem run0_mid (c : Dev nD) (i : grid0.Coords)
    (arg1 : Memref sig .tc .vmem S512x4096 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc1 : ¬cond0_1 i) (hc2 : ¬k0_cond2 i = 1#1)
    (x0 : Vec F S512x4096 .f32) (xi1 xi2 a b : Vec F S1x1 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare a ∗ owns (c : Thread nD τ) arg5 fullShare b
        ∗ (iprop(owns (c : Thread nD τ) arg1 fullShare x0 ∗ owns (c : Thread nD τ) arg2 fullShare (xi1) ∗ owns (c : Thread nD τ) arg3 fullShare (xi2)
            ∗ owns (c : Thread nD τ) arg4 fullShare (k0_pay4 x0 a) ∗ owns (c : Thread nD τ) arg5 fullShare (k0_pay5 x0 b)) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    rw [read_store_whole _ _ hz2, load_whole arg1 harg1 hz2, load_whole arg4 harg4 hz2]
  · iexists _; isplitr
    swap; · iexact H5
    ipureintro
    rw [read_store_whole _ _ hz2, load_whole arg1 harg1 hz2, load_whole arg5 harg5 hz2]

/-- At the first point the cells, whatever they held, are zeroed and then added to: they end holding the sum and the sum of
    squares of the first block, each added to zero. -/
theorem run0_first (c : Dev nD) (i : grid0.Coords)
    (arg1 : Memref sig .tc .vmem S512x4096 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc1 : cond0_1 i) (hc2 : ¬k0_cond2 i = 1#1)
    (x0 : Vec F S512x4096 .f32) (xi1 xi2 a b : Vec F S1x1 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare a ∗ owns (c : Thread nD τ) arg5 fullShare b
        ∗ (iprop(owns (c : Thread nD τ) arg1 fullShare x0 ∗ owns (c : Thread nD τ) arg2 fullShare (xi1) ∗ owns (c : Thread nD τ) arg3 fullShare (xi2)
            ∗ owns (c : Thread nD τ) arg4 fullShare (k0_pay4 x0 k0_pay1) ∗ owns (c : Thread nD τ) arg5 fullShare (k0_pay5 x0 k0_pay2)) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [read_store_whole _ _ hz2, load_whole arg1 harg1 hz2, View.readCov_unit_zero _ hz2]
  · iexists _; isplitr
    swap; · iexact H5
    ipureintro
    sl_unfold_run_names
    rw [read_store_whole _ _ hz2, load_whole arg1 harg1 hz2, View.readCov_unit_zero _ hz2]

/-- At the last point the cells are added to as at any other, and then read back: the mean's buffer ends holding the first
    cell divided by the count, the deviation's the root formed from both cells. -/
theorem run0_last (c : Dev nD) (i : grid0.Coords)
    (arg1 : Memref sig .tc .vmem S512x4096 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (hc1 : ¬cond0_1 i) (hc2 : k0_cond2 i = 1#1)
    (x0 : Vec F S512x4096 .f32) (xi1 xi2 a b : Vec F S1x1 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare a ∗ owns (c : Thread nD τ) arg5 fullShare b
        ∗ (iprop(owns (c : Thread nD τ) arg1 fullShare x0 ∗ owns (c : Thread nD τ) arg2 fullShare (k0_pay6 (k0_pay4 x0 a)) ∗ owns (c : Thread nD τ) arg3 fullShare (k0_pay7 (k0_pay4 x0 a) (k0_pay5 x0 b))
            ∗ owns (c : Thread nD τ) arg4 fullShare (k0_pay4 x0 a) ∗ owns (c : Thread nD τ) arg5 fullShare (k0_pay5 x0 b)) -∗ K ⟨⟩))
      ⊢ wp frame (wpE (defs₀ (F := F)) Variants.none c none) E (cc0__reduce_kernel i arg1 harg1 arg2 harg2 arg3 harg3 arg4 harg4 arg5 harg5) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H1]
  · iexists _; isplitr; · ipureintro; exact harg1.read_unread _
    iexact H1
  isplitl [H2]
  · iexists _; isplitr
    swap; · iexact H2
    ipureintro
    sl_unfold_run_names
    rw [read_store_whole _ _ hz2, View.readCov_unit_zero _ hz2, load_whole arg1 harg1 hz2, load_whole arg4 harg4 hz2]
  isplitl [H3]
  · iexists _; isplitr
    swap; · iexact H3
    ipureintro
    sl_unfold_run_names
    rw [read_store_whole _ _ hz2, View.readCov_unit_zero _ hz2, View.readCov_unit_zero _ hz2, load_whole arg1 harg1 hz2, load_whole arg4 harg4 hz2, load_whole arg5 harg5 hz2]
  isplitl [H4]
  · iexists _; isplitr
    swap; · iexact H4
    ipureintro
    sl_unfold_run_names
    rw [read_store_whole _ _ hz2, load_whole arg1 harg1 hz2, load_whole arg4 harg4 hz2]
  · iexists _; isplitr
    swap; · iexact H5
    ipureintro
    sl_unfold_run_names
    rw [read_store_whole _ _ hz2, load_whole arg1 harg1 hz2, load_whole arg5 harg5 hz2]

/-! ## Which case a point is in, and where the output windows are idle -/

/-- The first branch is taken at point 0 only. -/
theorem hcond0_1 : ∀ t : Fin cfg0.N, cond0_1 (grid0.coords t) ↔ t.val = 0 :=
  (by decide +kernel : ∀ t : Fin grid0.N, cond0_1 (grid0.coords t) ↔ t.val = 0)
/-- The second branch is taken at point 7 only. -/
theorem hcond0_2 : ∀ t : Fin cfg0.N, k0_cond2 (grid0.coords t) = 1#1 ↔ t.val = 7 :=
  (by decide +kernel : ∀ t : Fin grid0.N, k0_cond2 (grid0.coords t) = 1#1 ↔ t.val = 7)
/-- The input window is never idle. -/
theorem live0_0 : ∀ t : Fin cfg0.N, cfg0.idle 0 (grid0.coords t) = false := by decide +kernel
/-- Before the last point the two output windows are idle and are not written back; at the last point they are live. -/
theorem idle0_1 : ∀ t : Fin cfg0.N, t.val ≠ 7 → cfg0.idle 1 (grid0.coords t) = true := by decide +kernel
theorem idle0_2 : ∀ t : Fin cfg0.N, t.val ≠ 7 → cfg0.idle 2 (grid0.coords t) = true := by decide +kernel
theorem noflush0_1 : ∀ t : Fin cfg0.N, t.val ≠ 7 → (cfg0.win 1).flush t = false := by decide +kernel
theorem noflush0_2 : ∀ t : Fin cfg0.N, t.val ≠ 7 → (cfg0.win 2).flush t = false := by decide +kernel
theorem live0_1 : ∀ t : Fin cfg0.N, t.val = 7 → cfg0.idle 1 (grid0.coords t) = false := by decide +kernel
theorem live0_2 : ∀ t : Fin cfg0.N, t.val = 7 → cfg0.idle 2 (grid0.coords t) = false := by decide +kernel

/-! ## The proof data: the invariant follows the two cells from point to point -/

/-- The two scratch cells, as whole buffers. -/
abbrev cell0 : Memref sig .tc .vmem S1x1 .f32 := Memref.whole cc0_scratch0
abbrev cell1 : Memref sig .tc .vmem S1x1 .f32 := Memref.whole cc0_scratch1

/-- The core's other scoped buffers (the second launch's staging buffers), each at some contents: the body does not
    touch them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The invariant before the point at position `n` (after the first `n` points): the two cells hold the running sum and the
    running sum of squares of the first `n` blocks — before the first point, anything, since the body zeroes them there
    before it reads them —; the other scoped buffers and the random-number generator's register are held at whatever they are. -/
def Phi0 (c : Dev nD) (n : ℕ) : sProp 𝕄 :=
  iprop((∃ a b : Vec F S1x1 .f32, ⌜n ≠ 0 → (a, b) = acc0 V c n⌝ ∗ owns (c : Thread nD τ) cell0 fullShare a ∗ owns (c : Thread nD τ) cell1 fullShare b)
    ∗ others0 c ∗ (∃ r, prngReg c r))

/-- The region's proof data on core `c`: the arrays as the region finds them; after the body the input's buffer still at
    its block, the mean's and the deviation's buffers (consulted at the last point only, where they are stored) at the mean
    and the deviation of all 8 blocks; the invariant that follows the cells; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => mean0 V c
    | ⟨2, _⟩ => std0 V c
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = mean0 V c := by dsimp only [dat0]
theorem after0_2 (c : Dev nD) (t : Fin cfg0.N) : (dat0 V c).after 2 t = std0 V c := by dsimp only [dat0]

/-- The input's current staging buffer holds the point's block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The cells after point `t`, from what they held before it. -/
theorem acc0_step (c : Dev nD) (t : Fin cfg0.N) :
    acc0 V c (t.val + 1) = (k0_pay4 (iblk0 V c 0 t) (acc0 V c t.val).1, k0_pay5 (iblk0 V c 0 t) (acc0 V c t.val).2) :=
  acc0_succ V c t.val t.isLt

set_option maxHeartbeats 1600000 in
/-- The body at any point. The input's buffer holds the point's block; the point's position says which of the three cases
    it is in. At the first point the cells are zeroed and added to, so they end at the running sums after one block whatever
    they held; at a later point the invariant says what they hold, and they end at the running sums after one block more; at
    the last point the outputs' buffers also receive the mean and the deviation computed from the running sums after all 8
    blocks. At every other point the outputs' buffers are handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) from rfl, show (dat0 V c).Φ t.castSucc = Phi0 V c t.val from rfl]
  rw [show (dat0 V c).leavesExact 0 t = owns (c : Thread nD τ) (st0_0 t) fullShare ((dat0 V c).after 0 t) from by
    unfold Dat.leavesExact; rw [live0_0 t], after0_0]
  have hN : t.val < 8 := lt_of_lt_of_eq t.isLt (show cfg0.N = 8 from N_0)
  unfold Phi0
  by_cases h7 : t.val = 7
  · -- the last point
    have h0 : t.val ≠ 0 := by omega
    have hc1 : ¬cond0_1 (grid0.coords t) := fun h => h0 ((hcond0_1 t).mp h)
    have hc2 : k0_cond2 (grid0.coords t) = 1#1 := (hcond0_2 t).mpr h7
    rw [show (dat0 V c).leavesExact 1 t = owns (c : Thread nD τ) (st0_1 t) fullShare ((dat0 V c).after 1 t) from by
      unfold Dat.leavesExact; rw [live0_1 t h7], after0_1]
    rw [show (dat0 V c).leavesExact 2 t = owns (c : Thread nD τ) (st0_2 t) fullShare ((dat0 V c).after 2 t) from by
      unfold Dat.leavesExact; rw [live0_2 t h7], after0_2]
    iintro ⟨⟨⟨%a, %b, %hab, HS0, HS1⟩, Hoth, Hg⟩, Ho, ⟨%d0, H0⟩, ⟨%d1, H1⟩, ⟨%d2, H2⟩⟩
    have e := hab h0
    have ea : a = (acc0 V c t.val).1 := congrArg Prod.fst e
    have eb : b = (acc0 V c t.val).2 := congrArg Prod.snd e
    have e8 : acc0 V c 8 = (k0_pay4 (iblk0 V c 0 t) a, k0_pay5 (iblk0 V c 0 t) b) := by
      rw [ea, eb, ← acc0_step V c t, h7]
    iapply (run0_last c (grid0.coords t) _ _ _ _ _ _ _ _ _ _ hc1 hc2 (iblk0 V c 0 t) _ _ a b Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hoth Hg]
    · isplitl [HS0 HS1]
      · iexists (k0_pay4 (iblk0 V c 0 t) a), (k0_pay5 (iblk0 V c 0 t) b); isplitr
        · ipureintro; intro _; rw [ea, eb, ← acc0_step V c t]
        isplitl [HS0]; · iexact HS0
        iexact HS1
      isplitl [Hoth]; · iexact Hoth
      iexact Hg
    isplitl [Ho]; · iexact Ho
    isplitl [H0]; · iexact H0
    isplitl [H1]
    · unfold mean0; rw [e8]; iexact H1
    · unfold std0; rw [e8]; iexact H2
  · rw [Dat.leavesExact_idle (dat0 V c) 1 t (idle0_1 t h7) (noflush0_1 t h7)]
    rw [Dat.leavesExact_idle (dat0 V c) 2 t (idle0_2 t h7) (noflush0_2 t h7)]
    have hc2 : ¬k0_cond2 (grid0.coords t) = 1#1 := fun h => h7 ((hcond0_2 t).mp h)
    by_cases h0 : t.val = 0
    · -- the first point
      have hc1 : cond0_1 (grid0.coords t) := (hcond0_1 t).mpr h0
      have ez : acc0 V c t.val = (k0_pay1, k0_pay2) := by rw [h0]; rfl
      iintro ⟨⟨⟨%a, %b, %hab, HS0, HS1⟩, Hoth, Hg⟩, Ho, ⟨%d0, H0⟩, ⟨%d1, H1⟩, ⟨%d2, H2⟩⟩
      iapply (run0_first c (grid0.coords t) _ _ _ _ _ _ _ _ _ _ hc1 hc2 (iblk0 V c 0 t) _ _ a b Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hoth Hg]
      · isplitl [HS0 HS1]
        · iexists (k0_pay4 (iblk0 V c 0 t) k0_pay1), (k0_pay5 (iblk0 V c 0 t) k0_pay2); isplitr
          · ipureintro; intro _; rw [acc0_step V c t, ez]
          isplitl [HS0]; · iexact HS0
          iexact HS1
        isplitl [Hoth]; · iexact Hoth
        iexact Hg
      isplitl [Ho]; · iexact Ho
      isplitl [H0]; · iexact H0
      isplitl [H1]; · iexists _; iexact H1
      iexists _; iexact H2
    · -- a point strictly inside
      have hc1 : ¬cond0_1 (grid0.coords t) := fun h => h0 ((hcond0_1 t).mp h)
      iintro ⟨⟨⟨%a, %b, %hab, HS0, HS1⟩, Hoth, Hg⟩, Ho, ⟨%d0, H0⟩, ⟨%d1, H1⟩, ⟨%d2, H2⟩⟩
      have e := hab h0
      have ea : a = (acc0 V c t.val).1 := congrArg Prod.fst e
      have eb : b = (acc0 V c t.val).2 := congrArg Prod.snd e
      iapply (run0_mid c (grid0.coords t) _ _ _ _ _ _ _ _ _ _ hc1 hc2 (iblk0 V c 0 t) _ _ a b Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hoth Hg]
      · isplitl [HS0 HS1]
        · iexists (k0_pay4 (iblk0 V c 0 t) a), (k0_pay5 (iblk0 V c 0 t) b); isplitr
          · ipureintro; intro _; rw [ea, eb, ← acc0_step V c t]
          isplitl [HS0]; · iexact HS0
          iexact HS1
        isplitl [Hoth]; · iexact Hoth
        iexact Hg
      isplitl [Ho]; · iexact Ho
      isplitl [H0]; · iexact H0
      isplitl [H1]; · iexists _; iexact H1
      iexists _; iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the region, and the arrays after it -/

/-- What the launch hands the region is the invariant before the first point: the cells may hold anything there. -/
theorem hin0 (c : Dev nD) : (iprop((∃ r, prngReg c r) ∗ Pipeline.scopedRest (Ix := Unit) (Name := ℕ) (U := UR sig nD τ) (Lvl := ℕ) (Val := Elt F) spec0 c) : sProp 𝕄) ⊢ (dat0 V c).Φ 0 := by
  rw [show (dat0 V c).Φ 0 = Phi0 V c 0 from rfl, scopedRest0_eq]
  unfold Phi0 others0
  simp only [cell0, cell1, owns_whole]
  iintro ⟨Hg, ⟨%f0, H0⟩, ⟨%f1, H1⟩, Hoth⟩
  isplitl [H0 H1]
  · iexists f0, f1; isplitr
    · ipureintro; intro h; exact absurd rfl h
    isplitl [H0]; · iexact H0
    iexact H1
  isplitl [Hoth]; · iexact Hoth
  iexact Hg

/-- After the last point the invariant gives the launch back what it lent: what the cells hold is forgotten. -/
theorem hout0 (c : Dev nD) : (dat0 V c).Φ (Fin.last cfg0.N) ⊢ (iprop((∃ r, prngReg c r) ∗ Pipeline.scopedRest (Ix := Unit) (Name := ℕ) (U := UR sig nD τ) (Lvl := ℕ) (Val := Elt F) spec0 c) : sProp 𝕄) := by
  rw [show (dat0 V c).Φ (Fin.last cfg0.N) = Phi0 V c (Fin.last cfg0.N).val from rfl, scopedRest0_eq]
  unfold Phi0 others0
  simp only [cell0, cell1, owns_whole]
  iintro ⟨⟨%a, %b, -, H0, H1⟩, Hoth, Hg⟩
  isplitl [Hg]; · iexact Hg
  isplitl [H0]; · iexists a; iexact H0
  isplitl [H1]; · iexists b; iexact H1
  iexact Hoth

/-- The input array is never written. -/
theorem arrAt0_in (c : Dev nD) (n : Nat) : (dat0 V c).arrAt 0 n = V c (Pipeline.arrRef spec0 0) :=
  ((dat0 V c).arrAt_in 0 rfl n).trans (A_eq0 V c 0)

/-- A one-by-one array has one index. -/
instance subsingleton_S1x1 : Subsingleton S1x1.Idx :=
  ⟨fun a b => funext fun d => by fin_cases d <;> exact Subsingleton.elim (α := Fin 1) _ _⟩

/-- The mean's array after the region: written back once, at the last point, whole. -/
theorem final0_1 (c : Dev nD) (u : S1x1.Idx) : ((dat0 V c).arrAt 1 cfg0.N : S1x1.Idx → F .f32) u = mean0 V c u := by
  have h : (dat0 V c).arrAt 1 cfg0.N = mean0 V c :=
    (dat0 V c).arrAt_eq_of_cover 1 (mean0 V c)
      (fun t _ => by
        show (cfg0.win 1).cut (grid0.coords t) ((dat0 V c).after 1 t) = _
        rw [after0_1]
        funext y
        rw [View.read_apply]
        exact congrArg (mean0 V c) (Subsingleton.elim (α := S1x1.Idx) _ _))
      (fun i => ⟨t0_7, (flush0_1 t0_7).mpr rfl, by
        have e : ((cfg0.win 1).blk t0_7).view.emb i = i := Subsingleton.elim (α := S1x1.Idx) _ _
        rw [← e]; exact View.emb_mem_set _ _⟩)
  exact congrFun h u

/-- The deviation's array after the region: written back once, at the last point, whole. -/
theorem final0_2 (c : Dev nD) (u : S1x1.Idx) : ((dat0 V c).arrAt 2 cfg0.N : S1x1.Idx → F .f32) u = std0 V c u := by
  have h : (dat0 V c).arrAt 2 cfg0.N = std0 V c :=
    (dat0 V c).arrAt_eq_of_cover 2 (std0 V c)
      (fun t _ => by
        show (cfg0.win 2).cut (grid0.coords t) ((dat0 V c).after 2 t) = _
        rw [after0_2]
        funext y
        rw [View.read_apply]
        exact congrArg (std0 V c) (Subsingleton.elim (α := S1x1.Idx) _ _))
      (fun i => ⟨t0_7, (flush0_2 t0_7).mpr rfl, by
        have e : ((cfg0.win 2).blk t0_7).view.emb i = i := Subsingleton.elim (α := S1x1.Idx) _ _
        rw [← e]; exact View.emb_mem_set _ _⟩)
  exact congrFun h u

end Cert.Kernel.Hand

end
-- ==== Proof.RegsB.lean ====
/-
  The two regions' records for the run: the reduction region's proof data with the invariant that tracks its two
  running sums, and the normalization region's, whose invariant is just "the scoped buffers no window stages hold
  something, the generator register is in some state". With them the program's frame: it runs to the end, nothing
  faults, and the two argument arrays end as launched.
-/
import proofs.«136790_j4312147165694_2_alg».proof.Proof.RunPostB
import proofs.«136790_j4312147165694_2_alg».proof.Proof.NormB
import proofs.«136790_j4312147165694_2_alg».proof.Proof.ReduceB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reduction region's record. -/
def regs0 (V : (c : Dev nD) → (b : Ref sig .tc) → Buf (Elt F) ((c : Thread nD τ).loc b)) (c : Dev nD) : Reg0 (F := F) V c where
  dat := dat0 V c
  hA := A_eq0 V c
  hq _ := rfl
  howed _ := rfl
  hrec _ := rfl
  hbody := body_obligation0 V c
  hin := hin0 V c
  hout := hout0 V c

/-- The normalization region's record: its invariant is the two conjuncts in the other order. -/
def regs1 (V : (c : Dev nD) → (b : Ref sig .tc) → Buf (Elt F) ((c : Thread nD τ).loc b)) (c : Dev nD) : Reg1 (F := F) V c where
  dat := dat1 V c
  hA := A_eq1 V c
  hq _ := rfl
  howed _ := rfl
  hrec _ := rfl
  hbody := body_obligation1 V c
  hin := by
    rw [show (dat1 V c).Φ 0 = Pipeline.ΦA spec1 c from rfl]; unfold Pipeline.ΦA
    iintro ⟨Hp, Hr⟩
    isplitl [Hr]; · iexact Hr
    iexact Hp
  hout := by
    rw [show (dat1 V c).Φ (Fin.last cfg1.N) = Pipeline.ΦA spec1 c from rfl]; unfold Pipeline.ΦA
    iintro ⟨Hr, Hp⟩
    isplitl [Hp]; · iexact Hp
    iexact Hr

/-- THE FRAME of the program, for any reading of the floats. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of (regs0 (F := F)) (regs1 (F := F)) m ρ

end Cert.Kernel.Hand

end
-- ==== Proof.NormValue.lean ====
/-
  The normalising call read as numbers: floats are extended reals here.

  The one store of the body writes, at every entry j of the 512 x 4096 block,
      (x0 j - mean) / std,
  mean and std being the single entries of the two one-entry inputs (out1_3_apply).
  Point t of the grid works on rows 512 t .. 512 t + 511 of X and writes back the same rows of the
  result; the eight points together cover all 4096 rows, row r falling to point r / 512. So after the
  call entry i of the result is (X i - mean) / std, with X, mean, std as the call found them (final1_3).
-/
import proofs.«136790_j4312147165694_2_alg».proof.Proof.NormI
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.SL.Sem
open Idealize.ShloMosaic.Pipeline (Dat)
open Idealize.ShloMosaic.ValueIdx
open Cert.KernelIdeal Cert.KernelIdeal.Gen

/-! ## The body's store at an index -/

/-- The offsets (0,0) are zero on both axes. -/
theorem hz : (![0, 0] : Fin 2 → Nat) = fun _ => 0 := funext fun a => by fin_cases a <;> rfl

/-- A one-entry vector spread over the block reads its single entry everywhere. -/
theorem spread_apply (x : Vec Ideal S1x1 .f32) (j : S512x4096.Idx) (u : S1x1.Idx) :
    broadcastTo S512x4096 x broadcasts_S1x1_S512x4096 j = x u :=
  broadcastTo_apply x _ j u fun a => by
    have h1 : S1x1.size a = 1 := by fin_cases a <;> rfl
    have h : (u a).val < S1x1.size a := (u a).isLt
    rw [if_pos h1]; omega

/-- The payload at an index: (x0 - mean)/std entrywise, mean and std the single entries of the one-entry vectors. -/
theorem out1_3_apply (x0 : Vec Ideal S512x4096 .f32) (x1 x2 : Vec Ideal S1x1 .f32) (j : S512x4096.Idx) (u : S1x1.Idx) :
    Hand.out1_3 (F := Ideal) x0 x1 x2 j = Ideal.div (x0 j - x1 u) (x2 u) := by
  unfold Hand.out1_3
  rw [View.canon_unit_zero hz]
  simp only [View.ld_unit_zero (S := S512x4096) hz, View.ld_unit_zero (S := S1x1) hz]
  unfold Gen.k1_pay1
  rw [divf_apply, subf_apply, shapeCast_self, shapeCast_self, shapeCast_self, spread_apply x1 j u, spread_apply x2 j u]

/-! ## From the blocks to the whole result -/

/-- Where the blocks sit: at point t the block of X and the block of the result are both block row t (rows
    512 t onward, all columns); the one-entry inputs are always at position (0,0). Decided point by point. -/
theorem where1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Final
variable (V : (c : Dev nD) → (b : Ref sig .tc) → Buf (Elt Ideal) ((c : Thread nD τ).loc b))

/-- The result as one function of the three input arrays, given as tables of extended reals: entry i is
    (X i - mean)/std, mean and std read at the one position u of their one-entry tables. -/
def normOf (X : S4096x4096.Idx → EReal) (mean std : S1x1.Idx → EReal) (u : S1x1.Idx) : S4096x4096.Idx → EReal := fun i =>
  Ideal.div (X i - mean u) (std u)

/-- An entry of the X block at point t is the entry of X in the same place as the matching entry of the result's
    block: both blocks are block row t. -/
theorem iblk_X (c : Dev nD) (t : Fin cfg1.N) (j : S512x4096.Idx) :
    (Hand.iblk1 V c 0 t : S512x4096.Idx → EReal) j = (V c main_v2 : S4096x4096.Idx → EReal) (((cfg1.win 3).blk t).view.emb j) := by
  obtain ⟨e0, e1, -, -, -, -, e6, e7⟩ := where1 t
  unfold Hand.iblk1
  rw [View.read_apply]
  show (V c main_v2 : S4096x4096.Idx → EReal) (((cfg1.win 0).blk t).view.emb j) = _
  refine congrArg (V c main_v2 : S4096x4096.Idx → EReal) ?_
  funext a; apply Fin.ext
  match a with
  | ⟨0, _⟩ => show win1_0.index t (0 : Fin 2) * 512 + 1 * (j 0).val = win1_3.index t (0 : Fin 2) * 512 + 1 * (j 0).val; omega
  | ⟨1, _⟩ => show win1_0.index t (1 : Fin 2) * 4096 + 1 * (j 1).val = win1_3.index t (1 : Fin 2) * 4096 + 1 * (j 1).val; omega

/-- The block of a one-entry array is that array: its single entry. -/
theorem iblk_mean (c : Dev nD) (t : Fin cfg1.N) (u : S1x1.Idx) :
    (Hand.iblk1 V c 1 t : S1x1.Idx → EReal) u = (V c main_v3_0 : S1x1.Idx → EReal) u := by
  obtain ⟨-, -, e2, e3, -, -, -, -⟩ := where1 t
  unfold Hand.iblk1
  rw [View.read_apply]
  show (V c main_v3_0 : S1x1.Idx → EReal) (((cfg1.win 1).blk t).view.emb u) = _
  refine congrArg (V c main_v3_0 : S1x1.Idx → EReal) ?_
  funext a; apply Fin.ext
  match a with
  | ⟨0, _⟩ => show win1_1.index t (0 : Fin 2) * 1 + 1 * (u 0).val = (u 0).val; omega
  | ⟨1, _⟩ => show win1_1.index t (1 : Fin 2) * 1 + 1 * (u 1).val = (u 1).val; omega

theorem iblk_std (c : Dev nD) (t : Fin cfg1.N) (u : S1x1.Idx) :
    (Hand.iblk1 V c 2 t : S1x1.Idx → EReal) u = (V c main_v3_1 : S1x1.Idx → EReal) u := by
  obtain ⟨-, -, -, -, e4, e5, -, -⟩ := where1 t
  unfold Hand.iblk1
  rw [View.read_apply]
  show (V c main_v3_1 : S1x1.Idx → EReal) (((cfg1.win 2).blk t).view.emb u) = _
  refine congrArg (V c main_v3_1 : S1x1.Idx → EReal) ?_
  funext a; apply Fin.ext
  match a with
  | ⟨0, _⟩ => show win1_2.index t (0 : Fin 2) * 1 + 1 * (u 0).val = (u 0).val; omega
  | ⟨1, _⟩ => show win1_2.index t (1 : Fin 2) * 1 + 1 * (u 1).val = (u 1).val; omega

/-- What point t writes back is block row t of normOf. -/
theorem flushed1_3 (c : Dev nD) (u : S1x1.Idx) (t : Fin cfg1.N) :
    (Hand.dat1 (F := Ideal) V c).flushed 3 t = ((cfg1.win 3).blk t).view.read (Elt Ideal) (normOf (V c main_v2) (V c main_v3_0) (V c main_v3_1) u) := by
  show (cfg1.win 3).cut (grid1.coords t) ((Hand.dat1 (F := Ideal) V c).after 3 t) = _
  rw [Hand.after1_3]
  funext j
  rw [View.read_apply]
  show Hand.out1_3 (F := Ideal) (Hand.iblk1 V c 0 t) (Hand.iblk1 V c 1 t) (Hand.iblk1 V c 2 t) j = normOf (V c main_v2) (V c main_v3_0) (V c main_v3_1) u (((cfg1.win 3).blk t).view.emb j)
  rw [out1_3_apply _ _ _ j u, iblk_X V c t j, iblk_mean V c t u, iblk_std V c t u]
  rfl

/-- An entry of the result lies in point t's block exactly when its row is among rows 512 t .. 512 t + 511. -/
theorem mem_blk1_3 (t : Fin cfg1.N) (i : S4096x4096.Idx) :
    i ∈ ((cfg1.win 3).blk t).view.set ↔ ∀ a : Fin 2, win1_3.index t a * S512x4096.size a ≤ (i a).val ∧ (i a).val < win1_3.index t a * S512x4096.size a + S512x4096.size a := by
  show i ∈ ((View.whole main_v4).slice (win1_3.rect t)).set ↔ _
  rw [View.set_slice_whole, Rect.mem_set_unit]
  exact Iff.rfl

/-- Every entry of the result is written back by some point: row r by point r / 512. -/
theorem cover1_3 (i : S4096x4096.Idx) : ∃ t : Fin cfg1.N, (cfg1.win 3).flush t = true ∧ i ∈ ((cfg1.win 3).blk t).view.set := by
  have hi0 : (i 0).val < 4096 := (i 0).isLt
  have hi1 : (i 1).val < 4096 := (i 1).isLt
  have hN : cfg1.N = 8 := N_1
  let t : Fin cfg1.N := ⟨(i 0).val / 512, by omega⟩
  obtain ⟨-, -, -, -, -, -, e6, e7⟩ := where1 t
  have ht : t.val = (i 0).val / 512 := rfl
  refine ⟨t, flush1_3 t, ?_⟩
  rw [mem_blk1_3]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 4096 ≤ (i 1).val ∧ (i 1).val < win1_3.index t (1 : Fin 2) * 4096 + 4096; omega

/-- The whole result after the call, as one table: normOf of the three input arrays as the call found them. -/
theorem final1_3_fun (c : Dev nD) (u : S1x1.Idx) :
    (Hand.dat1 (F := Ideal) V c).arrAt 3 cfg1.N = normOf (V c main_v2) (V c main_v3_0) (V c main_v3_1) u :=
  (Hand.dat1 (F := Ideal) V c).arrAt_eq_of_cover 3 (normOf (V c main_v2) (V c main_v3_0) (V c main_v3_1) u)
    (fun t _ => flushed1_3 V c u t) cover1_3

/-- The whole result after the call: entry i is (X i - mean)/std, X, mean, std the three input arrays as the call
    found them. -/
theorem final1_3 (c : Dev nD) (i : S4096x4096.Idx) (u : S1x1.Idx) :
    ((Hand.dat1 (F := Ideal) V c).arrAt 3 cfg1.N : S4096x4096.Idx → EReal) i
      = Ideal.div (HSub.hSub (α := EReal) (β := EReal) (γ := EReal) ((V c main_v2 : S4096x4096.Idx → EReal) i) ((V c main_v3_0 : S1x1.Idx → EReal) u))
          ((V c main_v3_1 : S1x1.Idx → EReal) u) :=
  congrFun (final1_3_fun V c u) i

end Final

end Cert.KernelIdeal.HandValue

end
-- ==== Proof.Spec.lean ====
/-
  The mathematics both programs compute, over the extended reals, stated once and without either program.

  x is the gathered column, N = 2^24 entries. The reference takes the mean m = (0 + sum x) / N, the mean of squared
  deviations v = (0 + sum (x - m)^2) / N, the deviation s = max (sqrt v) eps, and returns (x - m) / s entrywise.
  The kernel sees the same entries as a 4096 x 4096 array X, takes S = sum X and Q = sum X^2 (block by block),
  m' = S / N, v' = Q / N - m' * m', s' = max (sqrt v') eps, and returns (X - m') / s'.
  When every entry is a real number the two agree: the sums are the same sums in another order, and
  sum (x - m)^2 / N = sum x^2 / N - m^2 for m = sum x / N, an identity of real numbers.
-/
import Idealize.ShloMosaic.PureOps.Ideal
import Idealize.ShloMosaic.PureOps.Ideal.Laws
import Idealize.ShloMosaic.Lib.ValueIdx

noncomputable section

namespace Cert.Spec

open Idealize.ShloMosaic

/-- The column shape [2^24, 1] and the square shape [4096, 4096] (4096 * 4096 = 2^24). -/
abbrev SCol : Shape := ⟨2, ![16777216, 1]⟩
abbrev SSq : Shape := ⟨2, ![4096, 4096]⟩

/-- The count 2^24, the floor 1e-10 (as the float nearest it) and zero, as the words both programs print. -/
def cnt : EReal := Ideal.ofBits .f32 0x4B800000#32
def eps : EReal := Ideal.ofBits .f32 0x2EDBE6FF#32
def zero : EReal := Ideal.ofBits .f32 0x00000000#32

/-! ### The reference's quantities, of the column x -/

/-- The sum of the column from the initial value zero. -/
def refSum (x : SCol.Idx → EReal) : EReal := zero + ∑ i, x i
/-- The mean. -/
def refMean (x : SCol.Idx → EReal) : EReal := Ideal.div (refSum x) cnt
/-- The sum of squared deviations from the mean, from the initial value zero. -/
def refSq (x : SCol.Idx → EReal) : EReal := zero + ∑ i, (x i - refMean x) * (x i - refMean x)
/-- The deviation: the root of the mean squared deviation, not below the floor. -/
def refStd (x : SCol.Idx → EReal) : EReal := max (Ideal.sqrt (Ideal.div (refSq x) cnt)) eps
/-- The normalized column. -/
def refOut (x : SCol.Idx → EReal) (i : SCol.Idx) : EReal := Ideal.div (x i - refMean x) (refStd x)

/-! ### The kernel's quantities, of the total S and the total of squares Q of the square array X -/

/-- The mean from the total. -/
def kerMean (S : EReal) : EReal := Ideal.div S cnt
/-- The deviation from the two totals: root of (mean of squares minus squared mean), not below the floor. -/
def kerStd (S Q : EReal) : EReal := max (Ideal.sqrt (Ideal.div Q cnt - kerMean S * kerMean S)) eps
/-- The normalized entry. -/
def kerOut (S Q : EReal) (a : EReal) : EReal := Ideal.div (a - kerMean S) (kerStd S Q)

end Cert.Spec

end
-- ==== Proof.ReduceValue.lean ====
/-
  What the reduction region computes, over the extended reals (every operation exact).

  The region walks the 4096 x 4096 array X in 8 blocks of 512 rows. Its two cells start at zero; at each block the
  first gains the block's sum and the second the block's sum of squares. A block's sum is taken in two stages — along
  each row, then down the column of row sums — which is the sum over all the block's entries. Entry (a, b) of block t
  is X (512 t + a, b), and every row r of X is row r mod 512 of block r / 512, so the eight block sums add up to
  the sum over all of X. Hence after the last block the cells hold S = sum X and Q = sum X^2, and the two numbers the
  region stores are S / N and max (sqrt (Q / N - (S / N)^2)) eps.
-/
import proofs.«136790_j4312147165694_2_alg».proof.Proof.RedDefI
import proofs.«136790_j4312147165694_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.HandValue

open Idealize.ShloMosaic Idealize.ShloMosaic.TcCoe Idealize.ShloMosaic.ValueIdx
open Cert.KernelIdeal Cert.KernelIdeal.Gen

/-- The sum along a row: the reduction over the second axis, read at row r, is the sum of that row's entries. -/
theorem rowSum_apply (y : FVec Ideal S512x4096 .f32) (hφ : FKind.Formats .f32)
    (hacc : (0x00000000#32 : BitVec 32) = FKind.add.neutral .f32 hφ) (r : Fin 512) :
    multiReduction (F := Ideal) .add [1] S512 y 0x00000000#32 reduces_S512x4096_S512 hφ hacc (ix1 r)
      = ∑ b : Fin 4096, y (ix2 r b) := by
  refine (Ideal.multiReduction_add_single y 0x00000000#32 reduces_S512x4096_S512 hφ hacc (ix1 r)).trans ?_
  refine Finset.sum_congr rfl fun b _ => congrArg y ?_
  funext a; match a with | ⟨0, _⟩ => rfl | ⟨1, _⟩ => rfl

/-- The sum down the one column: the reduction over the first axis of a 512 x 1 column is the sum of its entries. -/
theorem colSum_apply (z : FVec Ideal S512x1 .f32) (hφ : FKind.Formats .f32)
    (hacc : (0x00000000#32 : BitVec 32) = FKind.add.neutral .f32 hφ) (q : Fin 1) :
    multiReduction (F := Ideal) .add [0] S1 z 0x00000000#32 reduces_S512x1_S1 hφ hacc (ix1 q)
      = ∑ r : Fin 512, z (ix2 r q) := by
  refine (Ideal.multiReduction_add_single z 0x00000000#32 reduces_S512x1_S1 hφ hacc (ix1 q)).trans ?_
  refine Finset.sum_congr rfl fun r _ => congrArg z ?_
  funext a; match a with | ⟨0, _⟩ => rfl | ⟨1, _⟩ => rfl

/-- A vector of 512 entries viewed as a 512 x 1 column reads, at (r, q), entry r. -/
theorem cast_col_apply {α : Type} (v : S512.Idx → α) (h : S512.ShapeCasts S512x1) (r : Fin 512) (q : Fin 1) :
    shapeCast S512x1 v h (ix2 r q) = v (ix1 r) :=
  shapeCast_apply v h _ _ (by
    have hq : q.val = 0 := by omega
    rw [Shape.rowMajor_val_two, Shape.rowMajor_val_one]
    show r.val = r.val * 1 + q.val
    rw [hq, Nat.mul_one, Nat.add_zero])

/-- The block total as the kernel folds it — row sums, viewed as a column, summed down, viewed as a 1 x 1 cell —
    is the sum of all the block's entries. -/
theorem blockTotal_apply (y : FVec Ideal S512x4096 .f32) (hφ : FKind.Formats .f32)
    (hacc : (0x00000000#32 : BitVec 32) = FKind.add.neutral .f32 hφ) (u : S1x1.Idx) :
    shapeCast S1x1 (multiReduction (F := Ideal) .add [0] S1
        (shapeCast S512x1 (multiReduction (F := Ideal) .add [1] S512 y 0x00000000#32 reduces_S512x4096_S512 hφ hacc)
          shapeCasts_S512_S512x1) 0x00000000#32 reduces_S512x1_S1 hφ hacc) shapeCasts_S1_S1x1 u
      = ∑ i : S512x4096.Idx, y i := by
  obtain ⟨p, q, rfl⟩ : ∃ (p : Fin 1) (q : Fin 1), u = ix2 p q := ⟨u 0, u 1, eq_ix2 u⟩
  rw [shapeCast_a_1a_apply, colSum_apply, sum_idx2]
  refine Finset.sum_congr rfl fun r _ => ?_
  rw [cast_col_apply, rowSum_apply]

/-- One point's update of the running sum: the cell plus the sum of the block's entries. -/
theorem pay4_apply (x : Vec Ideal S512x4096 .f32) (a : Vec Ideal S1x1 .f32) (u : S1x1.Idx) :
    k0_pay4 (F := Ideal) x a u = a u + ∑ i : S512x4096.Idx, x i := by
  unfold k0_pay4 k0_pay3
  simp only [shapeCast_self]
  exact congrArg (a u + ·) (blockTotal_apply x _ _ u)

/-- One point's update of the running sum of squares: the cell plus the sum of the squares of the block's entries. -/
theorem pay5_apply (x : Vec Ideal S512x4096 .f32) (a : Vec Ideal S1x1 .f32) (u : S1x1.Idx) :
    k0_pay5 (F := Ideal) x a u = a u + ∑ i : S512x4096.Idx, x i * x i := by
  unfold k0_pay5 k0_pay3
  simp only [shapeCast_self]
  exact congrArg (a u + ·) (blockTotal_apply (mulf x x) _ _ u)

/-- Both cells start at zero. -/
theorem pay1_apply (u : S1x1.Idx) : k0_pay1 (F := Ideal) u = 0 := by
  unfold k0_pay1
  simp only [shapeCast_self]
  exact Ideal.ofBits_zero_f32
theorem pay2_apply (u : S1x1.Idx) : k0_pay2 (F := Ideal) u = 0 := by
  unfold k0_pay2
  simp only [shapeCast_self]
  exact Ideal.ofBits_zero_f32

variable (V : (c : Dev nD) → (b : Ref sig .tc) → Buf (Elt Ideal) ((c : Thread nD τ).loc b))

/-- The 4096 x 4096 array as the region finds it, read as a function into the extended reals. -/
abbrev arrX (c : Dev nD) : S4096x4096.Idx → EReal := V c main_v2

/-- The input window's block index at grid point t is (t, 0): the blocks run down the rows. -/
theorem idx_facts : ∀ t : Fin grid0.N, win0_0.index t (0 : Fin 2) = t.val ∧ win0_0.index t (1 : Fin 2) = 0 := by
  decide +kernel

/-- The input block at point t holds rows 512 t .. 512 t + 511 of the array: its entry (a, b) is the array's
    entry (512 t + a, b). -/
theorem iblk0_apply (c : Dev nD) (t : Fin cfg0.N) (x : S512x4096.Idx) (k : S4096x4096.Idx)
    (hk0 : (k 0).val = 512 * t.val + (x 0).val) (hk1 : (k 1).val = (x 1).val) :
    (Hand.iblk0 (F := Ideal) V c 0 t : Vec Ideal S512x4096 .f32) x = arrX V c k := by
  have hi := idx_facts t
  unfold Hand.iblk0
  rw [View.read_apply]
  show V c main_v2 _ = V c main_v2 _
  congr 1
  funext a
  apply Fin.ext
  match a with
  | ⟨0, _⟩ => show win0_0.index t 0 * 512 + 1 * (x 0).val = (k 0).val; rw [hi.1, hk0]; omega
  | ⟨1, _⟩ => show win0_0.index t 1 * 4096 + 1 * (x 1).val = (k 1).val; rw [hi.2, hk1]; omega

/-- A cell that starts at zero and gains, at each point, that point's amount holds after n points the sum of the
    first n amounts. -/
theorem fold_sum {N : Nat} (g : Fin N → EReal) (s : Nat → EReal) (h0 : s 0 = 0)
    (hs : ∀ n (h : n < N), s (n + 1) = s n + g ⟨n, h⟩) :
    ∀ n (hn : n ≤ N), s n = ∑ t : Fin n, g (Fin.castLE hn t)
  | 0, _ => by rw [h0]; rfl
  | n + 1, hn => by
    rw [hs n hn, fold_sum g s h0 hs n (Nat.le_of_succ_le hn), Fin.sum_univ_castSucc]
    rfl

/-- A sum over the 4096 rows taken as 8 runs of 512 consecutive rows. -/
theorem sum_rows_blocks {M : Type} [AddCommMonoid M] (f : Fin 4096 → M) :
    ∑ r : Fin 4096, f r = ∑ t : Fin 8, ∑ a : Fin 512, f ⟨512 * t.val + a.val, by omega⟩ := by
  rw [← Equiv.sum_comp (finProdFinEquiv (m := 8) (n := 512)) f, Fintype.sum_prod_type]
  refine Finset.sum_congr rfl fun t _ => Finset.sum_congr rfl fun a _ => congrArg f (Fin.ext ?_)
  show a.val + 512 * t.val = 512 * t.val + a.val
  omega

/-- The eight blocks together are the whole array: any entrywise quantity summed block by block is that quantity
    summed over the array. -/
theorem total_blocks (c : Dev nD) (φ : EReal → EReal) (hn : 8 ≤ cfg0.N) :
    ∑ t : Fin 8, ∑ i : S512x4096.Idx, φ (Hand.iblk0 (F := Ideal) V c 0 (Fin.castLE hn t) i)
      = ∑ j : S4096x4096.Idx, φ (arrX V c j) := by
  rw [sum_idx2 (fun j : S4096x4096.Idx => φ (arrX V c j)),
    sum_rows_blocks (fun r : Fin 4096 => ∑ b : Fin 4096, φ (arrX V c (ix2 r b)))]
  refine Finset.sum_congr rfl fun t _ => ?_
  rw [sum_idx2]
  refine Finset.sum_congr rfl fun a _ => Finset.sum_congr rfl fun b _ => congrArg φ ?_
  exact iblk0_apply V c (Fin.castLE hn t) (ix2 a b) _ rfl rfl

/-- After all 8 points the first cell holds the sum of the array's entries … -/
theorem accS (c : Dev nD) (u : S1x1.Idx) :
    (Hand.acc0 (F := Ideal) V c 8).1 u = ∑ j : S4096x4096.Idx, arrX V c j := by
  have hn : 8 ≤ cfg0.N := N_0.ge
  refine (fold_sum (fun t : Fin cfg0.N => ∑ i : S512x4096.Idx, (fun v : EReal => v) (Hand.iblk0 (F := Ideal) V c 0 t i))
    (fun n => (Hand.acc0 (F := Ideal) V c n).1 u) ?_ ?_ 8 hn).trans (total_blocks V c (fun v => v) hn)
  · show (Hand.acc0 (F := Ideal) V c 0).1 u = 0
    rw [Hand.acc0_zero]; exact pay1_apply u
  · intro n h
    show (Hand.acc0 (F := Ideal) V c (n + 1)).1 u = _
    rw [Hand.acc0_succ V c n h]; exact pay4_apply _ _ u

/-- … and the second the sum of their squares. -/
theorem accQ (c : Dev nD) (u : S1x1.Idx) :
    (Hand.acc0 (F := Ideal) V c 8).2 u
      = ∑ j : S4096x4096.Idx, arrX V c j * arrX V c j := by
  have hn : 8 ≤ cfg0.N := N_0.ge
  refine (fold_sum (fun t : Fin cfg0.N => ∑ i : S512x4096.Idx,
      (fun v : EReal => v * v) (Hand.iblk0 (F := Ideal) V c 0 t i))
    (fun n => (Hand.acc0 (F := Ideal) V c n).2 u) ?_ ?_ 8 hn).trans (total_blocks V c (fun v => v * v) hn)
  · show (Hand.acc0 (F := Ideal) V c 0).2 u = 0
    rw [Hand.acc0_zero]; exact pay2_apply u
  · intro n h
    show (Hand.acc0 (F := Ideal) V c (n + 1)).2 u = _
    rw [Hand.acc0_succ V c n h]; exact pay5_apply _ _ u

/-- The mean the last point stores is the array's total divided by the count. -/
theorem mean0_apply (c : Dev nD) (u : S1x1.Idx) :
    Hand.mean0 (F := Ideal) V c u = Cert.Spec.kerMean (∑ j : S4096x4096.Idx, arrX V c j) := by
  unfold Hand.mean0 k0_pay6
  rw [divf_apply, accS V c u]
  rfl

/-- The deviation the last point stores: the root of (total of squares over the count, less the squared mean), not
    below the floor. -/
theorem std0_apply (c : Dev nD) (u : S1x1.Idx) :
    Hand.std0 (F := Ideal) V c u
      = Cert.Spec.kerStd (∑ j : S4096x4096.Idx, arrX V c j) (∑ j : S4096x4096.Idx, arrX V c j * arrX V c j) := by
  unfold Hand.std0 k0_pay7 k0_pay6
  rw [maximumf_apply]
  show max (Ideal.sqrt (Ideal.div ((Hand.acc0 (F := Ideal) V c 8).2 u) _
    - Ideal.div ((Hand.acc0 (F := Ideal) V c 8).1 u) _ * Ideal.div ((Hand.acc0 (F := Ideal) V c 8).1 u) _)) _ = _
  rw [accS V c u, accQ V c u]
  rfl

end Cert.KernelIdeal.HandValue
end
-- ==== Proof.HostDef.lean ====
/-
  The host-side arithmetic of the two programs as pure functions of the two argument arrays, stated once.

  takeOut: the table looked up at the index column, as jnp.take prints it: an index below zero is shifted up by the
  table's length 100000; an entry whose shifted index lies in [0, 99999] is the table's entry there (the gather clamps,
  which within that range changes nothing), any other entry is the fill word 0x7FC00000.
  tailOut: the reference's normalization of a column: mean, mean squared deviation, root, floor, quotient.
-/
import Idealize.ShloMosaic.PureOps
import Idealize.ShloMosaic.PureOps.Ideal
import Idealize.ShloMosaic.Lib.StableHlo
import proofs.«136790_j4312147165694_2_alg».proof.Proof.Spec

noncomputable section

namespace Cert.Spec

open Idealize.ShloMosaic

abbrev STab : Shape := ⟨2, ![100000, 1]⟩
abbrev SVec : Shape := ⟨1, ![16777216]⟩
abbrev S0 : Shape := ⟨0, ![]⟩
abbrev SOne : Shape := ⟨1, ![1]⟩
abbrev S11 : Shape := ⟨2, ![1, 1]⟩

theorem casts_SCol_SVec : SCol.ShapeCasts SVec := by decide
theorem casts_SCol_SSq : SCol.ShapeCasts SSq := by decide
theorem casts_SSq_SCol : SSq.ShapeCasts SCol := by decide
theorem bc_S0_SVec : S0.BroadcastsInDim SVec (![] : Fin 0 → Fin SVec.rank) := by decide
theorem bc_SVec_SCol : SVec.BroadcastsInDim SCol (![0] : Fin 1 → Fin SCol.rank) := by decide
theorem bc_S0_SCol : S0.BroadcastsInDim SCol (![] : Fin 0 → Fin SCol.rank) := by decide
theorem bc_SOne_S11 : SOne.BroadcastsInDim S11 (![1] : Fin 1 → Fin S11.rank) := by decide
theorem bc_S11_SCol : S11.BroadcastsInDim SCol (![0, 1] : Fin 2 → Fin SCol.rank) := by decide
theorem bc_S0_SOne : S0.BroadcastsInDim SOne (![] : Fin 0 → Fin SOne.rank) := by decide
theorem red_SCol_SVec : SCol.ReducesTo [1] SVec := by decide
theorem red_SCol_SOne : SCol.ReducesTo [0] SOne := by decide
theorem h_S0 : 0 < S0.numel := by decide
theorem takeWF : GatherDims.WF STab SCol SCol [1] [0] [] [0] [] 1 ![1, 1] := by decide

/-- The gather of single entries of the [100000, 1] table at a column of row indices. -/
def takeDims : GatherDims STab SCol SCol where
  offsetDims := [1]
  collapsedSliceDims := [0]
  operandBatchingDims := []
  startIndicesBatchingDims := []
  startIndexMap := [0]
  indexVectorDim := 1
  sliceSizes := ![1, 1]
  wf := takeWF

variable {F : FTy → Type} [FloatOps F]

/-- The shifted index column: an index below zero has the table's length added. -/
def takeIdx (idx : IVec SCol 32) : IVec SCol 32 :=
  let v0 : IVec SVec 32 := shapeCast SVec idx casts_SCol_SVec
  let c : IVec S0 32 := constantI S0 32 0#32
  let t0 : IVec SVec 32 := broadcastInDim SVec ![] bc_S0_SVec c
  let t1 : IVec SVec 1 := cmpi .slt v0 t0
  let c0 : IVec S0 32 := constantI S0 32 100000#32
  let t2 : IVec SVec 32 := broadcastInDim SVec ![] bc_S0_SVec c0
  let t3 : IVec SVec 32 := addi v0 t2
  let t4 : IVec SVec 32 := select t1 t3 v0
  broadcastInDim SCol ![0] bc_SVec_SCol t4

/-- Which entries' shifted index lies in [0, 99999]. -/
def takeMask (t5 : IVec SCol 32) : IVec SCol 1 :=
  let c1 : IVec SOne 32 := constantI SOne 32 99999#32
  let c2 : IVec S0 32 := constantI S0 32 0#32
  let t6 : IVec SCol 32 := broadcastInDim SCol ![] bc_S0_SCol c2
  let t7 : IVec SCol 1 := cmpi .sge t5 t6
  let t8 : IVec S11 32 := broadcastInDim S11 ![1] bc_SOne_S11 c1
  let t9 : IVec SCol 32 := broadcastInDim SCol ![0, 1] bc_S11_SCol t8
  let t10 : IVec SCol 1 := cmpi .sle t5 t9
  let t11 : IVec SCol 1 := andi t7 t10
  let c3 : IVec S0 1 := constantI S0 1 1#1
  let t12 : IVec SVec 1 := Host.reduce IntOp.andi t11 c3 red_SCol_SVec h_S0
  broadcastInDim SCol ![0] bc_SVec_SCol t12

/-- The looked-up column. -/
def takeOut (idx : IVec SCol 32) (tab : FVec F STab .f32) : FVec F SCol .f32 :=
  let t5 : IVec SCol 32 := takeIdx idx
  let t13 : FVec F SCol .f32 := Host.gather takeDims tab t5
  let t14 : IVec SCol 1 := takeMask t5
  let cst : FVec F S0 .f32 := constant S0 .f32 0x7FC00000#32
  let t15 : FVec F SCol .f32 := broadcastInDim SCol ![] bc_S0_SCol cst
  select t14 t13 t15

/-- The reference's normalization of a column. -/
def tailOut (x : FVec F SCol .f32) : FVec F SCol .f32 :=
  let cst : FVec F S0 .f32 := constant S0 .f32 0x00000000#32
  let v2 : FVec F SOne .f32 := Host.reduceAdd x cst red_SCol_SOne h_S0
  let cst0 : FVec F S0 .f32 := constant S0 .f32 0x4B800000#32
  let v3 : FVec F SOne .f32 := broadcastInDim SOne ![] bc_S0_SOne cst0
  let v4 : FVec F SOne .f32 := Host.divf v2 v3
  let v5 : FVec F S11 .f32 := broadcastInDim S11 ![1] bc_SOne_S11 v4
  let v6 : FVec F SCol .f32 := broadcastInDim SCol ![0, 1] bc_S11_SCol v5
  let v7 : FVec F SCol .f32 := subf x v6
  let v8 : FVec F SCol .f32 := mulf v7 v7
  let cst1 : FVec F S0 .f32 := constant S0 .f32 0x00000000#32
  let v9 : FVec F SOne .f32 := Host.reduceAdd v8 cst1 red_SCol_SOne h_S0
  let cst2 : FVec F S0 .f32 := constant S0 .f32 0x4B800000#32
  let v10 : FVec F SOne .f32 := broadcastInDim SOne ![] bc_S0_SOne cst2
  let v11 : FVec F SOne .f32 := Host.divf v9 v10
  let v12 : FVec F SOne .f32 := Host.sqrt v11
  let cst3 : FVec F S0 .f32 := constant S0 .f32 0x2EDBE6FF#32
  let v13 : FVec F SOne .f32 := broadcastInDim SOne ![] bc_S0_SOne cst3
  let v14 : FVec F SOne .f32 := maximumf v12 v13
  let v15 : FVec F S11 .f32 := broadcastInDim S11 ![1] bc_SOne_S11 v4
  let v16 : FVec F SCol .f32 := broadcastInDim SCol ![0, 1] bc_S11_SCol v15
  let v17 : FVec F SCol .f32 := subf x v16
  let v18 : FVec F S11 .f32 := broadcastInDim S11 ![1] bc_SOne_S11 v14
  let v19 : FVec F SCol .f32 := broadcastInDim SCol ![0, 1] bc_S11_SCol v18
  Host.divf v17 v19

/-- The column laid out as the square array, row-major, and back. -/
def toSq {α : Type} (x : SCol.Idx → α) : SSq.Idx → α := shapeCast SSq x casts_SCol_SSq
def toCol {α : Type} (X : SSq.Idx → α) : SCol.Idx → α := shapeCast SCol X casts_SSq_SCol

end Cert.Spec

end
-- ==== Proof.TakeI.lean ====
/-
  The looked-up column, read off the run.

  Before the first kernel region the host lays the index column out as a vector, shifts the negative indices up
  by the table's length, looks the table up at the shifted indices, and replaces by the fill word every entry
  whose shifted index falls outside the table. What the buffer of the looked-up column holds after these
  operations is that composition applied to the two argument arrays as launched: the function takeOut.
-/
import proofs.«136790_j4312147165694_2_alg».proof.Proof.RunI
import proofs.«136790_j4312147165694_2_alg».proof.Proof.HostDef
import Idealize.ShloMosaic.Lib.StableHlo.Run
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## Contents seen through a typed reference -/

/-- Contents carried to a buffer's own type and back are the contents. -/
theorem ofBuf_toBuf {sg : RefSig} {Val : EltTy → Type} {T : BufTy} (x : StableHlo.TRef sg T) (v : T.Contents Val) :
    x.ofBuf (x.toBuf v) = v := by
  obtain ⟨r, h, h1, h2⟩ := x
  subst h
  rfl

/-! ## The lookup, in the program's own names -/

/-- The host's lookup as one function of the index column and the table, spelled with the program's own names
    for the shapes: lay the column out as a vector; add the table's length 100000 to every index below zero; lay
    the shifted indices out as a column again; look the table up at them; and replace by the fill word every entry
    whose shifted index is not in [0, 99999]. -/
def takeK (idx : IVec S16777216x1 32) (tab : FVec F S100000x1 .f32) : FVec F S16777216x1 .f32 :=
  let v0 : IVec S16777216 32 := shapeCast S16777216 idx shapeCasts_S16777216x1_S16777216
  let c : IVec S_ 32 := constantI S_ 32 0#32
  let t0 : IVec S16777216 32 := broadcastInDim S16777216 ![] bcast_S_S16777216 c
  let t1 : IVec S16777216 1 := cmpi .slt v0 t0
  let c0 : IVec S_ 32 := constantI S_ 32 100000#32
  let t2 : IVec S16777216 32 := broadcastInDim S16777216 ![] bcast_S_S16777216 c0
  let t3 : IVec S16777216 32 := addi v0 t2
  let t4 : IVec S16777216 32 := select t1 t3 v0
  let t5 : IVec S16777216x1 32 := broadcastInDim S16777216x1 ![0] bcast_S16777216_S16777216x1_0 t4
  let c1 : IVec S1 32 := constantI S1 32 99999#32
  let c2 : IVec S_ 32 := constantI S_ 32 0#32
  let t6 : IVec S16777216x1 32 := broadcastInDim S16777216x1 ![] bcast_S_S16777216x1 c2
  let t7 : IVec S16777216x1 1 := cmpi .sge t5 t6
  let t8 : IVec S1x1 32 := broadcastInDim S1x1 ![1] bcast_S1_S1x1_1 c1
  let t9 : IVec S16777216x1 32 := broadcastInDim S16777216x1 ![0, 1] bcast_S1x1_S16777216x1_0_1 t8
  let t10 : IVec S16777216x1 1 := cmpi .sle t5 t9
  let t11 : IVec S16777216x1 1 := andi t7 t10
  let c3 : IVec S_ 1 := constantI S_ 1 1#1
  let t12 : IVec S16777216 1 := Host.reduce IntOp.andi t11 c3 reducesTo_S16777216x1_S16777216_d1 h_S_
  let t13 : FVec F S16777216x1 .f32 := Host.gather gather_S100000x1_S16777216x1_S16777216x1_1_0_n_n_0_1_11 tab t5
  let t14 : IVec S16777216x1 1 := broadcastInDim S16777216x1 ![0] bcast_S16777216_S16777216x1_0 t12
  let cst : FVec F S_ .f32 := constant S_ .f32 0x7FC00000#32
  let t15 : FVec F S16777216x1 .f32 := broadcastInDim S16777216x1 ![] bcast_S_S16777216x1 cst
  select t14 t13 t15

/-- It is the function takeOut: the two spellings differ only in the names given to the shapes and to the
    side conditions on them. -/
theorem takeK_eq (idx : IVec S16777216x1 32) (tab : FVec F S100000x1 .f32) :
    takeK idx tab = Cert.Spec.takeOut (F := F) idx tab := by
  unfold takeK Cert.Spec.takeOut Cert.Spec.takeIdx Cert.Spec.takeMask
  rfl

/-! ## The buffer of the looked-up column after the first two host stretches -/

set_option maxHeartbeats 2000000 in
/-- Reading the operations one by one, each result at its own buffer is its function of its operands' buffers and
    every other buffer is untouched; composed, the looked-up column's buffer holds takeK of the launch contents of the
    two arguments. Every intermediate value passes through a buffer of its own type, which changes nothing. -/
theorem W2_main_v1_K (m : (ℓ : Loc nD τ sig) → Buf (Elt F) ℓ) (ρ : Dev nD → PrngReg) (c : Dev nD) :
    (W2 m ρ c (Proc.devRef .tc main_v1) : S16777216x1.Idx → F .f32)
      = takeK (m ((c : Thread nD τ).loc main_arg0)) (m ((c : Thread nD τ).loc main_arg1)) := by
  have hvec : ∀ X : main_v0.ty.Contents (Elt F),
      (StableHlo.TRef.of main_v0 : StableHlo.TRef sig ⟨S16777216, .i32⟩).ofBuf X = X := fun _ => rfl
  have htab : ∀ X : main_arg1.ty.Contents (Elt F),
      (StableHlo.TRef.of main_arg1 : StableHlo.TRef sig ⟨S100000x1, .f32⟩).ofBuf X = X := fun _ => rfl
  have hout : ∀ Z : FVec F S16777216x1 .f32,
      (StableHlo.TRef.of main_v1 : StableHlo.TRef sig ⟨S16777216x1, .f32⟩).toBuf (Val := Elt F) Z = Z := fun _ => rfl
  dsimp only [W2, W1]
  after_results
  simp only [ofBuf_toBuf, hvec, htab]
  refine (hout _).trans ?_
  rfl

/-- After the first two host stretches the looked-up column is jnp.take of the two argument arrays. -/
theorem W2_main_v1 (m : (ℓ : Loc nD τ sig) → Buf (Elt F) ℓ) (ρ : Dev nD → PrngReg) (c : Dev nD) :
    (W2 m ρ c (Proc.devRef .tc main_v1) : S16777216x1.Idx → F .f32)
      = Cert.Spec.takeOut (m ((c : Thread nD τ).loc main_arg0)) (m ((c : Thread nD τ).loc main_arg1)) :=
  (W2_main_v1_K m ρ c).trans (takeK_eq _ _)

end Cert.KernelIdeal.Hand

end
-- ==== Proof.Relayout.lean ====
/-
  The row-major relayout between the column [2^24, 1] and the square array [4096, 4096].

  Laying the column out as the square array reads the column at the index with the same row-major position; this
  matching of indices is a bijection (both shapes have 2^24 elements). Hence a sum over the square array of the
  relaid-out column is the sum over the column, in another order; applying a function entrywise commutes with the
  relayout; and laying out and back is the identity.
-/
import proofs.«136790_j4312147165694_2_alg».proof.Proof.HostDef
import Idealize.ShloMosaic.Lib.Pipeline.Value

noncomputable section

namespace Cert.Relayout

open Idealize.ShloMosaic Cert.Spec

/-- The relaid-out column at j is the column at the index matched with j. -/
theorem toSq_apply {α : Type} (x : SCol.Idx → α) (j : SSq.Idx) :
    toSq x j = x (Shape.reshapeEquiv casts_SCol_SSq j) := rfl

/-- The sum over the square array is the sum over the column: the matching of indices is a bijection. -/
theorem sum_toSq {M : Type} [AddCommMonoid M] (x : Cert.Spec.SCol.Idx → M) : ∑ j : Cert.Spec.SSq.Idx, Cert.Spec.toSq x j = ∑ i : Cert.Spec.SCol.Idx, x i :=
  Equiv.sum_comp (Shape.reshapeEquiv casts_SCol_SSq) x

/-- A function applied entrywise before the relayout is the function applied after it. -/
theorem toSq_comp {α β : Type} (g : α → β) (x : Cert.Spec.SCol.Idx → α) (j : Cert.Spec.SSq.Idx) : Cert.Spec.toSq (fun i => g (x i)) j = g (Cert.Spec.toSq x j) := rfl

/-- Laying the column out as the square array and back gives the column. -/
theorem toCol_toSq {α : Type} (x : Cert.Spec.SCol.Idx → α) : Cert.Spec.toCol (Cert.Spec.toSq x) = x :=
  shapeCast_shapeCast x casts_SCol_SSq casts_SSq_SCol

end Cert.Relayout

end
-- ==== Proof.ValueI.lean ====
/-
  The kernel program's result, read at the extended reals, as one function of the two argument arrays.

  Write x for the looked-up column (the table at the index column) and X for x laid out row-major as the 4096 x 4096
  array. The reduction region leaves the mean m' = S / N and the deviation s' = max (sqrt (Q / N - m' m')) eps, S and Q
  the sums of X and of its squares over all entries; the normalization region leaves (X - m') / s' entrywise; the
  last host operation lays that array out as a column again.
-/
import proofs.«136790_j4312147165694_2_alg».proof.Proof.RegsI
import proofs.«136790_j4312147165694_2_alg».proof.Proof.NormValue
import proofs.«136790_j4312147165694_2_alg».proof.Proof.ReduceValue
import proofs.«136790_j4312147165694_2_alg».proof.Proof.TakeI
import proofs.«136790_j4312147165694_2_alg».proof.Proof.HostDef
import proofs.«136790_j4312147165694_2_alg».proof.Proof.Relayout

set_option maxRecDepth 16384

noncomputable section

namespace Cert.KernelIdeal.HandValue

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-- The looked-up column, of the launch memory's two argument arrays. -/
abbrev colX (c : Dev nD) : Cert.Spec.SCol.Idx → EReal :=
  Cert.Spec.takeOut (F := Ideal) (m ((c : Thread nD τ).loc main_arg0)) (m ((c : Thread nD τ).loc main_arg1))

/-- The square array both regions read is the looked-up column laid out row-major. -/
theorem arrX_V3 (c : Dev nD) : arrX (Hand.V3 m ρ) c = Cert.Spec.toSq (colX m c) := by
  show (Hand.V3 m ρ c main_v2 : S4096x4096.Idx → Ideal .f32) = _
  rw [Hand.V3_main_v2, Hand.W2_main_v1]
  rfl

/-- The sum and the sum of squares of the square array. -/
abbrev totS (c : Dev nD) : EReal := ∑ j : Cert.Spec.SSq.Idx, Cert.Spec.toSq (colX m c) j
abbrev totQ (c : Dev nD) : EReal := ∑ j : Cert.Spec.SSq.Idx, Cert.Spec.toSq (colX m c) j * Cert.Spec.toSq (colX m c) j

/-- The normalization region finds the square array unchanged, -/
theorem V4_X (c : Dev nD) : (Hand.V4 Hand.regs0 m ρ c main_v2 : S4096x4096.Idx → EReal) = Cert.Spec.toSq (colX m c) := by
  rw [Hand.V4_main_v2 Hand.regs0 m ρ c (fun n => Hand.arrAt0_in (Hand.V3 m ρ) c n)]
  exact arrX_V3 m ρ c

/-- the mean at S / N, -/
theorem V4_mean (c : Dev nD) (u : S1x1.Idx) :
    (Hand.V4 Hand.regs0 m ρ c main_v3_0 : S1x1.Idx → EReal) u = Cert.Spec.kerMean (totS m c) := by
  rw [Hand.V4_main_v3_0 Hand.regs0 m ρ c]
  refine (Hand.final0_1 (Hand.V3 m ρ) c u).trans ?_
  rw [mean0_apply (Hand.V3 m ρ) c u, arrX_V3 m ρ c]

/-- and the deviation at max (sqrt (Q / N - (S / N)^2)) eps. -/
theorem V4_std (c : Dev nD) (u : S1x1.Idx) :
    (Hand.V4 Hand.regs0 m ρ c main_v3_1 : S1x1.Idx → EReal) u = Cert.Spec.kerStd (totS m c) (totQ m c) := by
  rw [Hand.V4_main_v3_1 Hand.regs0 m ρ c]
  refine (Hand.final0_2 (Hand.V3 m ρ) c u).trans ?_
  rw [std0_apply (Hand.V3 m ρ) c u, arrX_V3 m ρ c]

/-- Entrywise (X - mean) / deviation, with the mean and the deviation those of the totals, is the kernel's normalization. -/
theorem normOf_eq (X X' : S4096x4096.Idx → EReal) (mean std : S1x1.Idx → EReal) (u : S1x1.Idx) (S Q : EReal)
    (hX : X = X') (hm : mean u = Cert.Spec.kerMean S) (hs : std u = Cert.Spec.kerStd S Q) :
    normOf X mean std u = fun j => Cert.Spec.kerOut S Q (X' j) := by
  subst hX
  funext j
  unfold normOf
  rw [hm, hs]
  rfl

/-- THE RESULT: the normalized square array laid out as a column. -/
theorem result (c : Dev nD) :
    (Hand.W6 Hand.regs0 Hand.regs1 m ρ c (Proc.devRef .tc main_v5) : Cert.Spec.SCol.Idx → EReal)
      = Cert.Spec.toCol (fun j => Cert.Spec.kerOut (totS m c) (totQ m c) (Cert.Spec.toSq (colX m c) j)) := by
  rw [Hand.W6_main_v5]
  refine congrArg (fun Y : S4096x4096.Idx → EReal => Cert.Spec.toCol Y) ?_
  let u : S1x1.Idx := ValueIdx.ix2 (0 : Fin 1) (0 : Fin 1)
  refine (final1_3_fun (Hand.V4 Hand.regs0 m ρ) c u).trans ?_
  exact normOf_eq _ _ _ _ u _ _ (V4_X m ρ c) (V4_mean m ρ c u) (V4_std m ρ c u)

end Cert.KernelIdeal.HandValue

end
-- ==== Proof.RefRun.lean ====
/-
  The reference's run, written out.

  The reference is a straight line of array operations: the index column is flattened; the table is looked up at it
  (twenty-three operations: a negative index is shifted up by the table's length, the shifted index is tested against
  the table's range, the table is gathered, and an entry out of range is replaced by the fill word); then the
  looked-up column x is normalized (twenty-four operations: the sum of x from zero, the mean m = sum / N, the
  deviations x - m, their squares, the sum of those from zero, its quotient by N, the root, the floor, and the
  quotient (x - m) / max (root) floor). Every weakly fair execution runs the line to its end; what the result
  array then holds is the composition of the operations' functions applied to the two argument arrays, which is the
  normalization of the looked-up column, and the argument arrays are never written.
-/
import proofs.«136790_j4312147165694_2_alg».proof.Proof.Gen.ReferenceIdeal
import proofs.«136790_j4312147165694_2_alg».proof.Proof.HostDef
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's forty-eight operations in order: the flattening of the index column, the twenty-three of the
    table lookup (the choice between the index and the shifted index in its place among them), the twenty-four of the
    normalization. -/
abbrev ops : List (HloOp τ sig (Elt F)) :=
  [
    StableHlo.reshape main_arg0 main_v0 rfl shapeCasts_S16777216x1_S16777216,
    StableHlo.TRef.nullary main_call0.c (constantI S_ 32 0#32),
    StableHlo.TRef.unary main_call0.c main_call0.v0 (broadcastInDim S16777216 ![] bcast_S_S16777216),
    StableHlo.TRef.binary (.of main_v0) main_call0.v0 main_call0.v1 (cmpi .slt),
    StableHlo.TRef.nullary main_call0.c_0 (constantI S_ 32 100000#32),
    StableHlo.TRef.unary main_call0.c_0 main_call0.v2 (broadcastInDim S16777216 ![] bcast_S_S16777216),
    StableHlo.TRef.binary (.of main_v0) main_call0.v2 main_call0.v3 addi,
    StableHlo.TRef.ternary main_call0.v1 main_call0.v3 (.of main_v0) main_call0.call0.v0 select,
    StableHlo.TRef.unary main_call0.call0.v0 main_call0.v5 (broadcastInDim S16777216x1 ![0] bcast_S16777216_S16777216x1_0),
    StableHlo.TRef.nullary main_call0.c_1 (constantI S1 32 99999#32),
    StableHlo.TRef.nullary main_call0.c_2 (constantI S_ 32 0#32),
    StableHlo.TRef.unary main_call0.c_2 main_call0.v6 (broadcastInDim S16777216x1 ![] bcast_S_S16777216x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16777216x1 ![0, 1] bcast_S1x1_S16777216x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16777216x1_S16777216_d1 h_S_),
    StableHlo.TRef.binary (.of main_arg1) main_call0.v5 main_call0.v13 (fun x i => Host.gather gather_S100000x1_S16777216x1_S16777216x1_1_0_n_n_0_1_11 x i),
    StableHlo.TRef.unary main_call0.v12 main_call0.v14 (broadcastInDim S16777216x1 ![0] bcast_S16777216_S16777216x1_0),
    StableHlo.TRef.nullary main_call0.cst (constant S_ .f32 0x7FC00000#32),
    StableHlo.TRef.unary main_call0.cst main_call0.v15 (broadcastInDim S16777216x1 ![] bcast_S_S16777216x1),
    StableHlo.TRef.ternary main_call0.v14 main_call0.v13 main_call0.v15 main_call0.v16 select,
    StableHlo.nullary main_cst (constant S_ .f32 0x00000000#32),
    StableHlo.binary main_v1 main_cst main_v2 ((fun x v => Host.reduceAdd x v reducesTo_S16777216x1_S1_d0 h_S_) : (⟨S16777216x1, .f32⟩ : BufTy).Contents (Elt F) → (⟨S_, .f32⟩ : BufTy).Contents (Elt F) → (⟨S1, .f32⟩ : BufTy).Contents (Elt F)),
    StableHlo.nullary main_cst_0 (constant S_ .f32 0x4B800000#32),
    StableHlo.unary main_cst_0 main_v3 (broadcastInDim S1 ![] bcast_S_S1 : (⟨S_, .f32⟩ : BufTy).Contents (Elt F) → (⟨S1, .f32⟩ : BufTy).Contents (Elt F)),
    StableHlo.binary main_v2 main_v3 main_v4 (Host.divf : (⟨S1, .f32⟩ : BufTy).Contents (Elt F) → (⟨S1, .f32⟩ : BufTy).Contents (Elt F) → (⟨S1, .f32⟩ : BufTy).Contents (Elt F)),
    StableHlo.unary main_v4 main_v5 (broadcastInDim S1x1 ![1] bcast_S1_S1x1_1 : (⟨S1, .f32⟩ : BufTy).Contents (Elt F) → (⟨S1x1, .f32⟩ : BufTy).Contents (Elt F)),
    StableHlo.unary main_v5 main_v6 (broadcastInDim S16777216x1 ![0, 1] bcast_S1x1_S16777216x1_0_1 : (⟨S1x1, .f32⟩ : BufTy).Contents (Elt F) → (⟨S16777216x1, .f32⟩ : BufTy).Contents (Elt F)),
    StableHlo.binary main_v1 main_v6 main_v7 (subf : (⟨S16777216x1, .f32⟩ : BufTy).Contents (Elt F) → (⟨S16777216x1, .f32⟩ : BufTy).Contents (Elt F) → (⟨S16777216x1, .f32⟩ : BufTy).Contents (Elt F)),
    StableHlo.binary main_v7 main_v7 main_v8 (mulf : (⟨S16777216x1, .f32⟩ : BufTy).Contents (Elt F) → (⟨S16777216x1, .f32⟩ : BufTy).Contents (Elt F) → (⟨S16777216x1, .f32⟩ : BufTy).Contents (Elt F)),
    StableHlo.nullary main_cst_1 (constant S_ .f32 0x00000000#32),
    StableHlo.binary main_v8 main_cst_1 main_v9 ((fun x v => Host.reduceAdd x v reducesTo_S16777216x1_S1_d0 h_S_) : (⟨S16777216x1, .f32⟩ : BufTy).Contents (Elt F) → (⟨S_, .f32⟩ : BufTy).Contents (Elt F) → (⟨S1, .f32⟩ : BufTy).Contents (Elt F)),
    StableHlo.nullary main_cst_2 (constant S_ .f32 0x4B800000#32),
    StableHlo.unary main_cst_2 main_v10 (broadcastInDim S1 ![] bcast_S_S1 : (⟨S_, .f32⟩ : BufTy).Contents (Elt F) → (⟨S1, .f32⟩ : BufTy).Contents (Elt F)),
    StableHlo.binary main_v9 main_v10 main_v11 (Host.divf : (⟨S1, .f32⟩ : BufTy).Contents (Elt F) → (⟨S1, .f32⟩ : BufTy).Contents (Elt F) → (⟨S1, .f32⟩ : BufTy).Contents (Elt F)),
    StableHlo.unary main_v11 main_v12 (Host.sqrt : (⟨S1, .f32⟩ : BufTy).Contents (Elt F) → (⟨S1, .f32⟩ : BufTy).Contents (Elt F)),
    StableHlo.nullary main_cst_3 (constant S_ .f32 0x2EDBE6FF#32),
    StableHlo.unary main_cst_3 main_v13 (broadcastInDim S1 ![] bcast_S_S1 : (⟨S_, .f32⟩ : BufTy).Contents (Elt F) → (⟨S1, .f32⟩ : BufTy).Contents (Elt F)),
    StableHlo.binary main_v12 main_v13 main_v14 (maximumf : (⟨S1, .f32⟩ : BufTy).Contents (Elt F) → (⟨S1, .f32⟩ : BufTy).Contents (Elt F) → (⟨S1, .f32⟩ : BufTy).Contents (Elt F)),
    StableHlo.unary main_v4 main_v15 (broadcastInDim S1x1 ![1] bcast_S1_S1x1_1 : (⟨S1, .f32⟩ : BufTy).Contents (Elt F) → (⟨S1x1, .f32⟩ : BufTy).Contents (Elt F)),
    StableHlo.unary main_v15 main_v16 (broadcastInDim S16777216x1 ![0, 1] bcast_S1x1_S16777216x1_0_1 : (⟨S1x1, .f32⟩ : BufTy).Contents (Elt F) → (⟨S16777216x1, .f32⟩ : BufTy).Contents (Elt F)),
    StableHlo.binary main_v1 main_v16 main_v17 (subf : (⟨S16777216x1, .f32⟩ : BufTy).Contents (Elt F) → (⟨S16777216x1, .f32⟩ : BufTy).Contents (Elt F) → (⟨S16777216x1, .f32⟩ : BufTy).Contents (Elt F)),
    StableHlo.unary main_v14 main_v18 (broadcastInDim S1x1 ![1] bcast_S1_S1x1_1 : (⟨S1, .f32⟩ : BufTy).Contents (Elt F) → (⟨S1x1, .f32⟩ : BufTy).Contents (Elt F)),
    StableHlo.unary main_v18 main_v19 (broadcastInDim S16777216x1 ![0, 1] bcast_S1x1_S16777216x1_0_1 : (⟨S1x1, .f32⟩ : BufTy).Contents (Elt F) → (⟨S16777216x1, .f32⟩ : BufTy).Contents (Elt F)),
    StableHlo.binary main_v17 main_v19 main_v20 (Host.divf : (⟨S16777216x1, .f32⟩ : BufTy).Contents (Elt F) → (⟨S16777216x1, .f32⟩ : BufTy).Contents (Elt F) → (⟨S16777216x1, .f32⟩ : BufTy).Contents (Elt F)) ]

set_option maxRecDepth 1024 in
/-- The reference is that straight line: with the lookup and the choice unfolded where they are called, both sides are one
    chain of steps once the sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches arrays of the program only. -/
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., binary_bufs_sub .., nullary_bufs_sub .., unary_bufs_sub .., binary_bufs_sub .., unary_bufs_sub ..,
    unary_bufs_sub .., binary_bufs_sub .., binary_bufs_sub .., nullary_bufs_sub .., binary_bufs_sub .., nullary_bufs_sub ..,
    unary_bufs_sub .., binary_bufs_sub .., unary_bufs_sub .., nullary_bufs_sub .., unary_bufs_sub .., binary_bufs_sub ..,
    unary_bufs_sub .., unary_bufs_sub .., binary_bufs_sub .., unary_bufs_sub .., unary_bufs_sub .., binary_bufs_sub ..⟩

/-- The line in pieces: the flattening and the shifted index column (nine operations); the two range tests and their
    conjunction (nine); the conjunction over the unit axis (one); the gather, the fill and the choice (five); the
    normalization (twenty-four). -/
abbrev opsI : List (HloOp τ sig (Elt F)) :=
  [
    StableHlo.reshape main_arg0 main_v0 rfl shapeCasts_S16777216x1_S16777216,
    StableHlo.TRef.nullary main_call0.c (constantI S_ 32 0#32),
    StableHlo.TRef.unary main_call0.c main_call0.v0 (broadcastInDim S16777216 ![] bcast_S_S16777216),
    StableHlo.TRef.binary (.of main_v0) main_call0.v0 main_call0.v1 (cmpi .slt),
    StableHlo.TRef.nullary main_call0.c_0 (constantI S_ 32 100000#32),
    StableHlo.TRef.unary main_call0.c_0 main_call0.v2 (broadcastInDim S16777216 ![] bcast_S_S16777216),
    StableHlo.TRef.binary (.of main_v0) main_call0.v2 main_call0.v3 addi,
    StableHlo.TRef.ternary main_call0.v1 main_call0.v3 (.of main_v0) main_call0.call0.v0 select,
    StableHlo.TRef.unary main_call0.call0.v0 main_call0.v5 (broadcastInDim S16777216x1 ![0] bcast_S16777216_S16777216x1_0) ]
abbrev opsT : List (HloOp τ sig (Elt F)) :=
  [
    StableHlo.TRef.nullary main_call0.c_1 (constantI S1 32 99999#32),
    StableHlo.TRef.nullary main_call0.c_2 (constantI S_ 32 0#32),
    StableHlo.TRef.unary main_call0.c_2 main_call0.v6 (broadcastInDim S16777216x1 ![] bcast_S_S16777216x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16777216x1 ![0, 1] bcast_S1x1_S16777216x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1) ]
abbrev opsR : List (HloOp τ sig (Elt F)) :=
  [
    StableHlo.TRef.binary main_call0.v11 main_call0.c_3 main_call0.v12 (fun x v => Host.reduce IntOp.andi x v reducesTo_S16777216x1_S16777216_d1 h_S_) ]
abbrev opsG : List (HloOp τ sig (Elt F)) :=
  [
    StableHlo.TRef.binary (.of main_arg1) main_call0.v5 main_call0.v13 (fun x i => Host.gather gather_S100000x1_S16777216x1_S16777216x1_1_0_n_n_0_1_11 x i),
    StableHlo.TRef.unary main_call0.v12 main_call0.v14 (broadcastInDim S16777216x1 ![0] bcast_S16777216_S16777216x1_0),
    StableHlo.TRef.nullary main_call0.cst (constant S_ .f32 0x7FC00000#32),
    StableHlo.TRef.unary main_call0.cst main_call0.v15 (broadcastInDim S16777216x1 ![] bcast_S_S16777216x1),
    StableHlo.TRef.ternary main_call0.v14 main_call0.v13 main_call0.v15 main_call0.v16 select ]
abbrev opsB : List (HloOp τ sig (Elt F)) :=
  [
    StableHlo.nullary main_cst (constant S_ .f32 0x00000000#32),
    StableHlo.binary main_v1 main_cst main_v2 ((fun x v => Host.reduceAdd x v reducesTo_S16777216x1_S1_d0 h_S_) : (⟨S16777216x1, .f32⟩ : BufTy).Contents (Elt F) → (⟨S_, .f32⟩ : BufTy).Contents (Elt F) → (⟨S1, .f32⟩ : BufTy).Contents (Elt F)),
    StableHlo.nullary main_cst_0 (constant S_ .f32 0x4B800000#32),
    StableHlo.unary main_cst_0 main_v3 (broadcastInDim S1 ![] bcast_S_S1 : (⟨S_, .f32⟩ : BufTy).Contents (Elt F) → (⟨S1, .f32⟩ : BufTy).Contents (Elt F)),
    StableHlo.binary main_v2 main_v3 main_v4 (Host.divf : (⟨S1, .f32⟩ : BufTy).Contents (Elt F) → (⟨S1, .f32⟩ : BufTy).Contents (Elt F) → (⟨S1, .f32⟩ : BufTy).Contents (Elt F)),
    StableHlo.unary main_v4 main_v5 (broadcastInDim S1x1 ![1] bcast_S1_S1x1_1 : (⟨S1, .f32⟩ : BufTy).Contents (Elt F) → (⟨S1x1, .f32⟩ : BufTy).Contents (Elt F)),
    StableHlo.unary main_v5 main_v6 (broadcastInDim S16777216x1 ![0, 1] bcast_S1x1_S16777216x1_0_1 : (⟨S1x1, .f32⟩ : BufTy).Contents (Elt F) → (⟨S16777216x1, .f32⟩ : BufTy).Contents (Elt F)),
    StableHlo.binary main_v1 main_v6 main_v7 (subf : (⟨S16777216x1, .f32⟩ : BufTy).Contents (Elt F) → (⟨S16777216x1, .f32⟩ : BufTy).Contents (Elt F) → (⟨S16777216x1, .f32⟩ : BufTy).Contents (Elt F)),
    StableHlo.binary main_v7 main_v7 main_v8 (mulf : (⟨S16777216x1, .f32⟩ : BufTy).Contents (Elt F) → (⟨S16777216x1, .f32⟩ : BufTy).Contents (Elt F) → (⟨S16777216x1, .f32⟩ : BufTy).Contents (Elt F)),
    StableHlo.nullary main_cst_1 (constant S_ .f32 0x00000000#32),
    StableHlo.binary main_v8 main_cst_1 main_v9 ((fun x v => Host.reduceAdd x v reducesTo_S16777216x1_S1_d0 h_S_) : (⟨S16777216x1, .f32⟩ : BufTy).Contents (Elt F) → (⟨S_, .f32⟩ : BufTy).Contents (Elt F) → (⟨S1, .f32⟩ : BufTy).Contents (Elt F)),
    StableHlo.nullary main_cst_2 (constant S_ .f32 0x4B800000#32),
    StableHlo.unary main_cst_2 main_v10 (broadcastInDim S1 ![] bcast_S_S1 : (⟨S_, .f32⟩ : BufTy).Contents (Elt F) → (⟨S1, .f32⟩ : BufTy).Contents (Elt F)),
    StableHlo.binary main_v9 main_v10 main_v11 (Host.divf : (⟨S1, .f32⟩ : BufTy).Contents (Elt F) → (⟨S1, .f32⟩ : BufTy).Contents (Elt F) → (⟨S1, .f32⟩ : BufTy).Contents (Elt F)),
    StableHlo.unary main_v11 main_v12 (Host.sqrt : (⟨S1, .f32⟩ : BufTy).Contents (Elt F) → (⟨S1, .f32⟩ : BufTy).Contents (Elt F)),
    StableHlo.nullary main_cst_3 (constant S_ .f32 0x2EDBE6FF#32),
    StableHlo.unary main_cst_3 main_v13 (broadcastInDim S1 ![] bcast_S_S1 : (⟨S_, .f32⟩ : BufTy).Contents (Elt F) → (⟨S1, .f32⟩ : BufTy).Contents (Elt F)),
    StableHlo.binary main_v12 main_v13 main_v14 (maximumf : (⟨S1, .f32⟩ : BufTy).Contents (Elt F) → (⟨S1, .f32⟩ : BufTy).Contents (Elt F) → (⟨S1, .f32⟩ : BufTy).Contents (Elt F)),
    StableHlo.unary main_v4 main_v15 (broadcastInDim S1x1 ![1] bcast_S1_S1x1_1 : (⟨S1, .f32⟩ : BufTy).Contents (Elt F) → (⟨S1x1, .f32⟩ : BufTy).Contents (Elt F)),
    StableHlo.unary main_v15 main_v16 (broadcastInDim S16777216x1 ![0, 1] bcast_S1x1_S16777216x1_0_1 : (⟨S1x1, .f32⟩ : BufTy).Contents (Elt F) → (⟨S16777216x1, .f32⟩ : BufTy).Contents (Elt F)),
    StableHlo.binary main_v1 main_v16 main_v17 (subf : (⟨S16777216x1, .f32⟩ : BufTy).Contents (Elt F) → (⟨S16777216x1, .f32⟩ : BufTy).Contents (Elt F) → (⟨S16777216x1, .f32⟩ : BufTy).Contents (Elt F)),
    StableHlo.unary main_v14 main_v18 (broadcastInDim S1x1 ![1] bcast_S1_S1x1_1 : (⟨S1, .f32⟩ : BufTy).Contents (Elt F) → (⟨S1x1, .f32⟩ : BufTy).Contents (Elt F)),
    StableHlo.unary main_v18 main_v19 (broadcastInDim S16777216x1 ![0, 1] bcast_S1x1_S16777216x1_0_1 : (⟨S1x1, .f32⟩ : BufTy).Contents (Elt F) → (⟨S16777216x1, .f32⟩ : BufTy).Contents (Elt F)),
    StableHlo.binary main_v17 main_v19 main_v20 (Host.divf : (⟨S16777216x1, .f32⟩ : BufTy).Contents (Elt F) → (⟨S16777216x1, .f32⟩ : BufTy).Contents (Elt F) → (⟨S16777216x1, .f32⟩ : BufTy).Contents (Elt F)) ]

theorem ops_split : (ops : List (HloOp τ sig (Elt F))) = opsI ++ (opsT ++ (opsR ++ (opsG ++ opsB))) := rfl

/-- Running two lines one after the other is running the second from where the first ends. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

open Cert.Spec in
/-- After the first piece: the index column flattened, an index below zero shifted up by the table's length, spread back
    over the column shape. -/
theorem idx_eq (V : Valuation τ sig (Elt F)) :
    after opsI V (main_call0_v5 : DevRef τ sig) = takeIdx (V (main_arg0 : DevRef τ sig)) := by
  after_results_simp
  rfl
theorem idx_arg1 (V : Valuation τ sig (Elt F)) :
    after opsI V (main_arg1 : DevRef τ sig) = V (main_arg1 : DevRef τ sig) := by
  after_results_simp

open Cert.Spec in
/-- After the second piece: the conjunction of "not below zero" and "not above 99999" of the shifted index column, and the
    initial value of the conjunction over the unit axis. -/
theorem test_eq (W : Valuation τ sig (Elt F)) :
    after opsT W (main_call0_v11 : DevRef τ sig)
      = andi (cmpi .sge (W (main_call0_v5 : DevRef τ sig)) (broadcastInDim SCol ![] bc_S0_SCol (constantI S0 32 0#32)))
          (cmpi .sle (W (main_call0_v5 : DevRef τ sig))
            (broadcastInDim SCol ![0, 1] bc_S11_SCol (broadcastInDim S11 ![1] bc_SOne_S11 (constantI SOne 32 99999#32)))) := by
  after_results_simp
  rfl
open Cert.Spec in
theorem test_init (W : Valuation τ sig (Elt F)) :
    after opsT W (main_call0_c_3 : DevRef τ sig) = constantI S0 1 1#1 := by
  after_results_simp
  rfl
theorem test_v5 (W : Valuation τ sig (Elt F)) :
    after opsT W (main_call0_v5 : DevRef τ sig) = W (main_call0_v5 : DevRef τ sig) := by
  after_results_simp
theorem test_arg1 (W : Valuation τ sig (Elt F)) :
    after opsT W (main_arg1 : DevRef τ sig) = W (main_arg1 : DevRef τ sig) := by
  after_results_simp

open Cert.Spec in
attribute [local irreducible] Host.reduce in
/-- After the third piece: the conjunction over the unit axis, a function of its two operands. -/
theorem red_eq (W : Valuation τ sig (Elt F)) :
    after opsR W (main_call0_v12 : DevRef τ sig)
      = Host.reduce IntOp.andi (W (main_call0_v11 : DevRef τ sig)) (W (main_call0_c_3 : DevRef τ sig)) red_SCol_SVec h_S0 := by
  after_results_simp
  rfl
theorem red_v5 (W : Valuation τ sig (Elt F)) :
    after opsR W (main_call0_v5 : DevRef τ sig) = W (main_call0_v5 : DevRef τ sig) := by
  after_results_simp
theorem red_arg1 (W : Valuation τ sig (Elt F)) :
    after opsR W (main_arg1 : DevRef τ sig) = W (main_arg1 : DevRef τ sig) := by
  after_results_simp

open Cert.Spec in
/-- After the fourth piece: the table gathered at the shifted index column where the spread conjunction holds, the fill
    word elsewhere. -/
theorem gath_eq (W : Valuation τ sig (Elt F)) :
    after opsG W (main_v1 : DevRef τ sig)
      = select (broadcastInDim SCol ![0] bc_SVec_SCol (W (main_call0_v12 : DevRef τ sig)))
          (Host.gather takeDims (W (main_arg1 : DevRef τ sig)) (W (main_call0_v5 : DevRef τ sig)))
          (broadcastInDim SCol ![] bc_S0_SCol (constant S0 .f32 0x7FC00000#32)) := by
  after_results_simp
  rfl

/-- After the last piece, from any contents, the result array holds the normalization of the looked-up column. -/
theorem tail_eq (W : Valuation τ sig (Elt F)) :
    after opsB W (main_v20 : DevRef τ sig) = Cert.Spec.tailOut (W (main_v1 : DevRef τ sig)) := by
  after_results_simp
  rfl

/-- What the result array holds after the whole line: the normalization of the looked-up column, a function of the two
    argument arrays. The pieces compose: each later piece reads what the earlier ones left. -/
theorem out_eq (V : Valuation τ sig (Elt F)) :
    after ops V (main_v20 : DevRef τ sig)
      = Cert.Spec.tailOut (Cert.Spec.takeOut (V (main_arg0 : DevRef τ sig)) (V (main_arg1 : DevRef τ sig))) := by
  rw [ops_split, after_app, after_app, after_app, after_app, tail_eq, gath_eq, red_eq, red_v5, red_arg1,
    test_eq, test_init, test_v5, test_arg1, idx_eq, idx_arg1]
  rfl

/-- No operation writes an argument array. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On every device, for any float values, from any memory with zero counters: every weakly fair execution of the
    reference terminates with the result array at the normalization of the looked-up column, a function of the two
    argument arrays alone, and with the argument arrays unchanged. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v20) = Cert.Spec.tailOut (Cert.Spec.takeOut (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v20).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.Hand

end
-- ==== Proof.RefValue.lean ====
/-
  The reference's normalization read at one entry, over the extended reals.

  For a column x of N = 2^24 entries the reference computes, as arrays of one entry, the mean m = (0 + sum x) / N and the
  deviation s = max (sqrt ((0 + sum (x - m)^2) / N)) eps, spreads each over the column, and returns (x - m) / s entry by
  entry. Over the extended reals a sum into an array of one entry is the initial value plus the sum over every index, a
  spread one-entry array reads its entry everywhere, and the entrywise operations are the extended reals' own; so the
  result at an index i is (x i - m) / s with m and s the closed forms above.
-/
import proofs.«136790_j4312147165694_2_alg».proof.Proof.HostDef
import Idealize.ShloMosaic.PureOps.Ideal.Laws

noncomputable section

namespace Cert.RefValue

open Idealize.ShloMosaic Cert.Spec

/-- The sum of a column from an initial word, into an array of one entry: at that entry, the initial value plus the sum
    over every index of the column. -/
theorem sum_apply (y : FVec Ideal SCol .f32) (w : BitVec 32) (j : SOne.Idx) :
    Host.reduceAdd y (constant (F := Ideal) S0 .f32 w) red_SCol_SOne h_S0 j = Ideal.ofBits .f32 w + ∑ i, y i :=
  Ideal.hostReduceAdd_total red_SCol_SOne (by decide) y (Ideal.ofBits .f32 w) j

/-- A one-entry array whose entry is c, spread over the column, reads c at every index. -/
theorem spread_apply (y : FVec Ideal SOne .f32) (c : EReal) (hy : ∀ j, y j = c) (i : SCol.Idx) :
    broadcastInDim SCol ![0, 1] bc_S11_SCol (broadcastInDim S11 ![1] bc_SOne_S11 y) i = c :=
  hy _

/-- The mean as the reference computes it: the sum from zero over the count, an array of one entry. -/
def meanVec (x : FVec Ideal SCol .f32) : FVec Ideal SOne .f32 :=
  Host.divf (Host.reduceAdd x (constant S0 .f32 0x00000000#32) red_SCol_SOne h_S0)
    (broadcastInDim SOne ![] bc_S0_SOne (constant S0 .f32 0x4B800000#32))

/-- Its entry is the mean. -/
theorem meanVec_apply (x : FVec Ideal SCol .f32) (j : SOne.Idx) : meanVec x j = refMean x := by
  show Ideal.div (Host.reduceAdd x (constant (F := Ideal) S0 .f32 0x00000000#32) red_SCol_SOne h_S0 j)
    (Ideal.ofBits .f32 0x4B800000#32) = refMean x
  rw [sum_apply]
  rfl

/-- The deviations from the mean. -/
def devVec (x : FVec Ideal SCol .f32) : FVec Ideal SCol .f32 :=
  subf x (broadcastInDim SCol ![0, 1] bc_S11_SCol (broadcastInDim S11 ![1] bc_SOne_S11 (meanVec x)))

/-- At an index: the entry minus the mean. -/
theorem devVec_apply (x : FVec Ideal SCol .f32) (i : SCol.Idx) : devVec x i = x i - refMean x := by
  show x i - broadcastInDim SCol ![0, 1] bc_S11_SCol (broadcastInDim S11 ![1] bc_SOne_S11 (meanVec x)) i = _
  rw [spread_apply _ _ (meanVec_apply x)]

/-- The deviation as the reference computes it: the root of the sum of squared deviations from zero over the count, not
    below the floor; an array of one entry. -/
def stdVec (x : FVec Ideal SCol .f32) : FVec Ideal SOne .f32 :=
  maximumf
    (Host.sqrt (Host.divf (Host.reduceAdd (mulf (devVec x) (devVec x)) (constant S0 .f32 0x00000000#32) red_SCol_SOne h_S0)
      (broadcastInDim SOne ![] bc_S0_SOne (constant S0 .f32 0x4B800000#32))))
    (broadcastInDim SOne ![] bc_S0_SOne (constant S0 .f32 0x2EDBE6FF#32))

/-- Its entry is the deviation. -/
theorem stdVec_apply (x : FVec Ideal SCol .f32) (j : SOne.Idx) : stdVec x j = refStd x := by
  show max (Ideal.sqrt (Ideal.div
      (Host.reduceAdd (mulf (devVec x) (devVec x)) (constant (F := Ideal) S0 .f32 0x00000000#32) red_SCol_SOne h_S0 j)
      (Ideal.ofBits .f32 0x4B800000#32))) (Ideal.ofBits .f32 0x2EDBE6FF#32) = refStd x
  rw [sum_apply]
  have hsq : ∀ i, mulf (devVec x) (devVec x) i = (x i - refMean x) * (x i - refMean x) := fun i => by
    show devVec x i * devVec x i = _
    rw [devVec_apply]
  rw [Finset.sum_congr rfl fun i _ => hsq i]
  rfl

/-- The normalization is the quotient of the deviations by the spread deviation. -/
theorem tailOut_eq (x : FVec Ideal SCol .f32) :
    tailOut x = Host.divf (devVec x) (broadcastInDim SCol ![0, 1] bc_S11_SCol (broadcastInDim S11 ![1] bc_SOne_S11 (stdVec x))) :=
  rfl

/-- The reference's normalization at an index: the entry minus the mean, over the deviation. -/
theorem tailOut_apply (x : FVec Ideal Cert.Spec.SCol .f32) (i : Cert.Spec.SCol.Idx) :
    Cert.Spec.tailOut (F := Ideal) x i = Cert.Spec.refOut x i := by
  rw [tailOut_eq]
  show Ideal.div (devVec x i) (broadcastInDim SCol ![0, 1] bc_S11_SCol (broadcastInDim S11 ![1] bc_SOne_S11 (stdVec x)) i) = _
  rw [devVec_apply, spread_apply _ _ (stdVec_apply x)]
  rfl

end Cert.RefValue

end
-- ==== Proof.Reals.lean ====
/-
  The identity of real numbers that joins the two programs.

  Let x be a column of N = 2^24 real numbers, S = sum x, Q = sum x^2, m = S / N. The reference normalizes by the root of
  (sum (x - m)^2) / N, the kernel by the root of Q / N - m * m. Expanding the square,
    sum (x - m)^2 = Q - 2 m S + N m^2 = Q - N m^2          (since S = N m),
  so the two radicands are the same real number; the floor, the subtraction of the mean and the final quotient are then
  the same operations applied to equal arguments. Over the extended reals the division by the count N is the
  multiplication by the real number 1 / N, and sums, differences and products of real numbers are real, so every
  quantity involved is the extended real of a real number and the identity is the one over the reals.
-/
import proofs.«136790_j4312147165694_2_alg».proof.Proof.Spec
import Mathlib.Tactic.FieldSimp
import Mathlib.Tactic.Ring
import Mathlib.Tactic.NormNum
import Mathlib.Algebra.BigOperators.Ring.Finset

noncomputable section

namespace Cert.Reals

open Idealize.ShloMosaic Cert.Spec

/-- The zero word denotes 0. -/
theorem zero_eq : Spec.zero = 0 := Ideal.ofBits_zero_f32

/-- The count word denotes 2^24 = 16777216 (exponent field 151, significand field 0: 2^23 * 2^(151 - 127 - 23)). -/
theorem cnt_eq : Spec.cnt = ((16777216 : ℝ) : EReal) := by
  unfold Spec.cnt
  simp [Ideal.ofBits, Ideal.ieee, -EReal.coe_mul]
  norm_num

/-- The column has 2^24 * 1 indices. -/
theorem card_col : Fintype.card SCol.Idx = 16777216 := (Shape.card_idx (s := SCol)).trans (by decide)

/-- A finite sum of real numbers, taken in the extended reals, is their real sum. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The mean squared deviation is the mean square minus the squared mean: for N reals r with mean m = (sum r) / N,
    (sum (r - m)^2) / N = (sum r^2) / N - m^2. Expand (r - m)^2 = r^2 - 2 m r + m^2, sum the three terms (the last one
    N times), and use sum r = N m. -/
theorem var_identity {ι : Type} [Fintype ι] (r : ι → ℝ) (N : ℝ) (hN : N ≠ 0) (hc : (Fintype.card ι : ℝ) = N) :
    (∑ k, (r k - (∑ j, r j) * (1 / N)) * (r k - (∑ j, r j) * (1 / N))) * (1 / N)
      = (∑ k, r k * r k) * (1 / N) - ((∑ j, r j) * (1 / N)) * ((∑ j, r j) * (1 / N)) := by
  have hS : ∑ j, r j = N * ((∑ j, r j) * (1 / N)) := by field_simp
  generalize (∑ j, r j) * (1 / N) = μ at hS ⊢
  have e : ∑ k, (r k - μ) * (r k - μ) = (∑ k, r k * r k) - 2 * μ * (∑ k, r k) + N * (μ * μ) := by
    simp_rw [show ∀ k, (r k - μ) * (r k - μ) = r k * r k - 2 * μ * r k + μ * μ from fun k => by ring]
    rw [Finset.sum_add_distrib, Finset.sum_sub_distrib, ← Finset.mul_sum, Finset.sum_const, Finset.card_univ,
      nsmul_eq_mul, hc]
  rw [e, hS]
  field_simp
  ring

/-- The statement for a column given by real numbers r: the two means are the same quotient (the reference's sum
    starts from 0), it is the real number m = (sum r) * (1 / N), the two radicands are real and equal by the identity
    above, and the rest is the same operations on equal arguments. -/
theorem kerOut_eq_refOut_real (r : SCol.Idx → ℝ) (i : SCol.Idx) :
    kerOut (∑ k, (r k : EReal)) (∑ k, (r k : EReal) * (r k : EReal)) (r i : EReal) = refOut (fun k => (r k : EReal)) i := by
  have hN : (16777216 : ℝ) ≠ 0 := by norm_num
  have hc : (Fintype.card SCol.Idx : ℝ) = 16777216 := by rw [card_col]; norm_num
  have hmean : refMean (fun k => (r k : EReal)) = kerMean (∑ k, (r k : EReal)) := by
    unfold refMean refSum kerMean
    rw [zero_eq, zero_add]
  have hm : kerMean (∑ k, (r k : EReal)) = (((∑ k, r k) * (1 / 16777216) : ℝ) : EReal) := by
    unfold kerMean
    rw [cnt_eq, Ideal.div_coe hN, coe_sum, ← EReal.coe_mul]
  have hstd : refStd (fun k => (r k : EReal)) = kerStd (∑ k, (r k : EReal)) (∑ k, (r k : EReal) * (r k : EReal)) := by
    unfold refStd kerStd refSq
    rw [hmean, hm, zero_eq, zero_add]
    simp only [← EReal.coe_sub, ← EReal.coe_mul]
    rw [coe_sum, coe_sum, cnt_eq, Ideal.div_coe hN, Ideal.div_coe hN, ← EReal.coe_mul, ← EReal.coe_mul, ← EReal.coe_sub,
      var_identity r 16777216 hN hc]
  unfold kerOut refOut
  rw [hmean, hstd]

/-- For a column of real numbers the kernel's normalization (from the total and the total of squares) is the reference's. -/
theorem kerOut_eq_refOut (x : Cert.Spec.SCol.Idx → EReal) (hx : ∀ i, ∃ r : ℝ, x i = (r : EReal)) (i : Cert.Spec.SCol.Idx) :
    Cert.Spec.kerOut (∑ k, x k) (∑ k, x k * x k) (x i) = Cert.Spec.refOut x i := by
  choose r hr using hx
  obtain rfl : x = fun k => (r k : EReal) := funext hr
  exact kerOut_eq_refOut_real r i

end Cert.Reals

end
-- ==== Proof.PreReal.lean ====
/-
  What the precondition says of the looked-up column: every entry is a real number.

  The precondition is the conjunction of two statements, each an "all" over an array: every entry t of the table has
  |t| < +inf, and every index w of the index column has 0 <= w < 100000 (read signed). An extended real whose absolute
  value max t (-t) lies below +inf is neither infinity, so it is a real number. The lookup first adds 100000 to every
  index below zero: no index is below zero, so the shifted column holds entries of the index column and lies in
  [0, 100000) too. It then keeps an entry only where the shifted index passes the test 0 <= w <= 99999 (a conjunction
  folded over an axis of extent one, from the initial value "true"): every index passes. So every entry of the result
  is the gathered one, and the gather reads the table at some index, whichever it is: a real number.
-/
import proofs.«136790_j4312147165694_2_alg».proof.Pre_finite_inputs
import proofs.«136790_j4312147165694_2_alg».proof.Proof.Gen.Pre_finite_inputs
import proofs.«136790_j4312147165694_2_alg».proof.Proof.HostDef
import Idealize.ShloMosaic.Lib.ReduceAll
import Idealize.ShloMosaic.Lib.ValueIdx
import Idealize.ShloMosaic.PureOps.Ideal.Laws

noncomputable section

namespace Cert.PreReal

open Idealize.ShloMosaic Idealize.ShloMosaic.ValueIdx Cert.Spec

/-- The shape of rank zero has one index. -/
instance : Subsingleton Cert.Pre_finite_inputs.S_.Idx := ⟨fun a b => funext fun d => d.elim0⟩

/-- An extended real whose absolute value max x (-x) is below +inf is a real number: at either infinity the
    maximum is +inf. -/
theorem real_of_abs_lt_top (x : EReal) (h : max x (-x) < ⊤) : ∃ r : ℝ, x = (r : EReal) := by
  induction x using EReal.rec with
  | bot => simp at h
  | coe r => exact ⟨r, rfl⟩
  | top => simp at h

/-- The precondition read back: every table entry is a real number, and every index, read signed, lies in
    [0, 100000). Each half is an "all" (a fold of "and" from "true" that came out "true"), so it holds at every index
    of its array; the first compares |t| with the word of +inf, the second is the conjunction of two signed
    comparisons with the literals 0 and 100000. -/
theorem pre_decode (idx : IVec SCol 32) (tab : FVec Ideal STab .f32)
    (h : Cert.Pre_finite_inputs.fn (F := Ideal) idx tab = fun _ => 1#1) :
    (∀ k : STab.Idx, ∃ r : ℝ, tab k = (r : EReal)) ∧ ∀ i : SCol.Idx, 0 ≤ (idx i).toInt ∧ (idx i).toInt < 100000 := by
  have h0 := congrFun h ValueIdx.ix0
  dsimp only [Cert.Pre_finite_inputs.fn] at h0
  rw [andi] at h0
  obtain ⟨ht, hi⟩ := IntOp.andi_eq_one.1 h0
  constructor
  · intro k
    have e := Host.reduce_andi_all _ _ _ _ _ ht k
    change Ideal.cmp .olt (max (tab k) (-(tab k))) (Ideal.ofBits .f32 0x7F800000#32) = 1#1 at e
    -- the word 0x7F800000 denotes +inf
    have htop : Ideal.ofBits .f32 0x7F800000#32 = ⊤ := by simp [Ideal.ofBits, Ideal.ieee]
    rw [htop] at e
    refine real_of_abs_lt_top _ ?_
    by_contra hn
    simp [Ideal.cmp, hn] at e
  · intro i
    have e := Host.reduce_andi_all _ _ _ _ _ hi i
    change IntOp.andi (IntOp.cmpi .sge (idx i) 0#32) (IntOp.cmpi .slt (idx i) 100000#32) = 1#1 at e
    rw [IntOp.andi_eq_one, IntOp.cmpi_sge, IntOp.cmpi_slt] at e
    have z : (0#32 : BitVec 32).toInt = 0 := by decide
    have c : (100000#32 : BitVec 32).toInt = 100000 := by decide
    omega

/-- An index that is not below zero is not shifted: the test "w < 0" fails, and the selection keeps w. -/
theorem shift_id (w : BitVec 32) (h0 : 0 ≤ w.toInt) :
    Scalar.select (IntOp.cmpi .slt w 0#32) (IntOp.addi w 100000#32) w = w := by
  have hn : ¬ IntOp.cmpi .slt w 0#32 = 1#1 := by
    rw [IntOp.cmpi_slt]
    have z : (0#32 : BitVec 32).toInt = 0 := by decide
    omega
  rw [eq_zero_of_ne_one hn, select_zero]

/-- Every entry of the shifted index column is an entry of the index column (which one does not matter here: the
    range holds at every index). -/
theorem takeIdx_eq (idx : IVec SCol 32) (hr : ∀ i : SCol.Idx, 0 ≤ (idx i).toInt ∧ (idx i).toInt < 100000) (i : SCol.Idx) :
    ∃ i' : SCol.Idx, takeIdx idx i = idx i' :=
  ⟨_, shift_id _ (hr _).1⟩

/-- A conjunction of "true"s from "true", over any finite set, is "true". -/
theorem fold_andi_one {ι : Type} (s : Finset ι) (f : ι → BitVec 1) (hf : ∀ k, f k = 1#1) :
    s.fold IntOp.andi 1#1 f = 1#1 := by
  classical
  induction s using Finset.induction_on with
  | empty => rfl
  | insert a s ha ih => rw [Finset.fold_insert ha, ih, hf]; rfl

/-- Every entry of a column with values in [0, 100000) passes the range test: 0 <= w and w <= 99999 at every index,
    so the conjunction over the unit axis, from "true", is "true" wherever it is read. -/
theorem takeMask_one (t5 : IVec SCol 32) (hr : ∀ i : SCol.Idx, 0 ≤ (t5 i).toInt ∧ (t5 i).toInt < 100000) (i : SCol.Idx) :
    takeMask t5 i = 1#1 := by
  unfold takeMask
  dsimp only
  rw [broadcastInDim, Host.reduce_eq_fold]
  refine fold_andi_one _ _ (fun k => ?_)
  change IntOp.andi (IntOp.cmpi .sge (t5 k) 0#32) (IntOp.cmpi .sle (t5 k) 99999#32) = 1#1
  rw [IntOp.andi_eq_one, IntOp.cmpi_sge, IntOp.cmpi_sle]
  have z : (0#32 : BitVec 32).toInt = 0 := by decide
  have c : (99999#32 : BitVec 32).toInt = 99999 := by decide
  have := hr k
  omega

/-- Under the precondition every looked-up entry is a real number: the table's entries are finite, every index lies in [0, 100000), so no index is shifted, every entry passes the range test and is an entry of the table. -/
theorem take_real (idx : IVec Cert.Spec.SCol 32) (tab : FVec Ideal Cert.Spec.STab .f32)
    (h : Cert.Pre_finite_inputs.fn (F := Ideal) idx tab = fun _ => 1#1) :
    ∀ i : Cert.Spec.SCol.Idx, ∃ r : ℝ, Cert.Spec.takeOut (F := Ideal) idx tab i = (r : EReal) := by
  obtain ⟨htab, hidx⟩ := pre_decode idx tab h
  intro i
  -- the shifted column lies in [0, 100000) as the index column does
  have hr : ∀ i : SCol.Idx, 0 ≤ (takeIdx idx i).toInt ∧ (takeIdx idx i).toInt < 100000 := fun i => by
    obtain ⟨i', e⟩ := takeIdx_eq idx hidx i
    rw [e]; exact hidx i'
  unfold takeOut
  dsimp only
  -- the selection keeps the gathered entry, which is the table read at some index
  rw [select_apply, takeMask_one _ hr i, select_one]
  exact htab _

end Cert.PreReal

end
-- ==== Proof.lean ====
/-
  The claim: a table of 100000 numbers is looked up at 2^24 indices, and the looked-up values are normalized to mean
  zero and deviation one. The kernel program takes the sum and the sum of squares block by block in a first pass, derives
  the mean and the deviation from them, and normalizes block by block in a second pass; the reference takes the mean,
  then the mean squared deviation from it. Under the precondition — every table entry finite, every index in
  [0, 100000) — every looked-up value is a real number, the two sums are the same sums in another order, and
  sum (x - m)^2 / N = sum x^2 / N - m^2 for m = sum x / N, so the two programs return the same column of extended reals.

  The five conjuncts: each program runs to the end, faults nowhere and leaves its two argument arrays unchanged (for
  the kernel program read at the word level and at the extended reals, the run over its two regions; for the reference
  its run as a list of host operations); the idealized kernel is the kernel's own text (nothing was rewritten); and
  the two idealized programs' results are equal.
-/
import proofs.«136790_j4312147165694_2_alg».proof.Defs
import proofs.«136790_j4312147165694_2_alg».proof.Proof.Gen.Kernel
import proofs.«136790_j4312147165694_2_alg».proof.Proof.Gen.KernelIdeal
import proofs.«136790_j4312147165694_2_alg».proof.Proof.Gen.ReferenceIdeal
import proofs.«136790_j4312147165694_2_alg».proof.Proof.Gen.Pre_finite_inputs
import proofs.«136790_j4312147165694_2_alg».proof.Proof.RegsI
import proofs.«136790_j4312147165694_2_alg».proof.Proof.RegsB
import proofs.«136790_j4312147165694_2_alg».proof.Proof.ValueI
import proofs.«136790_j4312147165694_2_alg».proof.Proof.RefRun
import proofs.«136790_j4312147165694_2_alg».proof.Proof.RefValue
import proofs.«136790_j4312147165694_2_alg».proof.Proof.Reals
import proofs.«136790_j4312147165694_2_alg».proof.Proof.PreReal
import proofs.«136790_j4312147165694_2_alg».proof.Proof.Relayout

noncomputable section

namespace Cert.Proof

open Idealize.ShloMosaic Idealize.ShloMosaic.TcCoe Idealize.SL.Sem

/-- The kernel program, read at the word level, runs and leaves its arguments unchanged. -/
theorem frame_k : Cert.frame_Kernel := fun m ρ _ => Cert.Kernel.Hand.frame m ρ

/-- The same program read at the extended reals. -/
theorem frame_ki : Cert.frame_KernelIdeal := fun m ρ _ => Cert.KernelIdeal.Hand.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Nothing was rewritten between the kernel and its idealization. -/
theorem preserves : Cert.preserves_Kernel_KernelIdeal := trivial

/-- For a column of real numbers the kernel's column — the normalized square array laid out as a column again — is the
    reference's normalized column: laying out commutes with entrywise functions and keeps sums, and the two
    normalizations agree on reals. -/
theorem bridge (x : Cert.Spec.SCol.Idx → EReal) (hx : ∀ i, ∃ r : ℝ, x i = (r : EReal)) :
    Cert.Spec.tailOut (F := Ideal) x
      = Cert.Spec.toCol (fun j => Cert.Spec.kerOut (∑ j', Cert.Spec.toSq x j') (∑ j', Cert.Spec.toSq x j' * Cert.Spec.toSq x j') (Cert.Spec.toSq x j)) := by
  have hS : ∑ j', Cert.Spec.toSq x j' = ∑ i, x i := Cert.Relayout.sum_toSq x
  have hQ : ∑ j', Cert.Spec.toSq x j' * Cert.Spec.toSq x j' = ∑ i, x i * x i :=
    Cert.Relayout.sum_toSq (fun i => x i * x i)
  rw [hS, hQ]
  have hcol : Cert.Spec.toCol (fun j => Cert.Spec.kerOut (∑ i, x i) (∑ i, x i * x i) (Cert.Spec.toSq x j))
      = fun i => Cert.Spec.kerOut (∑ i, x i) (∑ i, x i * x i) (x i) :=
    Cert.Relayout.toCol_toSq (fun i => Cert.Spec.kerOut (∑ i, x i) (∑ i, x i * x i) (x i))
  rw [hcol]
  funext i
  rw [Cert.RefValue.tailOut_apply x i, Cert.Reals.kerOut_eq_refOut x hx i]

/-- The two idealized programs, from memories agreeing on the arguments, end with equal results. -/
theorem algebraic : Cert.algebraic_KernelIdeal_ReferenceIdeal := by
  intro m ρ m' ρ' hpre hagree
  refine ⟨fun c => Cert.Spec.toCol (fun j => Cert.Spec.kerOut (Cert.KernelIdeal.HandValue.totS m c) (Cert.KernelIdeal.HandValue.totQ m c)
      (Cert.Spec.toSq (Cert.KernelIdeal.HandValue.colX m c) j)), ?_, ?_⟩
  · exact (θ_run Cert.KernelIdeal.defs _ _).mono
      (fun r h c => ⟨(h c).1.trans (Cert.KernelIdeal.HandValue.result m ρ c), (h c).2⟩)
      (Cert.KernelIdeal.Hand.run_result Cert.KernelIdeal.Hand.regs0 Cert.KernelIdeal.Hand.regs1 m ρ)
  · refine (θ_run Cert.ReferenceIdeal.defs _ _).mono (fun r h c => ⟨(h c).1.trans ?_, (h c).2⟩)
      (Cert.ReferenceIdeal.Hand.run (F := Ideal) m' ρ')
    rw [(hagree c).1, (hagree c).2]
    exact bridge (Cert.KernelIdeal.HandValue.colX m c) (Cert.PreReal.take_real _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
